-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_320000" .f32 0x3651B717#32 ((1 / 320000 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg1 : IVec S2x320000 32) (main_v13 : IVec S_ 1) (main_v15 : IVec S2x320000 1) (main_c_5 : IVec S_ 32) : IVec S_ 1 :=
  let main_v16 : IVec S2x320000 32 := broadcastInDim S2x320000 ![] bcast_S_S2x320000 main_c_5
  let main_v17 : IVec S2x320000 1 := cmpi .sle main_arg1 main_v16
  let main_v18 : IVec S2x320000 1 := andi main_v15 main_v17
  let main_c_6 : IVec S_ 1 := constantI S_ 1 1#1
  let main_v19 : IVec S_ 1 := (fun x v => Host.reduce IntOp.andi x v reducesTo_S2x320000_S_d0_1 h_S_) main_v18 main_c_6
  let main_v20 : IVec S_ 1 := andi main_v13 main_v19
  main_v20

def fn {F : FTy → Type} [FloatOps F] (main_arg0 : FVec F S10000x128 .f32) (main_arg1 : IVec S2x320000 32) (main_arg2 : FVec F S128x256 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S2x320000 32 := broadcastInDim S2x320000 ![] bcast_S_S2x320000 main_c_4
  let main_v15 : IVec S2x320000 1 := cmpi .sge main_arg1 main_v14
  let main_c_5 : IVec S_ 32 := constantI S_ 32 9999#32
  fn_part1 (F := F) main_arg1 main_v13 main_v15 main_c_5
-- ==== Kernel.lean ====
abbrev S10000x128 : Shape := ⟨2, ![10000, 128]⟩
abbrev S2x320000 : Shape := ⟨2, ![2, 320000]⟩
abbrev S128x256 : Shape := ⟨2, ![128, 256]⟩
abbrev S128 : Shape := ⟨1, ![128]⟩
abbrev S32x10000 : Shape := ⟨2, ![32, 10000]⟩
abbrev S2x10112 : Shape := ⟨2, ![2, 10112]⟩
abbrev S10000 : Shape := ⟨1, ![10000]⟩
abbrev S_ : Shape := ⟨0, ![]⟩
abbrev S16 : Shape := ⟨1, ![16]⟩
abbrev S1x16 : Shape := ⟨2, ![1, 16]⟩
abbrev S1x10000 : Shape := ⟨2, ![1, 10000]⟩
abbrev S1x128 : Shape := ⟨2, ![1, 128]⟩
abbrev S128x128 : Shape := ⟨2, ![128, 128]⟩
abbrev S32x128 : Shape := ⟨2, ![32, 128]⟩
abbrev S8x128 : Shape := ⟨2, ![8, 128]⟩

abbrev nBuf : Table → Nat
  | .hbm => 7
  | .local .tc .vmem => 5
  | .local .scVector .vmem => 2
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x256, .f32⟩
  | .hbm, ⟨3, _⟩ => ⟨S128, .f32⟩
  | .hbm, ⟨4, _⟩ => ⟨S32x10000, .f32⟩
  | .hbm, ⟨5, _⟩ => ⟨S1x128, .f32⟩
  | .hbm, ⟨6, _⟩ => ⟨S10000x128, .f32⟩
  | .local .tc .vmem, ⟨0, _⟩ => ⟨S32x10000, .f32⟩
  | .local .tc .vmem, ⟨1, _⟩ => ⟨S10000x128, .f32⟩
  | .local .tc .vmem, ⟨2, _⟩ => ⟨S128x256, .f32⟩
  | .local .tc .vmem, ⟨3, _⟩ => ⟨S1x128, .f32⟩
  | .local .tc .vmem, ⟨4, _⟩ => ⟨S10000x128, .f32⟩
  | .local .scVector .vmem, ⟨0, _⟩ => ⟨S2x10112, .i32⟩
  | .local .scVector .vmem, ⟨1, _⟩ => ⟨S10000, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => true
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg1_scv : Ref sig .scVector := ⟨.hbm, 1, rfl⟩
abbrev main_v0_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem1_0 : DmaSem sig := 3
abbrev cc1_sem2_0 : DmaSem sig := 4
abbrev cc1_sem3_0 : DmaSem sig := 5
abbrev cc1_sem4_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_2 : BitVec 32 := 0#32
  let c78_i32 : BitVec 32 := 78#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c78_i32 v1
  let c4_i32 : BitVec 32 := 4#32
  let v3 : BitVec 32 := Scalar.minsi v1 c4_i32
  let v4 : BitVec 32 := Scalar.addi v2 v3
  let c2421_i32 : BitVec 32 := 2421#32
  let v8 : BitVec 32 := Scalar.minsi v4 c2421_i32
  let c128_i32 : BitVec 32 := 128#32
  let v10 : BitVec 32 := Scalar.muli v8 c128_i32
  ![0, v10.toNat]
@[reducible] def k0_t1_loop : Scf.Loop 32 :=
  let c0_i32_5 : BitVec 32 := 0#32
  let c25_i32 : BitVec 32 := 25#32
  let v14 : BitVec 32 := Scalar.addi c0_i32_5 c25_i32
  let c1_i32_6 : BitVec 32 := 1#32
  ⟨c0_i32_5, v14, c1_i32_6⟩
def k0_off2 (k0_t1 : Fin k0_t1_loop.trips) (c0_i32_17 : BitVec 32) : Fin 1 → Nat :=
  let c0_i32_5 : BitVec 32 := 0#32
  let c1_i32_6 : BitVec 32 := 1#32
  let arg7 : BitVec 32 := Scf.iv c0_i32_5 c1_i32_6 k0_t1
  let c25_i32_16 : BitVec 32 := 25#32
  let v23 : BitVec 32 := Scalar.muli arg7 c25_i32_16
  let v24 : BitVec 32 := Scalar.addi v23 c0_i32_17
  let c16_i32 : BitVec 32 := 16#32
  let v25 : BitVec 32 := Scalar.muli v24 c16_i32
  let v26 : Index := Scalar.indexCast v25
  ![v26.toNat]
@[reducible] def k0_t2_loop (i : grid0.Coords) : Scf.Loop 32 :=
  let c0_i32_12 : BitVec 32 := 0#32
  let c78_i32_1 : BitVec 32 := 78#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c1_i32 : BitVec 32 := 1#32
  let c0_i32 : BitVec 32 := 0#32
  let v6 : BitVec 32 := Scalar.select v5 c1_i32 c0_i32
  let v7 : BitVec 32 := Scalar.addi c78_i32_1 v6
  let v18 : BitVec 32 := Scalar.subi v7 c0_i32_12
  let c1_i32_13 : BitVec 32 := 1#32
  let v20 : BitVec 32 := Scalar.divsi v18 c1_i32_13
  let v21 : BitVec 32 := Scalar.muli v20 c1_i32_13
  let v22 : BitVec 32 := Scalar.addi c0_i32_12 v21
  let c1_i32_14 : BitVec 32 := 1#32
  ⟨c0_i32_12, v22, c1_i32_14⟩
def k0_off3 (i : grid0.Coords) (k0_t2 : Fin (k0_t2_loop i).trips) (c0_i32_17 : BitVec 32) : Fin 2 → Nat :=
  let c1_i32_18 : BitVec 32 := 1#32
  let v26 : Index := Scalar.indexCast c1_i32_18
  let c78_i32 : BitVec 32 := 78#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c78_i32 v1
  let c4_i32 : BitVec 32 := 4#32
  let v3 : BitVec 32 := Scalar.minsi v1 c4_i32
  let v4 : BitVec 32 := Scalar.addi v2 v3
  let c2421_i32 : BitVec 32 := 2421#32
  let v8 : BitVec 32 := Scalar.minsi v4 c2421_i32
  let v9 : BitVec 32 := Scalar.subi v4 v8
  let c0_i32_12 : BitVec 32 := 0#32
  let c1_i32_14 : BitVec 32 := 1#32
  let arg7 : BitVec 32 := Scf.iv c0_i32_12 c1_i32_14 k0_t2
  let v23 : BitVec 32 := Scalar.addi v9 arg7
  let c128_i32_16 : BitVec 32 := 128#32
  let v24 : BitVec 32 := Scalar.muli v23 c128_i32_16
  let v25 : BitVec 32 := Scalar.addi v24 c0_i32_17
  let v27 : Index := Scalar.indexCast v25
  ![1, v27.toNat]

def k0_chk1 (v28 : IVec S16 32) : Prop :=
  (∀ a x, ((![v28] : Fin 1 → IVec S16 32) a x).toNat < S10000.size a)
instance k0_chk1.dec : ∀ (v28 : IVec S16 32), Decidable (k0_chk1 v28) := fun v28 => decidable_of_iff' _ (Iff.of_eq (k0_chk1.eq_1 v28))
theorem k0_idx1_inb : ∀ (v28 : IVec S16 32) (k0_hw1 : k0_chk1 v28), ∀ a x, ((![v28] : Fin 1 → IVec S16 32) a x).toNat < S10000.size a := fun v28 k0_hw1 => k0_hw1

def k0_chk2 (v32 : IVec S16 32) : Prop :=
  (∀ a x, ((![v32] : Fin 1 → IVec S16 32) a x).toNat < S10000.size a)
instance k0_chk2.dec : ∀ (v32 : IVec S16 32), Decidable (k0_chk2 v32) := fun v32 => decidable_of_iff' _ (Iff.of_eq (k0_chk2.eq_1 v32))
theorem k0_idx2_inb : ∀ (v32 : IVec S16 32) (k0_hw2 : k0_chk2 v32), ∀ a x, ((![v32] : Fin 1 → IVec S16 32) a x).toNat < S10000.size a := fun v32 k0_hw2 => k0_hw2

def k0_chk3 (v36 : IVec S16 32) : Prop :=
  (∀ a x, ((![v36] : Fin 1 → IVec S16 32) a x).toNat < S10000.size a)
instance k0_chk3.dec : ∀ (v36 : IVec S16 32), Decidable (k0_chk3 v36) := fun v36 => decidable_of_iff' _ (Iff.of_eq (k0_chk3.eq_1 v36))
theorem k0_idx3_inb : ∀ (v36 : IVec S16 32) (k0_hw3 : k0_chk3 v36), ∀ a x, ((![v36] : Fin 1 → IVec S16 32) a x).toNat < S10000.size a := fun v36 k0_hw3 => k0_hw3

def k0_chk4 (v40 : IVec S16 32) : Prop :=
  (∀ a x, ((![v40] : Fin 1 → IVec S16 32) a x).toNat < S10000.size a)
instance k0_chk4.dec : ∀ (v40 : IVec S16 32), Decidable (k0_chk4 v40) := fun v40 => decidable_of_iff' _ (Iff.of_eq (k0_chk4.eq_1 v40))
theorem k0_idx4_inb : ∀ (v40 : IVec S16 32) (k0_hw4 : k0_chk4 v40), ∀ a x, ((![v40] : Fin 1 → IVec S16 32) a x).toNat < S10000.size a := fun v40 k0_hw4 => k0_hw4

def k0_chk5 (v44 : IVec S16 32) : Prop :=
  (∀ a x, ((![v44] : Fin 1 → IVec S16 32) a x).toNat < S10000.size a)
instance k0_chk5.dec : ∀ (v44 : IVec S16 32), Decidable (k0_chk5 v44) := fun v44 => decidable_of_iff' _ (Iff.of_eq (k0_chk5.eq_1 v44))
theorem k0_idx5_inb : ∀ (v44 : IVec S16 32) (k0_hw5 : k0_chk5 v44), ∀ a x, ((![v44] : Fin 1 → IVec S16 32) a x).toNat < S10000.size a := fun v44 k0_hw5 => k0_hw5

def k0_chk6 (v48 : IVec S16 32) : Prop :=
  (∀ a x, ((![v48] : Fin 1 → IVec S16 32) a x).toNat < S10000.size a)
instance k0_chk6.dec : ∀ (v48 : IVec S16 32), Decidable (k0_chk6 v48) := fun v48 => decidable_of_iff' _ (Iff.of_eq (k0_chk6.eq_1 v48))
theorem k0_idx6_inb : ∀ (v48 : IVec S16 32) (k0_hw6 : k0_chk6 v48), ∀ a x, ((![v48] : Fin 1 → IVec S16 32) a x).toNat < S10000.size a := fun v48 k0_hw6 => k0_hw6

def k0_chk7 (v52 : IVec S16 32) : Prop :=
  (∀ a x, ((![v52] : Fin 1 → IVec S16 32) a x).toNat < S10000.size a)
instance k0_chk7.dec : ∀ (v52 : IVec S16 32), Decidable (k0_chk7 v52) := fun v52 => decidable_of_iff' _ (Iff.of_eq (k0_chk7.eq_1 v52))
theorem k0_idx7_inb : ∀ (v52 : IVec S16 32) (k0_hw7 : k0_chk7 v52), ∀ a x, ((![v52] : Fin 1 → IVec S16 32) a x).toNat < S10000.size a := fun v52 k0_hw7 => k0_hw7

def k0_chk8 (v56 : IVec S16 32) : Prop :=
  (∀ a x, ((![v56] : Fin 1 → IVec S16 32) a x).toNat < S10000.size a)
instance k0_chk8.dec : ∀ (v56 : IVec S16 32), Decidable (k0_chk8 v56) := fun v56 => decidable_of_iff' _ (Iff.of_eq (k0_chk8.eq_1 v56))
theorem k0_idx8_inb : ∀ (v56 : IVec S16 32) (k0_hw8 : k0_chk8 v56), ∀ a x, ((![v56] : Fin 1 → IVec S16 32) a x).toNat < S10000.size a := fun v56 k0_hw8 => k0_hw8
@[reducible] def k0_t3_loop (i : grid0.Coords) : Scf.Loop 32 :=
  let c0_i32_12 : BitVec 32 := 0#32
  let c78_i32_1 : BitVec 32 := 78#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c1_i32 : BitVec 32 := 1#32
  let c0_i32 : BitVec 32 := 0#32
  let v6 : BitVec 32 := Scalar.select v5 c1_i32 c0_i32
  let v7 : BitVec 32 := Scalar.addi c78_i32_1 v6
  let v18 : BitVec 32 := Scalar.subi v7 c0_i32_12
  let c1_i32_13 : BitVec 32 := 1#32
  let v20 : BitVec 32 := Scalar.divsi v18 c1_i32_13
  let v21 : BitVec 32 := Scalar.muli v20 c1_i32_13
  let v22 : BitVec 32 := Scalar.addi c0_i32_12 v21
  let v19 : BitVec 32 := Scalar.addi c0_i32_12 v18
  let c1_i32_15 : BitVec 32 := 1#32
  ⟨v22, v19, c1_i32_15⟩
def k0_off4 (i : grid0.Coords) (k0_t3 : Fin (k0_t3_loop i).trips) (c0_i32_17 : BitVec 32) : Fin 2 → Nat :=
  let c1_i32_18 : BitVec 32 := 1#32
  let v26 : Index := Scalar.indexCast c1_i32_18
  let c78_i32 : BitVec 32 := 78#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c78_i32 v1
  let c4_i32 : BitVec 32 := 4#32
  let v3 : BitVec 32 := Scalar.minsi v1 c4_i32
  let v4 : BitVec 32 := Scalar.addi v2 v3
  let c2421_i32 : BitVec 32 := 2421#32
  let v8 : BitVec 32 := Scalar.minsi v4 c2421_i32
  let v9 : BitVec 32 := Scalar.subi v4 v8
  let c0_i32_12 : BitVec 32 := 0#32
  let c78_i32_1 : BitVec 32 := 78#32
  let c4_i32_0 : BitVec 32 := 4#32
  let v5 : BitVec 1 := Scalar.cmpi .slt v1 c4_i32_0
  let c1_i32 : BitVec 32 := 1#32
  let c0_i32 : BitVec 32 := 0#32
  let v6 : BitVec 32 := Scalar.select v5 c1_i32 c0_i32
  let v7 : BitVec 32 := Scalar.addi c78_i32_1 v6
  let v18 : BitVec 32 := Scalar.subi v7 c0_i32_12
  let c1_i32_13 : BitVec 32 := 1#32
  let v20 : BitVec 32 := Scalar.divsi v18 c1_i32_13
  let v21 : BitVec 32 := Scalar.muli v20 c1_i32_13
  let v22 : BitVec 32 := Scalar.addi c0_i32_12 v21
  let c1_i32_15 : BitVec 32 := 1#32
  let arg7 : BitVec 32 := Scf.iv v22 c1_i32_15 k0_t3
  let v23 : BitVec 32 := Scalar.addi v9 arg7
  let c128_i32_16 : BitVec 32 := 128#32
  let v24 : BitVec 32 := Scalar.muli v23 c128_i32_16
  let v25 : BitVec 32 := Scalar.addi v24 c0_i32_17
  let v27 : Index := Scalar.indexCast v25
  ![1, v27.toNat]

def k0_chk9 (v28 : IVec S16 32) : Prop :=
  (∀ a x, ((![v28] : Fin 1 → IVec S16 32) a x).toNat < S10000.size a)
instance k0_chk9.dec : ∀ (v28 : IVec S16 32), Decidable (k0_chk9 v28) := fun v28 => decidable_of_iff' _ (Iff.of_eq (k0_chk9.eq_1 v28))
theorem k0_idx9_inb : ∀ (v28 : IVec S16 32) (k0_hw9 : k0_chk9 v28), ∀ a x, ((![v28] : Fin 1 → IVec S16 32) a x).toNat < S10000.size a := fun v28 k0_hw9 => k0_hw9

def k0_chk10 (v32 : IVec S16 32) : Prop :=
  (∀ a x, ((![v32] : Fin 1 → IVec S16 32) a x).toNat < S10000.size a)
instance k0_chk10.dec : ∀ (v32 : IVec S16 32), Decidable (k0_chk10 v32) := fun v32 => decidable_of_iff' _ (Iff.of_eq (k0_chk10.eq_1 v32))
theorem k0_idx10_inb : ∀ (v32 : IVec S16 32) (k0_hw10 : k0_chk10 v32), ∀ a x, ((![v32] : Fin 1 → IVec S16 32) a x).toNat < S10000.size a := fun v32 k0_hw10 => k0_hw10

def k0_chk11 (v36 : IVec S16 32) : Prop :=
  (∀ a x, ((![v36] : Fin 1 → IVec S16 32) a x).toNat < S10000.size a)
instance k0_chk11.dec : ∀ (v36 : IVec S16 32), Decidable (k0_chk11 v36) := fun v36 => decidable_of_iff' _ (Iff.of_eq (k0_chk11.eq_1 v36))
theorem k0_idx11_inb : ∀ (v36 : IVec S16 32) (k0_hw11 : k0_chk11 v36), ∀ a x, ((![v36] : Fin 1 → IVec S16 32) a x).toNat < S10000.size a := fun v36 k0_hw11 => k0_hw11

def k0_chk12 (v40 : IVec S16 32) : Prop :=
  (∀ a x, ((![v40] : Fin 1 → IVec S16 32) a x).toNat < S10000.size a)
instance k0_chk12.dec : ∀ (v40 : IVec S16 32), Decidable (k0_chk12 v40) := fun v40 => decidable_of_iff' _ (Iff.of_eq (k0_chk12.eq_1 v40))
theorem k0_idx12_inb : ∀ (v40 : IVec S16 32) (k0_hw12 : k0_chk12 v40), ∀ a x, ((![v40] : Fin 1 → IVec S16 32) a x).toNat < S10000.size a := fun v40 k0_hw12 => k0_hw12

def k0_chk13 (v44 : IVec S16 32) : Prop :=
  (∀ a x, ((![v44] : Fin 1 → IVec S16 32) a x).toNat < S10000.size a)
instance k0_chk13.dec : ∀ (v44 : IVec S16 32), Decidable (k0_chk13 v44) := fun v44 => decidable_of_iff' _ (Iff.of_eq (k0_chk13.eq_1 v44))
theorem k0_idx13_inb : ∀ (v44 : IVec S16 32) (k0_hw13 : k0_chk13 v44), ∀ a x, ((![v44] : Fin 1 → IVec S16 32) a x).toNat < S10000.size a := fun v44 k0_hw13 => k0_hw13

def k0_chk14 (v48 : IVec S16 32) : Prop :=
  (∀ a x, ((![v48] : Fin 1 → IVec S16 32) a x).toNat < S10000.size a)
instance k0_chk14.dec : ∀ (v48 : IVec S16 32), Decidable (k0_chk14 v48) := fun v48 => decidable_of_iff' _ (Iff.of_eq (k0_chk14.eq_1 v48))
theorem k0_idx14_inb : ∀ (v48 : IVec S16 32) (k0_hw14 : k0_chk14 v48), ∀ a x, ((![v48] : Fin 1 → IVec S16 32) a x).toNat < S10000.size a := fun v48 k0_hw14 => k0_hw14

def k0_chk15 (v52 : IVec S16 32) : Prop :=
  (∀ a x, ((![v52] : Fin 1 → IVec S16 32) a x).toNat < S10000.size a)
instance k0_chk15.dec : ∀ (v52 : IVec S16 32), Decidable (k0_chk15 v52) := fun v52 => decidable_of_iff' _ (Iff.of_eq (k0_chk15.eq_1 v52))
theorem k0_idx15_inb : ∀ (v52 : IVec S16 32) (k0_hw15 : k0_chk15 v52), ∀ a x, ((![v52] : Fin 1 → IVec S16 32) a x).toNat < S10000.size a := fun v52 k0_hw15 => k0_hw15

def k0_chk16 (v56 : IVec S16 32) : Prop :=
  (∀ a x, ((![v56] : Fin 1 → IVec S16 32) a x).toNat < S10000.size a)
instance k0_chk16.dec : ∀ (v56 : IVec S16 32), Decidable (k0_chk16 v56) := fun v56 => decidable_of_iff' _ (Iff.of_eq (k0_chk16.eq_1 v56))
theorem k0_idx16_inb : ∀ (v56 : IVec S16 32) (k0_hw16 : k0_chk16 v56), ∀ a x, ((![v56] : Fin 1 → IVec S16 32) a x).toNat < S10000.size a := fun v56 k0_hw16 => k0_hw16
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_16_r0 : BitVec 32 := 0#32
  ![v1.toNat, 0]
abbrev grid1 : Pipeline.Grid := .none

abbrev stage1_0 : Fin 1 → Memref sig .tc .vmem S32x10000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S10000x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  h_S1x16 : 0 < S1x16.numel
  shapeCasts_S1x16_S16 : S1x16.ShapeCasts S16
  h_S10000 : 0 < S10000.numel
  squeezes_S1x10000_S10000 : S1x10000.Squeezes S10000
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x256_S128x128_0_0 : ∀ a, (![0, 0] : Fin 2 → Nat) a + S128x128.size a ≤ S128x256.size a
  h_S128x128 : 0 < S128x128.numel
  inb_S128x256_S128x128_0_128 : ∀ a, (![0, 128] : Fin 2 → Nat) a + S128x128.size a ≤ S128x256.size a
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  reduces_S32x128_S128 : S32x128.Reduces [0] S128
  shapeCasts_S1x128_S1x128 : S1x128.ShapeCasts S1x128
  broadcasts_S1x128_S8x128 : S1x128.Broadcasts S8x128
  slices_S8x128_o0_0_S1x128 : S8x128.Slices ![0, 0] S1x128
  inb_S1x128_S1x128_0_0 : ∀ a, (![0, 0] : Fin 2 → Nat) a + S1x128.size a ≤ S1x128.size a
  h_S1x128 : 0 < S1x128.numel
  broadcasts_S1x128_S10000x128 : S1x128.Broadcasts S10000x128
  dot_S32x10000_S10000x128_S32x128_1_0_0_1_n_n_wf : DotDims.WF S32x10000 S10000x128 S32x128 [1] [0] [0] [1] [] []
  dot_S8x128_S128x128_S8x128_1_1_0_0_n_n_wf : DotDims.WF S8x128 S128x128 S8x128 [1] [1] [0] [0] [] []
  dot_S10000x128_S128x128_S10000x128_1_1_0_0_n_n_wf : DotDims.WF S10000x128 S128x128 S10000x128 [1] [1] [0] [0] [] []
  hcc0_scratch2 : 0 + S_.numel ≤ 7
  hcc0_scoped0 : 1 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S2x10112.size a ≤ S2x320000.size a
  k0_t1_ok : k0_t1_loop.OK
  k0_off2_inb : ∀ k0_t1 : Fin k0_t1_loop.trips, ∀ (r : Fin 25), ∀ a, (k0_off2 k0_t1 (BitVec.ofNat 32 r.val)) a + S16.size a ≤ S10000.size a
  k0_t2_ok : ∀ i : grid0.Coords, (k0_t2_loop i).OK
  k0_off3_inb : ∀ (i : grid0.Coords) (k0_t2 : Fin (k0_t2_loop i).trips), ∀ (r : Fin 8), ∀ a, (k0_off3 i k0_t2 (BitVec.ofNat 32 (16 * r.val))) a + S1x16.size a ≤ S2x10112.size a
  k0_t3_ok : ∀ i : grid0.Coords, (k0_t3_loop i).OK
  k0_off4_inb : ∀ (i : grid0.Coords) (k0_t3 : Fin (k0_t3_loop i).trips), ∀ (r : Fin 8), ∀ a, (k0_off4 i k0_t3 (BitVec.ofNat 32 (16 * r.val))) a + S1x16.size a ≤ S2x10112.size a
  k0_off5_inb : ∀ i : grid0.Coords, ∀ a, (k0_off5 i) a + S1x10000.size a ≤ S32x10000.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole

variable [Facts₀]

abbrev cc0_scratch2 : DmaSems sig S_ := SemArray.consecutive 0 S_ hcc0_scratch2
abbrev cc0_scoped0 : DmaSems sig S_ := SemArray.consecutive 1 S_ hcc0_scoped0
def dot_S32x10000_S10000x128_S32x128_1_0_0_1_n_n : DotDims S32x10000 S10000x128 S32x128 where
  lhsContracting := [1]
  rhsContracting := [0]
  lhsNonContracting := [0]
  rhsNonContracting := [1]
  lhsBatch := []
  rhsBatch := []
  wf := dot_S32x10000_S10000x128_S32x128_1_0_0_1_n_n_wf
def dot_S8x128_S128x128_S8x128_1_1_0_0_n_n : DotDims S8x128 S128x128 S8x128 where
  lhsContracting := [1]
  rhsContracting := [1]
  lhsNonContracting := [0]
  rhsNonContracting := [0]
  lhsBatch := []
  rhsBatch := []
  wf := dot_S8x128_S128x128_S8x128_1_1_0_0_n_n_wf
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf

abbrev win1_0 : Pipeline.Window sig grid1 :=
  Pipeline.Window.whole (Memref.whole main_v0) false false (stage1_0 0) (sem1_0 0) (Memref.isWhole_whole _) (hstage1_0 0)

abbrev win1_1 : Pipeline.Window sig grid1 :=
  Pipeline.Window.whole (Memref.whole main_arg0) false false (stage1_1 0) (sem1_1 0) (Memref.isWhole_whole _) (hstage1_1 0)

abbrev win1_2 : Pipeline.Window sig grid1 :=
  Pipeline.Window.whole (Memref.whole main_arg2) false false (stage1_2 0) (sem1_2 0) (Memref.isWhole_whole _) (hstage1_2 0)

abbrev win1_3 : Pipeline.Window sig grid1 :=
  Pipeline.Window.whole (Memref.whole main_v1) false false (stage1_3 0) (sem1_3 0) (Memref.isWhole_whole _) (hstage1_3 0)

abbrev win1_4 : Pipeline.Window sig grid1 :=
  Pipeline.Window.whole (Memref.whole main_v2) true false (stage1_4 0) (sem1_4 0) (Memref.isWhole_whole _) (hstage1_4 0)

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x256 : Shape := ⟨2, ![128, 256]⟩
abbrev S128 : Shape := ⟨1, ![128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩
abbrev S10000x256 : Shape := ⟨2, ![10000, 256]⟩
abbrev S256x128 : Shape := ⟨2, ![256, 128]⟩

abbrev nBuf : Space → Nat
  | .hbm => 30
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x256, .f32⟩
  | .hbm, ⟨3, _⟩ => ⟨S128, .f32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x128, .f32⟩
  | .hbm, ⟨17, _⟩ => ⟨S_, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S10000x128, .f32⟩
  | .hbm, ⟨24, _⟩ => ⟨S10000x256, .f32⟩
  | .hbm, ⟨25, _⟩ => ⟨S256x128, .f32⟩
  | .hbm, ⟨26, _⟩ => ⟨S10000x128, .f32⟩
  | .hbm, ⟨27, _⟩ => ⟨S1x128, .f32⟩
  | .hbm, ⟨28, _⟩ => ⟨S10000x128, .f32⟩
  | .hbm, ⟨29, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  reducesTo_S320000x128_S128_d0 : S320000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  gather_S10000x128_S320000x1_S320000x128_1_0_n_n_0_1_1128_wf : GatherDims.WF S10000x128 S320000x1 S320000x128 [1] [0] [] [0] [] 1 ![1, 128]
  dot_S10000x256_S256x128_S10000x128_1_0_0_1_n_n_wf : DotDims.WF S10000x256 S256x128 S10000x128 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Setup.lean ====
/-
  The shared frame set-up for this program: one vector-subcore kernel on 2 × 16 vector subcores (each counts
  its share of the edges' source nodes into a row of a [32, 10000] array) followed, on the TensorCore, by one
  gridless kernel region. The resource algebra has three parts: the launch handshakes' rounds, the rounds of
  the TensorCore region's staging cells, and the counters of the vector subcores' own local copies.
-/
import proofs.«215102_g56573309223269_cont_9to1_m_676_32_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«215102_g56573309223269_cont_9to1_m_676_32_alg».proof.Proof.Gen.KernelIdeal
import proofs.«215102_g56573309223269_cont_9to1_m_676_32_alg».proof.Proof.Gen.KernelIdeal.Skeleton
import proofs.«215102_g56573309223269_cont_9to1_m_676_32_alg».proof.Proof.Gen.KernelIdeal.Launch
import proofs.«215102_g56573309223269_cont_9to1_m_676_32_alg».proof.Proof.Gen.KernelIdeal.Points

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The TensorCore region's staging cells' rounds. -/
abbrev UR : Type := URounds (GSem nD τ sig) Unit
/-- Handshakes, staging cells, and the counters of the vector subcores' local copies. -/
abbrev UU : Type := UH × (UR × Counters)

abbrev MM (F : FTy → Type) : Type := MT nD τ sig (HIx 1) (Elt F) ℕ UU ℕ

def EH : Emb UH (MM F) := embL
def ER : Emb UR (MM F) := (Emb.inl : Emb UR (UR × Counters)).trans (embR : Emb (UR × Counters) (MM F))

instance EH_landsIn : (EH : Emb UH (MM F)).LandsIn (upEmb : UEmb _ (MM F)) := by unfold EH; infer_instance
instance ER_landsIn : (ER : Emb UR (MM F)).LandsIn (upEmb : UEmb _ (MM F)) := by unfold ER; infer_instance

/-! ## The arrays, as locations of device `d` -/

abbrev xLoc (d : Dev nD) : Loc nD τ sig := (SparseCore.T d).loc main_arg0
abbrev eLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev hLoc (d : Dev nD) : Loc nD τ sig := (SparseCore.T d).loc main_v0
abbrev b1Loc (d : Dev nD) : Loc nD τ sig := (SparseCore.T d).loc main_v1
abbrev oLoc (d : Dev nD) : Loc nD τ sig := (SparseCore.T d).loc main_v2

end Cert.KernelIdeal.Setup

end
-- ==== Proof.HistFold.lean ====
/-
  What one worker's counting loop computes, as a pure function of the words in its index scratch, at any
  float instance: the zero vector, then per block of 128 edges eight indexed add-stores of sixteen ones each.
-/
import proofs.«215102_g56573309223269_cont_9to1_m_676_32_alg».proof.KernelIdeal
import proofs.«215102_g56573309223269_cont_9to1_m_676_32_alg».proof.Proof.Gen.KernelIdeal
import proofs.«215102_g56573309223269_cont_9to1_m_676_32_alg».proof.Proof.Gen.KernelIdeal.Skeleton
import Idealize.ShloMosaic.Lib.ValueIdx
import Idealize.ShloMosaic.Lib.Writes

noncomputable section

namespace Cert.KernelIdeal.HistFold

open Cert.KernelIdeal Cert.KernelIdeal.Gen Idealize.ShloMosaic

variable {F : FTy → Type} [FloatOps F] [Named F]

/-- The index scratch, whole. -/
abbrev sIv : View sig .scVector .vmem S2x10112 .i32 := (Memref.whole cc0_scratch0 : Memref sig .scVector .vmem S2x10112 .i32).view

/-- The window of the edge table worker `L` copies in: both rows, 79 blocks of 128 words from its (clamped) first block. -/
abbrev eWin (L : grid0.Coords) : Memref sig .scVector .hbm S2x10112 .i32 :=
  (Memref.whole main_arg1_scv : Memref sig .scVector .hbm S2x320000 .i32).slice (Rect.unit (s := S2x320000) (k0_off1 L) S2x10112.size (k0_off1_inb L)) (fun _ => rfl)

/-- The words that window holds of an edge table `E`. -/
def win (L : grid0.Coords) (E : Vec F S2x320000 .i32) : Vec F S2x10112 .i32 := View.read (Elt F) (eWin L).view E

/-- Sixteen consecutive words of the index scratch, as the body loads them. -/
def lanes (s0 : Vec F S2x10112 .i32) (off : Fin 2 → Nat) (hoff : ∀ a, off a + S1x16.size a ≤ S2x10112.size a) : Vec F S16 .i32 :=
  shapeCast S16 (sIv.readAt (Elt F) (Rect.unit (s := S2x10112) off S1x16.size hoff).toLoadRect s0) shapeCasts_S1x16_S16

/-- Every word of the index scratch names a node. -/
def InRange (s0 : Vec F S2x10112 .i32) : Prop := ∀ j, (s0 j).toNat < 10000

theorem lanes_inb (s0 : Vec F S2x10112 .i32) (hs : InRange s0) (off : Fin 2 → Nat) (hoff : ∀ a, off a + S1x16.size a ≤ S2x10112.size a) :
    ∀ a x, ((![lanes s0 off hoff] : Fin 1 → IVec S16 32) a x).toNat < S10000.size a := by
  intro a x
  obtain rfl : a = 0 := Subsingleton.elim _ _
  exact hs _

/-- One indexed add-store of sixteen ones at the nodes `v` names. -/
def bump (g : Vec F S10000 .f32) (v : Vec F S16 .i32) (h : ∀ a x, ((![v] : Fin 1 → IVec S16 32) a x).toNat < S10000.size a) : Vec F S10000 .f32 :=
  storeIdx g ![v] (k0_pay2 (F := F)) (fun _ => 1#1) true h

/-- One trip of the counting loop: the eight add-stores of block `k` of the worker's share, lanes 0–15 first. -/
def trip (s0 : Vec F S2x10112 .i32) (hs : InRange s0) (L : grid0.Coords) (k : Fin (k0_t2_loop L).trips) (g : Vec F S10000 .f32) : Vec F S10000 .f32 :=
  let b0 := bump g (lanes s0 (k0_off3 L k 0#32) (k0_off3_inb L k 0)) (lanes_inb s0 hs _ _)
  let b1 := bump b0 (lanes s0 (k0_off3 L k 16#32) (k0_off3_inb L k 1)) (lanes_inb s0 hs _ _)
  let b2 := bump b1 (lanes s0 (k0_off3 L k 32#32) (k0_off3_inb L k 2)) (lanes_inb s0 hs _ _)
  let b3 := bump b2 (lanes s0 (k0_off3 L k 48#32) (k0_off3_inb L k 3)) (lanes_inb s0 hs _ _)
  let b4 := bump b3 (lanes s0 (k0_off3 L k 64#32) (k0_off3_inb L k 4)) (lanes_inb s0 hs _ _)
  let b5 := bump b4 (lanes s0 (k0_off3 L k 80#32) (k0_off3_inb L k 5)) (lanes_inb s0 hs _ _)
  let b6 := bump b5 (lanes s0 (k0_off3 L k 96#32) (k0_off3_inb L k 6)) (lanes_inb s0 hs _ _)
  bump b6 (lanes s0 (k0_off3 L k 112#32) (k0_off3_inb L k 7)) (lanes_inb s0 hs _ _)

/-- The counting scratch before trip `k`, from `z` before the loop. -/
def histK (s0 : Vec F S2x10112 .i32) (hs : InRange s0) (L : grid0.Coords) (z : Vec F S10000 .f32) : ℕ → Vec F S10000 .f32
  | 0 => z
  | k + 1 => if h : k < (k0_t2_loop L).trips then trip s0 hs L ⟨k, h⟩ (histK s0 hs L z k) else histK s0 hs L z k

theorem histK_succ (s0 : Vec F S2x10112 .i32) (hs : InRange s0) (L : grid0.Coords) (z : Vec F S10000 .f32) (k : Fin (k0_t2_loop L).trips) :
    histK s0 hs L z (k.val + 1) = trip s0 hs L k (histK s0 hs L z k.val) := by
  rw [histK]; exact dif_pos k.isLt

/-- The zero vector the zeroing loop leaves. -/
def zeros : Vec F S10000 .f32 := fun _ => (k0_pay1 (F := F)) (ValueIdx.ix1 (0 : Fin 16))

/-- The counting scratch, whole. -/
abbrev sHv : View sig .scVector .vmem S10000 .f32 := (Memref.whole cc0_scratch1 : Memref sig .scVector .vmem S10000 .f32).view

/-- The first `n` entries are zero. -/
def ZeroBelow (n : ℕ) (f : Vec F S10000 .f32) : Prop := ∀ y : S10000.Idx, (y 0).val < n → f y = zeros (F := F) y

/-- What trip `k` of the zeroing loop stores: sixteen zeros at each of the 25 offsets 400 k + 16 r, the last first. -/
def zeroPieces (k : Fin k0_t1_loop.trips) : List (View.Piece (Elt F) S10000 .f32) :=
  [⟨Rect.unit (s := S10000) (k0_off2 k 24#32) S16.size (k0_off2_inb k 24), k0_pay1 (F := F)⟩, ⟨Rect.unit (s := S10000) (k0_off2 k 23#32) S16.size (k0_off2_inb k 23), k0_pay1 (F := F)⟩,
   ⟨Rect.unit (s := S10000) (k0_off2 k 22#32) S16.size (k0_off2_inb k 22), k0_pay1 (F := F)⟩, ⟨Rect.unit (s := S10000) (k0_off2 k 21#32) S16.size (k0_off2_inb k 21), k0_pay1 (F := F)⟩,
   ⟨Rect.unit (s := S10000) (k0_off2 k 20#32) S16.size (k0_off2_inb k 20), k0_pay1 (F := F)⟩, ⟨Rect.unit (s := S10000) (k0_off2 k 19#32) S16.size (k0_off2_inb k 19), k0_pay1 (F := F)⟩,
   ⟨Rect.unit (s := S10000) (k0_off2 k 18#32) S16.size (k0_off2_inb k 18), k0_pay1 (F := F)⟩, ⟨Rect.unit (s := S10000) (k0_off2 k 17#32) S16.size (k0_off2_inb k 17), k0_pay1 (F := F)⟩,
   ⟨Rect.unit (s := S10000) (k0_off2 k 16#32) S16.size (k0_off2_inb k 16), k0_pay1 (F := F)⟩, ⟨Rect.unit (s := S10000) (k0_off2 k 15#32) S16.size (k0_off2_inb k 15), k0_pay1 (F := F)⟩,
   ⟨Rect.unit (s := S10000) (k0_off2 k 14#32) S16.size (k0_off2_inb k 14), k0_pay1 (F := F)⟩, ⟨Rect.unit (s := S10000) (k0_off2 k 13#32) S16.size (k0_off2_inb k 13), k0_pay1 (F := F)⟩,
   ⟨Rect.unit (s := S10000) (k0_off2 k 12#32) S16.size (k0_off2_inb k 12), k0_pay1 (F := F)⟩, ⟨Rect.unit (s := S10000) (k0_off2 k 11#32) S16.size (k0_off2_inb k 11), k0_pay1 (F := F)⟩,
   ⟨Rect.unit (s := S10000) (k0_off2 k 10#32) S16.size (k0_off2_inb k 10), k0_pay1 (F := F)⟩, ⟨Rect.unit (s := S10000) (k0_off2 k 9#32) S16.size (k0_off2_inb k 9), k0_pay1 (F := F)⟩,
   ⟨Rect.unit (s := S10000) (k0_off2 k 8#32) S16.size (k0_off2_inb k 8), k0_pay1 (F := F)⟩, ⟨Rect.unit (s := S10000) (k0_off2 k 7#32) S16.size (k0_off2_inb k 7), k0_pay1 (F := F)⟩,
   ⟨Rect.unit (s := S10000) (k0_off2 k 6#32) S16.size (k0_off2_inb k 6), k0_pay1 (F := F)⟩, ⟨Rect.unit (s := S10000) (k0_off2 k 5#32) S16.size (k0_off2_inb k 5), k0_pay1 (F := F)⟩,
   ⟨Rect.unit (s := S10000) (k0_off2 k 4#32) S16.size (k0_off2_inb k 4), k0_pay1 (F := F)⟩, ⟨Rect.unit (s := S10000) (k0_off2 k 3#32) S16.size (k0_off2_inb k 3), k0_pay1 (F := F)⟩,
   ⟨Rect.unit (s := S10000) (k0_off2 k 2#32) S16.size (k0_off2_inb k 2), k0_pay1 (F := F)⟩, ⟨Rect.unit (s := S10000) (k0_off2 k 1#32) S16.size (k0_off2_inb k 1), k0_pay1 (F := F)⟩,
   ⟨Rect.unit (s := S10000) (k0_off2 k 0#32) S16.size (k0_off2_inb k 0), k0_pay1 (F := F)⟩]

/-- The store trip `k` makes at its `r`-th offset. -/
def zeroPiece (k : Fin k0_t1_loop.trips) (r : Fin 25) : View.Piece (Elt F) S10000 .f32 :=
  ⟨Rect.unit (s := S10000) (k0_off2 k (BitVec.ofNat 32 r.val)) S16.size (k0_off2_inb k r), k0_pay1 (F := F)⟩

/-- The trip's stores are those 25 pieces, the last offset first. -/
theorem zeroPieces_eq (k : Fin k0_t1_loop.trips) :
    zeroPieces (F := F) k = (List.finRange 25).reverse.map (zeroPiece (F := F) k) := rfl

theorem mem_zeroPieces (k : Fin k0_t1_loop.trips) (p : View.Piece (Elt F) S10000 .f32) :
    p ∈ zeroPieces (F := F) k ↔ ∃ r : Fin 25, zeroPiece (F := F) k r = p := by
  rw [zeroPieces_eq, List.mem_map]
  simp only [List.mem_reverse, List.mem_finRange, true_and]

/-- Piece `r` of trip `k` covers the sixteen entries from 400 k + 16 r. -/
theorem mem_zeroPiece_set (k : Fin k0_t1_loop.trips) (r : Fin 25) (y : S10000.Idx) :
    y ∈ (zeroPiece (F := F) k r).1.set ↔ 400 * k.val + 16 * r.val ≤ (y 0).val ∧ (y 0).val < 400 * k.val + 16 * r.val + 16 := by
  unfold zeroPiece
  rw [Rect.mem_set_unit, k0_off2_eq k r]
  constructor
  · intro h; exact h 0
  · intro h a; obtain rfl : a = 0 := Subsingleton.elim _ _; exact h

/-- A trip of the zeroing loop extends the zeroed prefix by 400 entries. -/
theorem zero_step (k : Fin k0_t1_loop.trips) (f : Vec F S10000 .f32) (hf : ZeroBelow (400 * k.val) f) :
    ZeroBelow (400 * (k.val + 1)) (sHv.writes (Elt F) f (zeroPieces (F := F) k)) := by
  intro y hy
  show sHv.read (Elt F) (sHv.writes (Elt F) f (zeroPieces (F := F) k)) y = zeros (F := F) y
  by_cases hlo : (y 0).val < 400 * k.val
  · have hnot : ∀ p ∈ zeroPieces (F := F) k, y ∉ p.1.set := by
      intro p hp hm
      obtain ⟨r, rfl⟩ := (mem_zeroPieces k p).1 hp
      have := (mem_zeroPiece_set k r y).1 hm
      omega
    rw [View.read_writes_apply_of_forall_not_mem sHv f y (zeroPieces (F := F) k) hnot]
    exact hf y hlo
  · refine View.read_writes_apply_of_pieces sHv f (zeros (F := F)) (zeroPieces (F := F) k) (fun p hp x => ?_) y ?_
    · obtain ⟨r, rfl⟩ := (mem_zeroPieces k p).1 hp
      rfl
    · have hr : ((y 0).val - 400 * k.val) / 16 < 25 := by omega
      refine ⟨zeroPiece (F := F) k ⟨_, hr⟩, (mem_zeroPieces k _).2 ⟨_, rfl⟩, (mem_zeroPiece_set k _ y).2 ?_⟩
      show 400 * k.val + 16 * (((y 0).val - 400 * k.val) / 16) ≤ (y 0).val
        ∧ (y 0).val < 400 * k.val + 16 * (((y 0).val - 400 * k.val) / 16) + 16
      omega

/-- After its 25 trips the whole scratch is zero. -/
theorem zero_done (f : Vec F S10000 .f32) (hf : ZeroBelow (400 * k0_t1_loop.trips) f) : f = zeros (F := F) := by
  have ht : k0_t1_loop.trips = 25 := by decide
  funext y
  have hy : (y 0).val < 10000 := (y 0).isLt
  exact hf y (by rw [ht]; omega)

/-- The window of a table of node numbers holds node numbers. -/
theorem win_inRange (L : grid0.Coords) (E : Vec F S2x320000 .i32) (hE : ∀ j, (E j).toNat < 10000) : InRange (win L E) := by
  intro j
  exact hE _

end Cert.KernelIdeal.HistFold

end
-- ==== Proof.RowLanded.lean ====
/-
  Where a worker's outgoing row lands. Worker `L` copies its counting scratch onto row r = 2·(L 1) + (L 0) of the
  [32, 10000] result array, addressed as the [1, 10000] slice at offsets (r, 0), squeezed to [10000]. The squeeze
  keeps the row-major position, so entry `n` of the squeezed view is entry (0, n) of the slice, and the unit-stride
  slice adds its offsets: entry (r, n) of the array. Hence one unmasked write of a whole vector `w` through that view
  leaves `w n` at (r, n), and every (r, n) is an element of the view.
-/
import proofs.«215102_g56573309223269_cont_9to1_m_676_32_alg».proof.Proof.HistFold
import Idealize.ShloMosaic.Lib.Writes
import Idealize.ShloMosaic.Lib.ValueIdx

noncomputable section

namespace Cert.KernelIdeal.HistFold

open Cert.KernelIdeal Cert.KernelIdeal.Gen Idealize.ShloMosaic

variable {F : FTy → Type} [FloatOps F] [Named F]

/-- Row 2·(L 1) + (L 0) of the result array, as the outgoing copy addresses it. -/
abbrev outRow (L : grid0.Coords) : Memref sig .scVector .hbm S10000 .f32 :=
  ((Memref.whole main_v0_scv : Memref sig .scVector .hbm S32x10000 .f32).slice
    (Rect.unit (s := S32x10000) (k0_off5 L) S1x10000.size (k0_off5_inb L)) (fun _ => rfl)).squeeze S10000 squeezes_S1x10000_S10000

/-- Entry `n` of the squeezed row view is entry (r, n) of the array. -/
theorem outRow_emb (L : grid0.Coords) (r : Fin 32) (hr : r.val = 2 * (L 1).val + (L 0).val) (n : Fin 10000) :
    (outRow L).view.emb (ValueIdx.ix1 n) = (ValueIdx.ix2 r n : S32x10000.Idx) := by
  show (Rect.unit (s := S32x10000) (k0_off5 L) S1x10000.size (k0_off5_inb L)).emb
      (Shape.reshapeEquiv squeezes_S1x10000_S10000.numel_eq (ValueIdx.ix1 n)) = ValueIdx.ix2 r n
  have hk : Shape.reshapeEquiv squeezes_S1x10000_S10000.numel_eq (ValueIdx.ix1 n) = (ValueIdx.ix2 (0 : Fin 1) n : S1x10000.Idx) :=
    Shape.reshapeEquiv_eq_of_rowMajor _ (by
      rw [Shape.rowMajor_val_two, Shape.rowMajor_val_one]
      show 0 * 10000 + n.val = n.val
      omega)
  rw [hk]
  funext a
  apply Fin.ext
  rw [Rect.emb_apply, Rect.off_unit, Rect.stride_unit]
  match a with
  | ⟨0, _⟩ =>
    have ho : k0_off5 L 0 = 2 * (L 1).val + (L 0).val := congrFun (k0_off5_eq L) 0
    show k0_off5 L 0 + 1 * 0 = r.val
    omega
  | ⟨1, _⟩ =>
    have ho : k0_off5 L 1 = 0 := congrFun (k0_off5_eq L) 1
    show k0_off5 L 1 + 1 * n.val = n.val
    omega

theorem row_landed_raw (L : grid0.Coords) (f0 : Vec F S32x10000 .f32) (w : Vec F S10000 .f32) (n : Fin 10000) (r : Fin 32)
    (hr : r.val = 2 * (L 1).val + (L 0).val) :
    (outRow L).view.writes (Elt F) f0 [⟨Rect.whole S10000, w⟩] (ValueIdx.ix2 r n) = w (ValueIdx.ix1 n) := by
  have he : ((outRow L).view.slice (Rect.whole S10000)).emb (ValueIdx.ix1 n) = (ValueIdx.ix2 r n : S32x10000.Idx) := by
    show (outRow L).view.emb ((Rect.whole S10000).emb (ValueIdx.ix1 n)) = _
    rw [Rect.emb_whole_apply]
    exact outRow_emb L r hr n
  rw [View.writes_singleton, ← he, View.write_emb_of_mem _ _ (Finset.mem_univ _)]
  rfl

theorem mem_outRow_set (L : grid0.Coords) (r : Fin 32) (hr : r.val = 2 * (L 1).val + (L 0).val) (n : Fin 10000) :
    (ValueIdx.ix2 r n : S32x10000.Idx) ∈ (outRow L).view.set := by
  rw [← outRow_emb L r hr n]
  exact Finset.mem_map_of_mem _ (Finset.mem_univ _)

end Cert.KernelIdeal.HistFold

end
-- ==== Proof.TileBody.lean ====
/-
  One vector subcore's task. Worker `w = 2 s + c` (subcore `s` of SparseCore `c`) copies a window of 79 blocks of
  128 edge words (both rows of the edge table) into its index scratch, zeroes its 10000-entry counting scratch
  while the copy is in flight, waits, then for each of its 78 or 79 blocks adds 1 at the source node of each of
  the block's 128 edges (eight indexed add-stores of 16 lanes), and copies the counting scratch to row `w` of
  the [32, 10000] result.
-/
import proofs.«215102_g56573309223269_cont_9to1_m_676_32_alg».proof.Proof.Setup
import proofs.«215102_g56573309223269_cont_9to1_m_676_32_alg».proof.Proof.HistFold
import proofs.«215102_g56573309223269_cont_9to1_m_676_32_alg».proof.Proof.RowLanded

noncomputable section

namespace Cert.KernelIdeal.Tile

open Cert.KernelIdeal Cert.KernelIdeal.Gen Cert.KernelIdeal.Setup Cert.KernelIdeal.HistFold

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

local notation "eW" => (Memref.whole Cert.KernelIdeal.main_arg1_scv : Memref Cert.KernelIdeal.sig Kind.scVector Space.hbm Cert.KernelIdeal.S2x320000 EltTy.i32)
local notation "hW" => (Memref.whole Cert.KernelIdeal.main_v0_scv : Memref Cert.KernelIdeal.sig Kind.scVector Space.hbm Cert.KernelIdeal.S32x10000 EltTy.f32)
local notation "sI" => (Memref.whole Cert.KernelIdeal.cc0_scratch0 : Memref Cert.KernelIdeal.sig Kind.scVector Space.vmem Cert.KernelIdeal.S2x10112 EltTy.i32)
local notation "sH" => (Memref.whole Cert.KernelIdeal.cc0_scratch1 : Memref Cert.KernelIdeal.sig Kind.scVector Space.vmem Cert.KernelIdeal.S10000 EltTy.f32)

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0

/-- The task's two DMA semaphores: the incoming copy's, the outgoing copy's. -/
abbrev cIn (d : Dev nD) (c : Fin τ.nSC) (i : Fin τ.nSub) : GSem nD τ sig := (V d c i, .dma cc0_scratch2.sem)
abbrev cOut (d : Dev nD) (c : Fin τ.nSC) (i : Fin τ.nSub) : GSem nD τ sig := (V d c i, .dma cc0_scoped0.sem)

theorem ownSems0_V :
    (ownSems0 (V d (cV L) (jV L)) : sProp 𝕄)
      = iprop(semVal (cIn d (cV L) (jV L)) 0 ∗ semVal (cOut d (cV L) (jV L)) 0
          ∗ bigSep (((ownCells (V d (cV L) (jV L))).erase (cIn d (cV L) (jV L))).erase (cOut d (cV L) (jV L))) fun g => semVal g 0) := by
  unfold SparseCore.Cfg.ownSems0
  rw [SparseCore.bigSep_erase' ((mem_ownCells (g := cIn d (cV L) (jV L))).mpr ⟨rfl, by
      show (SemLoc.dma cc0_scratch2.sem : SemLoc sig).isScoped .scVector = true; decide⟩),
    SparseCore.bigSep_erase' (Finset.mem_erase.mpr ⟨by simp [cIn, cOut]; decide, (mem_ownCells (g := cOut d (cV L) (jV L))).mpr ⟨rfl, by
      show (SemLoc.dma cc0_scoped0.sem : SemLoc sig).isScoped .scVector = true; decide⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

/-! ## Rows of the result -/

theorem hdiv : 32 ∣ S32x10000.size 0 := ⟨1, rfl⟩
abbrev row (r : Fin 32) : Rect S32x10000 := Rect.part (s := S32x10000) (a₀ := 0) hdiv r
abbrev rowSet (r : Fin 32) : Finset S32x10000.Idx := ((hW).view.slice (row r)).set

/-- The worker number of the subcore at grid point `L`. -/
def wid (L : grid0.Coords) : Fin 32 := ⟨2 * (L 1).val + (L 0).val, by
  have h0 : (L 0).val < 2 := (L 0).isLt
  have h1 : (L 1).val < 16 := (L 1).isLt
  omega⟩

abbrev rowK (L : grid0.Coords) : Rect S32x10000 := Rect.unit (s := S32x10000) (k0_off5 L) S1x10000.size (k0_off5_inb L)
abbrev oRowK (L : grid0.Coords) : Memref sig .scVector .hbm S10000 .f32 := ((hW).slice (rowK L) (fun _ => rfl)).squeeze S10000 squeezes_S1x10000_S10000

theorem rowK_eq (L : grid0.Coords) : rowK L = row (wid L) := by
  unfold rowK row Rect.part Rect.block
  congr 1 <;> funext a
  · rw [k0_off5_eq]
    match a with
    | 0 => simp [Shape.partIx, Shape.partSize, wid]
    | 1 => simp [Shape.partIx, Shape.partSize]
  · match a with
    | 0 => simp [Shape.partSize]
    | 1 => simp [Shape.partSize]

theorem set_oRowK (L : grid0.Coords) : (oRowK L).view.set = rowSet (wid L) := by
  show (((hW).view.slice (rowK L)).reshape S10000 squeezes_S1x10000_S10000.numel_eq).set = ((hW).view.slice (row (wid L))).set
  rw [View.set_reshape]
  exact rowK_eq L ▸ rfl

/-- What worker `L` leaves in its counting scratch, from the edge table `E`. -/
def rowVal (L : grid0.Coords) (E : Vec F S2x320000 .i32) (hE : ∀ j, (E j).toNat < 10000) : Vec F S10000 .f32 :=
  histK (win L E) (win_inRange L E hE) L (zeros (F := F)) (k0_t2_loop L).trips

/-- Row `wid L` of a [32, 10000] array is worker `L`'s counts. -/
def RowOK (L : grid0.Coords) (E : Vec F S2x320000 .i32) (hE : ∀ j, (E j).toNat < 10000) (f : Vec F S32x10000 .f32) : Prop :=
  ∀ n : Fin 10000, f (ValueIdx.ix2 (wid L) n) = rowVal L E hE (ValueIdx.ix1 n)

/-- The outgoing copy lands the counting scratch in row `wid L`: an index of that row reads the scratch's word. -/
theorem row_landed (L : grid0.Coords) (f0 : Vec F S32x10000 .f32) (w : Vec F S10000 .f32) (n : Fin 10000) :
    (oRowK L).view.writes (Elt F) f0 [⟨Rect.whole S10000, w⟩] (ValueIdx.ix2 (wid L) n) = w (ValueIdx.ix1 n) :=
  row_landed_raw L f0 w n (wid L) rfl

/-- An index of row `wid L` lies in the set that row's memref addresses. -/
theorem mem_rowSet (L : grid0.Coords) (n : Fin 10000) : (ValueIdx.ix2 (wid L) n : S32x10000.Idx) ∈ rowSet (wid L) :=
  set_oRowK L ▸ mem_outRow_set L (wid L) rfl n

section Tile2

variable (d : Dev nD) (L : grid0.Coords)

theorem pts_oRowK (f : Buf (Elt F) (hLoc d)) :
    ((oRowK L).view.loc (V d (cV L) (jV L)) ↦[(oRowK L).view.set]{fullShare} f : sProp 𝕄) = hLoc d ↦[rowSet (wid L)]{fullShare} f := by
  rw [set_oRowK]
theorem pts_e (q : PosShare TreeShare) (f : Buf (Elt F) (eLoc d)) :
    ((eW).view.loc (V d (cV L) (jV L)) ↦{q} f : sProp 𝕄) = eLoc d ↦{q} f := by
  simp only [Memref.view_whole, View.set_whole]
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
theorem pts_sH (f : Buf (Elt F) ((V d (cV L) (jV L)).loc cc0_scratch1)) :
    ((sH).view.loc (V d (cV L) (jV L)) ↦{fullShare} f : sProp 𝕄) = (V d (cV L) (jV L)).loc cc0_scratch1 ↦{fullShare} f := rfl
theorem pts_sH_whole (f : Buf (Elt F) ((V d (cV L) (jV L)).loc cc0_scratch1)) :
    (((sH).access (.whole S10000)).loc (V d (cV L) (jV L)) ↦[((sH).access (.whole S10000)).set]{fullShare} f : sProp 𝕄)
      = ((sH).view.loc (V d (cV L) (jV L)) ↦{fullShare} f) := by
  rw [show ((sH).access (.whole S10000)).set = Finset.univ from Memref.set_access_whole (cc0_scratch1 : Ref sig .scVector)]

/-- One indexed add-store of sixteen ones: the counting scratch held whole goes from `g` to `bump g v`. -/
theorem wp_bump {α : Type} {v : Vec F S16 .i32} {h : ∀ a x, ((![v] : Fin 1 → IVec S16 32) a x).toNat < S10000.size a}
    {hs : ((sH).access (.whole S10000)).Stores Finset.univ}
    {k : PUnit → Prog (TpuEff nD τ sig (Elt F) Λ₀ (.scVector (cV L) (jV L))) α} {Q : α → sProp 𝕄} {g : Buf (Elt F) ((V d (cV L) (jV L)).loc cc0_scratch1)} :
    ((sH).view.loc (V d (cV L) (jV L)) ↦{fullShare} g : sProp 𝕄)
      ⊢ iprop((((sH).view.loc (V d (cV L) (jV L)) ↦{fullShare} (bump g v h : Vec F S10000 .f32)) -∗ wp frame (wpE (defs₀ (F := F)) 𝒱₀ (V d (cV L) (jV L)) none) Set.univ (k ⟨⟩) Q)
          -∗ wp frame (wpE (defs₀ (F := F)) 𝒱₀ (V d (cV L) (jV L)) none) Set.univ (SparseCore.vectorStoreIdx sH ![v] (k0_pay2 (F := F)) (fun _ => 1#1) true h hs >>= k) Q) := by
  iintro H Hk
  ihave H' := (Entails.of_eq (pts_sH_whole (F := F) d L g).symm) $$ H
  iapply (SparseCore.wp_vectorStoreIdx 𝒱₀ (V d (cV L) (jV L)) none Set.univ (base := sH)) $$ H'
  iintro H'
  iapply Hk
  have e1 : ((sH).access (.whole S10000)).write (Elt F) g (storeIdx (((sH).access (.whole S10000)).read (Elt F) g) ![v] (k0_pay2 (F := F)) (fun _ => 1#1) true h) Finset.univ
      = (bump g v h : Vec F S10000 .f32) :=
    (Memref.write_access_whole_univ (Elt F) (cc0_scratch1 : Ref sig .scVector) g _).trans
      (congrArg (fun f : Vec F S10000 .f32 => storeIdx f ![v] (k0_pay2 (F := F)) (fun _ => 1#1) true h) (Memref.read_access_whole (Elt F) (cc0_scratch1 : Ref sig .scVector) g))
  ihave H'' := (Entails.of_eq (congrArg (fun s => ((((sH).access (.whole S10000)).loc (V d (cV L) (jV L)) ↦[((sH).access (.whole S10000)).set]{fullShare} s : sProp 𝕄))) e1)) $$ H'
  iapply (Entails.of_eq (pts_sH_whole (F := F) d L _)); iexact H''

variable (E : Vec F S2x320000 .i32) (hE : ∀ j, (E j).toNat < 10000)

/-- Before trip `k` of the zeroing loop: the first 400 k entries of the counting scratch are zero. -/
def invZ (k : Nat) (_ : PUnit) : sProp 𝕄 :=
  iprop(∃ f : Vec F S10000 .f32, ((sH).view.loc (V d (cV L) (jV L)) ↦{fullShare} f) ∗ ⌜ZeroBelow (F := F) (400 * k) f⌝)

/-- Before trip `k` of the counting loop: the index scratch at the window that landed, the counting scratch at the
    counts of the first `k` blocks. -/
def invS (k : Nat) (_ : PUnit) : sProp 𝕄 :=
  iprop(((sI).view.loc (V d (cV L) (jV L)) ↦{fullShare} (win L E : Vec F S2x10112 .i32))
    ∗ ((sH).view.loc (V d (cV L) (jV L)) ↦{fullShare} (histK (win L E) (win_inRange L E hE) L (zeros (F := F)) k : Vec F S10000 .f32)))

/-- What the first part of the task leaves: the window landed, the counts made, the table's share back. -/
def Mid (q : PosShare TreeShare) (O : CellTallies nD τ sig (HIx 1)) (W : Waits sig (HIx 1)) (f0 : Buf (Elt F) (hLoc d)) : sProp 𝕄 :=
  iprop(((eW).view.loc (V d (cV L) (jV L)) ↦{q} (E : Buf (Elt F) (eLoc d)))
    ∗ ((oRowK L).view.loc (V d (cV L) (jV L)) ↦[(oRowK L).view.set]{fullShare} f0)
    ∗ ((sI).view.loc (V d (cV L) (jV L)) ↦{fullShare} (win L E : Vec F S2x10112 .i32))
    ∗ ((sH).view.loc (V d (cV L) (jV L)) ↦{fullShare} (rowVal L E hE : Vec F S10000 .f32))
    ∗ semVal (cIn d (cV L) (jV L)) 0 ∗ semVal (cOut d (cV L) (jV L)) 0
    ∗ ∃ W', ⌜∀ p ∈ W', p ∈ W ∨ p.2 = none⌝ ∗ owes (V d (cV L) (jV L)) O W')

theorem part6 (O : CellTallies nD τ sig (HIx 1)) (W : Waits sig (HIx 1)) (q : PosShare TreeShare)
    (f0 : Buf (Elt F) (hLoc d)) (fI : Buf (Elt F) ((V d (cV L) (jV L)).loc cc0_scratch0)) (fH : Buf (Elt F) ((V d (cV L) (jV L)).loc cc0_scratch1)) :
    (iprop(Transfers.MayWaits (V d (cV L) (jV L)) (none : HIx 1) O
        ∗ ((eW).view.loc (V d (cV L) (jV L)) ↦{q} (E : Buf (Elt F) (eLoc d)))
        ∗ ((oRowK L).view.loc (V d (cV L) (jV L)) ↦[(oRowK L).view.set]{fullShare} f0)
        ∗ ((sI).view.loc (V d (cV L) (jV L)) ↦{fullShare} fI) ∗ ((sH).view.loc (V d (cV L) (jV L)) ↦{fullShare} fH)
        ∗ semVal (cIn d (cV L) (jV L)) 0 ∗ semVal (cOut d (cV L) (jV L)) 0 ∗ owes (V d (cV L) (jV L)) O W) : sProp 𝕄)
      ⊢ wp frame (wpE (defs₀ (F := F)) 𝒱₀ (V d (cV L) (jV L)) none) Set.univ
          (k0_part6 L eW (Memref.isWhole_whole _) hW (Memref.isWhole_whole _) sI (Memref.isWhole_whole _) sH (Memref.isWhole_whole _) cc0_scratch2 cc0_scoped0)
          fun _ => Mid (F := F) d L E hE q O W f0 := by
  rw [k0_part6_eq_skeleton]; unfold k0_part6_skel
  iintro ⟨#Hmw, He', Hrow', HsI', HsH', HsemIn, HsemOut, HO⟩
  sl_exec
  -- the zeroing loop
  sl_for (invZ (F := F) d L) $$ [HsH']
  case region =>
    intro k _
    unfold invZ
    iintro ⟨%f, Hs, %hf⟩
    sl_exec
    sl_step
    iexists _
    isplitl [Hs]; · iexact Hs
    ipureintro; exact zero_step k f hf
  · unfold invZ
    iexists fH
    isplitl [HsH']; · iexact HsH'
    ipureintro; intro y hy; exact absurd hy (by omega)
  iintro %_ HI
  unfold invZ
  icases HI with ⟨%fZ, HsH, %hZ⟩
  obtain rfl : fZ = zeros (F := F) := zero_done fZ hZ
  -- the incoming copy's wait
  sl_exec
  have hland : View.write (Elt F) (sI).view fI (part6.sl.dma0 L E) Finset.univ = (win L E : Vec F S2x10112 .i32) :=
    (View.write_whole_univ (cc0_scratch0 : Ref sig .scVector) fI _).trans rfl
  ihave HsI := (Entails.of_eq (congrArg (fun s => (((sI).view.loc (V d (cV L) (jV L)) ↦{fullShare} s : sProp 𝕄))) hland)) $$ HsI'
  -- the counting loop
  sl_for (invS (F := F) d L E hE) $$ [HsI HsH]
  case region =>
    intro k _
    unfold invS
    iintro ⟨HI, HH⟩
    sl_exec (disch := exact lanes_inb (win L E) (win_inRange L E hE) _ _)
    iapply (wp_bump (F := F) d L) $$ HH; iintro HH
    iapply (wp_bump (F := F) d L) $$ HH; iintro HH
    iapply (wp_bump (F := F) d L) $$ HH; iintro HH
    iapply (wp_bump (F := F) d L) $$ HH; iintro HH
    iapply (wp_bump (F := F) d L) $$ HH; iintro HH
    iapply (wp_bump (F := F) d L) $$ HH; iintro HH
    iapply (wp_bump (F := F) d L) $$ HH; iintro HH
    iapply (wp_bump (F := F) d L) $$ HH; iintro HH
    sl_step
    isplitl [HI]; · iexact HI
    irw [histK_succ (win L E) (win_inRange L E hE) L (zeros (F := F)) k]
    iexact HH
  · unfold invS
    isplitl [HsI]; · iexact HsI
    iexact HsH
  iintro %_ HI
  -- the remainder loop makes no trip
  sl_for (fun (_ : Nat) (_ : PUnit) => invS (F := F) d L E hE (k0_t2_loop L).trips ⟨⟩) $$ [HI]
  case region =>
    intro k _
    exact absurd k.isLt (Nat.not_lt.2 (Nat.le_trans (k0_t3_abs L).2.1 (Nat.zero_le _)))
  · iexact HI
  iintro %_ HI
  unfold invS
  icases HI with ⟨HsI, HsH⟩
  sl_step
  unfold Mid
  isplitl [He']; · iexact He'
  isplitl [Hrow']; · iexact Hrow'
  isplitl [HsI]; · iexact HsI
  isplitl [HsH]; · iexact HsH
  isplitl [HsemIn]; · iexact HsemIn
  isplitl [HsemOut]; · iexact HsemOut
  iexists (insert (SemLoc.dma cc0_scratch2.sem, (default : HIx 1)) W); isplitr
  · ipureintro; intro p hp
    rcases Finset.mem_insert.mp hp with hp | hp
    · exact .inr (hp ▸ rfl)
    · exact .inl hp
  · iexact HO

end Tile2

section Tile3

variable (d : Dev nD) (L : grid0.Coords) (E : Vec F S2x320000 .i32) (hE : ∀ j, (E j).toNat < 10000)

/-- The outgoing copy reads the counting scratch as it stands. -/
theorem read_same (g : Vec F S10000 .f32) : ReadAs.same.apply (View.read (Elt F) (sH).view g) = g := rfl

/-- The whole task of the vector subcore at grid point `L`: from its share of the edge table and row `wid L` of
    the result, to the share back and the row at the worker's counts. -/
theorem tile_body (hF : (K (F := F)).Facts) (O : CellTallies nD τ sig (HIx 1)) (W : Waits sig (HIx 1)) (hO : ∀ g, O g none = 0) (q : PosShare TreeShare)
    (f0 : Buf (Elt F) (hLoc d)) :
    (iprop(levAts (K (F := F)).L (K (F := F)).lev ∗ emp ∗ ((eLoc d ↦{q} (E : Buf (Elt F) (eLoc d))) ∗ (hLoc d ↦[rowSet (wid L)]{fullShare} f0))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_hist_kernel L eW (Memref.isWhole_whole _) hW (Memref.isWhole_whole _) sI (Memref.isWhole_whole _) sH (Memref.isWhole_whole _) cc0_scratch2 cc0_scoped0)
          fun _ => iprop(((eLoc d ↦{q} (E : Buf (Elt F) (eLoc d))) ∗ ∃ f : Vec F S32x10000 .f32, (hLoc d ↦[rowSet (wid L)]{fullShare} f) ∗ ⌜RowOK L E hE f⌝)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_hist_kernel_eq_skeleton]; unfold cc0_hist_kernel_skel
  rw [wp_bind]
  rw [(K (F := F)).scopedBufs_V hF d (cV L) (jV L), SparseCore.Cfg.scopedSems0_V (Val := Elt F) d (cV L) (jV L), ownSems0_V, ownBufs_V]
  iintro ⟨#Hlv, -, ⟨He, Hrow⟩, ⟨⟨%fI, HsI⟩, ⟨%fH, HsH⟩, Hbufs⟩, ⟨HsemIn, HsemOut, Hsems⟩, HO⟩
  ihave Hmw := ((K (F := F)).mayWaits_none (thr := V d (cV L) (jV L)) hO) $$ Hlv
  ihave He' := (Entails.of_eq (pts_e (F := F) d L q _).symm) $$ He
  ihave Hrow' := (Entails.of_eq (pts_oRowK (F := F) d L _).symm) $$ Hrow
  ihave HsI' := (Entails.of_eq (pts_sI (F := F) d L _).symm) $$ HsI
  ihave HsH' := (Entails.of_eq (pts_sH (F := F) d L _).symm) $$ HsH
  iapply (wp_wand_r frame _ Set.univ)
  isplitl [He' Hrow' HsI' HsH' HsemIn HsemOut HO]
  · iapply (part6 (F := F) d L E hE O W q f0 fI fH)
    isplitr; · iexact Hmw
    isplitl [He']; · iexact He'
    isplitl [Hrow']; · iexact Hrow'
    isplitl [HsI']; · iexact HsI'
    isplitl [HsH']; · iexact HsH'
    isplitl [HsemIn]; · iexact HsemIn
    isplitl [HsemOut]; · iexact HsemOut
    iexact HO
  iintro %_ HM
  unfold Mid
  icases HM with ⟨He', Hrow', HsI, HsH, HsemIn, HsemOut, %W', %hW', HO⟩
  sl_exec
  sl_step
  isplitl [He' Hrow']
  · isplitl [He']; · iapply (Entails.of_eq (pts_e (F := F) d L q _)); iexact He'
    iexists _
    isplitl [Hrow']; · iapply (Entails.of_eq (pts_oRowK (F := F) d L _)); iexact Hrow'
    ipureintro; intro n
    have hd : tile_body.sl.dma0 L E hE = (rowVal L E hE : Vec F S10000 .f32) := by
      unfold tile_body.sl.dma0; exact read_same (F := F) _
    rw [hd]; exact row_landed L f0 _ n
  isplitl [HsI HsH Hbufs]
  · isplitl [HsI]; · iexists _; iapply (Entails.of_eq (pts_sI (F := F) d L _)); iexact HsI
    isplitl [HsH]; · iexists _; iapply (Entails.of_eq (pts_sH (F := F) d L _)); iexact HsH
    iexact Hbufs
  isplitl [HsemIn HsemOut Hsems]
  · isplitl [HsemIn]; · iexact HsemIn
    isplitl [HsemOut]; · iexact HsemOut
    iexact Hsems
  iexists (insert (SemLoc.dma cc0_scoped0.sem, (default : HIx 1)) W'); isplitr
  · ipureintro; intro p hp
    rcases Finset.mem_insert.mp hp with hp | hp
    · exact .inr (hp ▸ rfl)
    · exact hW' p hp
  · iexact HO

end Tile3

end Cert.KernelIdeal.Tile

end
-- ==== Proof.Pay.lean ====
/-
  What the launch's handshakes carry for the counting kernel, and the kernel's obligation towards them: each vector
  subcore is handed a read share of the edge table and its own row of the [32, 10000] result, and hands back the
  share and the row at its counts.
-/
import proofs.«215102_g56573309223269_cont_9to1_m_676_32_alg».proof.Proof.TileBody

noncomputable section

namespace Cert.KernelIdeal.Tile

open Cert.KernelIdeal Cert.KernelIdeal.Gen Cert.KernelIdeal.Setup Cert.KernelIdeal.HistFold

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

variable (m : (ℓ : Loc nD τ sig) → Buf (Elt F) ℓ)

/-- What the frames ask of the launch memory: every word of the edge table names a node. -/
def PreOK : Prop := ∀ (d : Dev nD) (j : S2x320000.Idx), ((m (eLoc d) : Vec F S2x320000 .i32) j).toNat < 10000

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The read share of the edge table handed to vector subcore `i` of SparseCore `c`: the table's share halved per
    SparseCore, then per subcore. -/
def tokShare (c : Fin 2) (i : Fin 16) : PosShare TreeShare :=
  Transfers.shareTok (Transfers.shareTok fullShare 2 c) 16 i

variable (hpre : PreOK m)

def goOf (d : Dev nD) (c : Fin 2) (i : Fin 16) : sProp 𝕄 :=
  iprop((eLoc d ↦{tokShare c i} m (eLoc d)) ∗ (hLoc d ↦[rowSet (wid (coordsV c i))]{fullShare} m (hLoc d)))
def tdOf (d : Dev nD) (c : Fin 2) (i : Fin 16) : sProp 𝕄 :=
  iprop((eLoc d ↦{tokShare c i} m (eLoc d))
    ∗ ∃ f : Vec F S32x10000 .f32, (hLoc d ↦[rowSet (wid (coordsV c i))]{fullShare} f) ∗ ⌜RowOK (coordsV c i) (m (eLoc d)) (hpre d) f⌝)

/-- The one call: each SparseCore takes its sixteen subcores' shares and rows and brings them back. -/
def P : (K (F := F)).Pay (nD := nD) (Val := Elt F) (Name := ℕ) (U := UU) where
  st := fun q d c => match q with | 0 => bigSep Finset.univ fun i : Fin 16 => goOf m d c i
  dn := fun q d c => match q with | 0 => bigSep Finset.univ fun i : Fin 16 => tdOf m hpre d c i
  go := fun q d c i => match q with | 0 => goOf m d c i
  td := fun q d c i => match q with | 0 => tdOf m hpre d c i
  x := fun _ _ => iprop(emp)

instance goOf_storable (d : Dev nD) (c : Fin 2) (i : Fin 16) : BI.Storable (upEmb : UEmb _ 𝕄) (goOf m d c i) := by
  unfold goOf; infer_instance
instance tdOf_storable (d : Dev nD) (c : Fin 2) (i : Fin 16) : BI.Storable (upEmb : UEmb _ 𝕄) (tdOf m hpre d c i) := by
  unfold tdOf; infer_instance

instance P_storable : (P (F := F) m hpre).IsStorable where
  st q d c := match q with | 0 => (inferInstance : BI.Storable (upEmb : UEmb _ 𝕄) (bigSep Finset.univ fun i : Fin 16 => goOf m d c i))
  dn q d c := match q with | 0 => (inferInstance : BI.Storable (upEmb : UEmb _ 𝕄) (bigSep Finset.univ fun i : Fin 16 => tdOf m hpre d c i))
  go q d c i := match q with | 0 => (inferInstance : BI.Storable (upEmb : UEmb _ 𝕄) (goOf m d c i))
  td q d c i := match q with | 0 => (inferInstance : BI.Storable (upEmb : UEmb _ 𝕄) (tdOf m hpre d c i))

/-! ## The launch theorem's obligations -/

theorem defs₀_vector (c : Fin τ.nSC) (s : Fin τ.nSub) :
    defs₀ (F := F) (.scVector c s) 0 ()
      = SparseCore.onTile hcore0 hsub0 (fun c s => cc0_hist_kernel (coordsV c s)
          (Memref.whole main_arg1_scv) (Memref.isWhole_whole _) (Memref.whole main_v0_scv) (Memref.isWhole_whole _)
          (Memref.whole cc0_scratch0) (Memref.isWhole_whole _) (Memref.whole cc0_scratch1) (Memref.isWhole_whole _) cc0_scratch2 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m hpre) v₀ 0 := by
  intro d c i O W hO _ _
  simp only [show (P m hpre).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (F := F) d (coordsV ⟨_, hc.1⟩ ⟨_, hc.2⟩) (m (eLoc d)) (hpre d) hF O W hO (tokShare c i) (m (hLoc d))).trans (wp_mono frame _ _ fun _ => obl_post)

theorem vecSplit : (K (F := F)).VecSplit' (P m hpre) 0 := by
  intro d c
  have hst : (P m hpre).st 0 d c = bigSep Finset.univ fun i : Fin ((K (F := F)).nSub 0) => (P m hpre).go 0 d c i := rfl
  have hdn : (P m hpre).dn 0 d c = bigSep Finset.univ fun i : Fin ((K (F := F)).nSub 0) => (P m hpre).td 0 d c i := rfl
  rw [hst, hdn]
  iintro Hst
  imodintro
  isplitl [Hst]; · iexact Hst
  iintro Htd; iexact Htd

end Cert.KernelIdeal.Tile

end
-- ==== Proof.TcRegion.lean ====
/-
  The TensorCore kernel region of this program as one step of @main, on the TensorCore of a device whose vector
  subcores ran the histogram kernel before it.

  The region stages five whole arrays — the 32 partial histograms H : [32, 10000], the node features X : [10000, 128],
  the weight Wt : [128, 256], the bias as a row B1 : [1, 128] and the result [10000, 128] — through one buffer each,
  runs the body once (no grid: one point) and writes the result back. The body loads the four inputs, Wt as its two
  column blocks W1 Wt = Wt[:, 0:128] and W2 Wt = Wt[:, 128:256], and stores

      out H X Wt B1  =  X · (W1 Wt)ᵀ + broadcast( (((Σ_w (H · X)[w, :]) · inv_320000) · (W2 Wt)ᵀ)[0:1] + B1 )

  (the body's payload of the values it loaded) over the whole result buffer.

  Proved here, for any float instance:
  * fund — the rounds element at the region's staging cells and transfers funds, for every device d, the cells'
    launch state and the transfers' duty tokens (Gd d), which the device holds from the launch until the region;
  * W1_apply, W2_apply — the two column blocks index by index;
  * wp_region — from the level facts, Gd d, the region boundary, the five arrays held whole at the full share (the
    result at anything) and the device's debts Ot, none of them at index none (the staging cells' waits sit at index
    none, level 0, below every debt at a call's index), the region's call runs to the continuation from: the boundary
    again, the four inputs unchanged, the result array at out H X Wt B1, and the device owing Ot still, its recorded
    wait pairs grown only by pairs at index none (wBelow_of: such a set stays below every bound the old one was below).
  The proof instantiates the pipeline library's region record (the body obligation by running the body's loads and its
  one covering store; entry and exit sorting the five arrays into and out of the pipeline's windows) and lifts the
  region's rule to the body table extended with the vector-subcore dispatch.
-/
import proofs.«215102_g56573309223269_cont_9to1_m_676_32_alg».proof.Proof.Setup
import Idealize.ShloMosaic.Lib.Pipeline.FrameBody
import Idealize.ShloMosaic.Lib.Pipeline.Value
import Idealize.ShloMosaic.Lib.ValueIdx

set_option maxRecDepth 16384

noncomputable section

namespace Cert.KernelIdeal.TcRegion

open Cert.KernelIdeal Cert.KernelIdeal.Gen Cert.KernelIdeal.Setup

open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MM F

/-! ## The launch half: the staging cells' ghost state and duty tokens, per device -/

/-- The one admissible contents of the (empty) prefetched tables. -/
abbrev adm : (p : Fin 1) → (pcfgs (F := F) p).Adm := fun p => (cfgs p).toPCfg_adm

/-- The region's staging cells are pairwise distinct. -/
theorem cells_inj : Function.Injective (cellOf (nD := nD) (τ := τ) (Pipeline.pin (pcfgs (F := F)) adm)) := cellOf_inj

/-- The staging cells of the region, on every device, and the duty tokens of its transfers. -/
abbrev regCells : Finset (GSem nD τ sig) := Pipeline.cells (Pipeline.pin (pcfgs (F := F)) adm) cells_inj
abbrev regToks : Finset (GSem nD τ sig × ℕ × Unit) := Pipeline.launchToks (Pipeline.pin (pcfgs (F := F)) adm) cells_inj

/-- What device d holds of them from the launch until the region: each staging cell's launch state, its owner at
    round 0, and one duty token per transfer. -/
def Gd (d : Dev nD) : sProp 𝕄 :=
  iprop(Pipeline.cellsGhost (Pipeline.pin (pcfgs (F := F)) adm) (ER (F := F)) 0 d ∗ Pipeline.toksInit (Pipeline.pin (pcfgs (F := F)) adm) (ER (F := F)) 0 d)

theorem bigSep_fin1 (Φ : Fin 1 → sProp 𝕄) : bigSep Finset.univ Φ = Φ 0 := by
  rw [show (Finset.univ : Finset (Fin 1)) = {0} from rfl, bigSep_singleton]

/-- The rounds element at the region's cells and tokens funds every device's share. -/
theorem fund : (BI.own ((ER (F := F)) (initOf (regCells (F := F)) (regToks (F := F)))) : sProp 𝕄) ⊢ iprop(|==> bigSep Finset.univ (Gd (F := F))) := by
  refine (Pipeline.fund_ghost (nD := nD) (τ := τ) (Pipeline.pin (pcfgs (F := F)) adm) (ER (F := F)) cells_inj).trans (bupd_mono ?_)
  simp only [bigSep_fin1]
  unfold Gd
  exact BI.Entails.refl _

/-! ## The weight's two column blocks, as the body's loads read them -/

abbrev rWa : Rect S128x256 := Rect.unit (s := S128x256) ![0, 0] S128x128.size inb_S128x256_S128x128_0_0
abbrev rWb : Rect S128x256 := Rect.unit (s := S128x256) ![0, 128] S128x128.size inb_S128x256_S128x128_0_128

/-- Columns 0 … 127 of the weight. -/
def W1 (Wt : Vec F S128x256 .f32) : Vec F S128x128 .f32 := View.ld Wt rWa
/-- Columns 128 … 255 of the weight. -/
def W2 (Wt : Vec F S128x256 .f32) : Vec F S128x128 .f32 := View.ld Wt rWb

theorem W1_apply (Wt : Vec F S128x256 .f32) (p q : Fin 128) : W1 Wt (ix2 p q) = Wt (ix2 p (⟨q.val, by omega⟩ : Fin 256)) := by
  unfold W1
  show Wt (rWa.idx (ix2 p q)) = _
  congr 1
  funext a
  match a with
  | ⟨0, _⟩ => exact Fin.ext (by show 0 + 1 * p.val = p.val; omega)
  | ⟨1, _⟩ => exact Fin.ext (by show 0 + 1 * q.val = q.val; omega)
theorem W2_apply (Wt : Vec F S128x256 .f32) (p q : Fin 128) : W2 Wt (ix2 p q) = Wt (ix2 p (⟨128 + q.val, by omega⟩ : Fin 256)) := by
  unfold W2
  show Wt (rWb.idx (ix2 p q)) = _
  congr 1
  funext a
  match a with
  | ⟨0, _⟩ => exact Fin.ext (by show 0 + 1 * p.val = p.val; omega)
  | ⟨1, _⟩ => exact Fin.ext (by show 128 + 1 * q.val = 128 + q.val; omega)

/-- What the region leaves in the output array: the body's payload of the four input arrays. -/
def out (H : Vec F S32x10000 .f32) (X : Vec F S10000x128 .f32) (Wt : Vec F S128x256 .f32) (B1 : Vec F S1x128 .f32) : Vec F S10000x128 .f32 :=
  k1_pay1 X (W1 Wt) (W2 Wt) H B1

/-- A recorded set grown only by pairs at index none stays below every bound the old one was below. -/
theorem wBelow_of (d : Dev nD) {Wts W' : Waits sig (HIx 1)} (h : ∀ p ∈ W', p ∈ Wts ∨ p.2 = none) {b : ℕ}
    (hb : (K (F := F)).WBelow (T d : Thread nD τ) Wts b) : (K (F := F)).WBelow (T d : Thread nD τ) W' b := by
  intro p hp
  rcases h p hp with h | h
  · exact hb p h
  · rw [h]; exact Nat.zero_le _

/-! ## The body on whole staging buffers -/

abbrev rH : Rect S32x10000 := Rect.unit (s := S32x10000) ![0, 0] S32x10000.size inb_S32x10000_S32x10000_0_0
abbrev rX : Rect S10000x128 := Rect.unit (s := S10000x128) ![0, 0] S10000x128.size inb_S10000x128_S10000x128_0_0
abbrev rB : Rect S1x128 := Rect.unit (s := S1x128) ![0, 0] S1x128.size inb_S1x128_S1x128_0_0

theorem hzH : (![0, 0] : Fin S32x10000.rank → Nat) = fun _ => 0 := funext fun a => by fin_cases a <;> rfl
theorem hzX : (![0, 0] : Fin S10000x128.rank → Nat) = fun _ => 0 := funext fun a => by fin_cases a <;> rfl
theorem hzB : (![0, 0] : Fin S1x128.rank → Nat) = fun _ => 0 := funext fun a => by fin_cases a <;> rfl

/-- The output staging buffer after the body, from the input buffers: its one store, over what the loads read. -/
def out4 (x0 : Vec F S32x10000 .f32) (x1 : Vec F S10000x128 .f32) (x2 : Vec F S128x256 .f32) (x3 : Vec F S1x128 .f32) : Vec F S10000x128 .f32 :=
  View.canon [⟨rX, k1_pay1 (View.ld x1 rX) (View.ld x2 rWa) (View.ld x2 rWb) (View.ld x0 rH) (View.ld x3 rB)⟩]

/-- The whole-buffer loads read the buffers and the one covering store leaves its payload. -/
theorem out4_eq (x0 : Vec F S32x10000 .f32) (x1 : Vec F S10000x128 .f32) (x2 : Vec F S128x256 .f32) (x3 : Vec F S1x128 .f32) :
    out4 x0 x1 x2 x3 = out x0 x1 x2 x3 := by
  unfold out4 out W1 W2
  rw [View.canon_unit_zero hzX, View.ld_unit_zero hzX, View.ld_unit_zero hzH, View.ld_unit_zero hzB]

/-- The store covers the buffer. -/
theorem cover4 (p0 : Vec F S10000x128 .f32) (y : S10000x128.Idx) :
    ∃ pc ∈ ([⟨rX, p0⟩] : List (View.Piece (Elt F) S10000x128 .f32)), y ∈ pc.1.set :=
  ⟨_, List.mem_singleton_self _, View.mem_set_unit_zero hzX inb_S10000x128_S10000x128_0_0 y⟩

set_option maxHeartbeats 1000000 in
/-- The kernel body on whole staging memrefs, the inputs' at read contents and the output's at anything, runs to the
    continuation holding the inputs' as they were and the output's at the payload of the inputs'. -/
theorem sound_kernel (c : Dev nD) (E : Set ℕ) (arg0 : Memref sig .tc .vmem S32x10000 .f32) (harg0 : arg0.IsWhole) (arg1 : Memref sig .tc .vmem S10000x128 .f32) (harg1 : arg1.IsWhole)
    (arg2 : Memref sig .tc .vmem S128x256 .f32) (harg2 : arg2.IsWhole) (arg3 : Memref sig .tc .vmem S1x128 .f32) (harg3 : arg3.IsWhole) (arg4 : Memref sig .tc .vmem S10000x128 .f32) (harg4 : arg4.IsWhole)
    (x0 : Vec F S32x10000 .f32) (x1 : Vec F S10000x128 .f32) (x2 : Vec F S128x256 .f32) (x3 : Vec F S1x128 .f32) (Kp : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
              ∗ owns (c : Thread nD τ) arg4 fullShare (out x0 x1 x2 x3)) -∗ Kp ⟨⟩))
      ⊢ wp frame (wpE (defs₀ (F := F)) Variants.none c none) E (cc1_body arg0 harg0 arg1 harg1 arg2 harg2 arg3 harg3 arg4 harg4) Kp := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [← out4_eq]
  exact View.read_writes_eq_canon _ _ _ (cover4 _)

/-! ## The region's proof data -/

section Data

variable (H : Vec F S32x10000 .f32) (X : Vec F S10000x128 .f32) (Wt : Vec F S128x256 .f32) (B1 : Vec F S1x128 .f32) (O₀ : Vec F S10000x128 .f32)
  (Ot : CellTallies nD τ sig (HIx 1)) (Wts : Waits sig (HIx 1))

/-- The five windowed arrays as the region finds them. -/
def AV (c : Dev nD) : (w : Fin cfg1.W) → Buf (Elt F) ((cfg1.win w).arr.view.loc (c : Thread nD τ))
  | ⟨0, _⟩ => H
  | ⟨1, _⟩ => X
  | ⟨2, _⟩ => Wt
  | ⟨3, _⟩ => B1
  | ⟨4, _⟩ => O₀

/-- Window w's block at the one point, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (AV H X Wt B1 O₀ c w)

/-- The proof data on device c: the arrays as found; after the body each input's buffer at its block and the output's at
    the payload of the input blocks; no invariant; owing Ot throughout, the recorded pairs those recorded before. -/
def dat1 (c : Dev nD) : Dat τ (Elt F) (HIx 1) ℕ UU ℕ cfg1 c where
  A w := AV H X Wt B1 O₀ c w
  after w t := match w with
    | ⟨0, _⟩ => iblk H X Wt B1 O₀ c 0 t
    | ⟨1, _⟩ => iblk H X Wt B1 O₀ c 1 t
    | ⟨2, _⟩ => iblk H X Wt B1 O₀ c 2 t
    | ⟨3, _⟩ => iblk H X Wt B1 O₀ c 3 t
    | ⟨4, _⟩ => out (iblk H X Wt B1 O₀ c 0 t) (iblk H X Wt B1 O₀ c 1 t) (iblk H X Wt B1 O₀ c 2 t) (iblk H X Wt B1 O₀ c 3 t)
  Φ _ := iprop(emp)
  q _ := fullShare
  owed _ := Ot
  recorded _ := (↑Wts : Set (SemLoc sig × HIx 1))

def pdats : (p : Fin 1) → (c : Dev nD) → Dat τ (Elt F) (HIx 1) ℕ UU ℕ (Pipeline.pin (pcfgs (F := F)) adm p) c
  | 0 => dat1 H X Wt B1 O₀ Ot Wts

theorem A_eq (c : Dev nD) (w : Fin cfg1.W) : (dat1 H X Wt B1 O₀ Ot Wts c).A w = AV H X Wt B1 O₀ c w := by dsimp only [dat1]
theorem after1_0 (c : Dev nD) (t : Fin cfg1.N) : (dat1 H X Wt B1 O₀ Ot Wts c).after 0 t = iblk H X Wt B1 O₀ c 0 t := by dsimp only [dat1]
theorem after1_1 (c : Dev nD) (t : Fin cfg1.N) : (dat1 H X Wt B1 O₀ Ot Wts c).after 1 t = iblk H X Wt B1 O₀ c 1 t := by dsimp only [dat1]
theorem after1_2 (c : Dev nD) (t : Fin cfg1.N) : (dat1 H X Wt B1 O₀ Ot Wts c).after 2 t = iblk H X Wt B1 O₀ c 2 t := by dsimp only [dat1]
theorem after1_3 (c : Dev nD) (t : Fin cfg1.N) : (dat1 H X Wt B1 O₀ Ot Wts c).after 3 t = iblk H X Wt B1 O₀ c 3 t := by dsimp only [dat1]
theorem after1_4 (c : Dev nD) (t : Fin cfg1.N) : (dat1 H X Wt B1 O₀ Ot Wts c).after 4 t
    = out (iblk H X Wt B1 O₀ c 0 t) (iblk H X Wt B1 O₀ c 1 t) (iblk H X Wt B1 O₀ c 2 t) (iblk H X Wt B1 O₀ c 3 t) := by dsimp only [dat1]

/-- Each input's staging buffer holds its block when the body runs. -/
theorem before1_0 (c : Dev nD) (t : Fin cfg1.N) (d) : (dat1 H X Wt B1 O₀ Ot Wts c).before 0 t d = iblk H X Wt B1 O₀ c 0 t :=
  ((dat1 H X Wt B1 O₀ Ot Wts c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat1 H X Wt B1 O₀ Ot Wts c).before 1 t d = iblk H X Wt B1 O₀ c 1 t :=
  ((dat1 H X Wt B1 O₀ Ot Wts c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dat1 H X Wt B1 O₀ Ot Wts c).before 2 t d = iblk H X Wt B1 O₀ c 2 t :=
  ((dat1 H X Wt B1 O₀ Ot Wts c).before_in_eq_fetched 2 rfl (fun _ => rfl) (fun _ _ _ => rfl)
    (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dat1 H X Wt B1 O₀ Ot Wts c).before 3 t d = iblk H X Wt B1 O₀ c 3 t :=
  ((dat1 H X Wt B1 O₀ Ot Wts c).before_in_eq_fetched 3 rfl (fun _ => rfl) (fun _ _ _ => rfl)
    (fun t => by rw [after1_3]; unfold Dat.blockOf iblk; rw [A_eq]; try rfl) t d).trans
    (by unfold Dat.fetched Dat.blockOf iblk; rw [A_eq]; try rfl)

/-- What the body is called with at the point, the windows one by one, -/
def bodyPre (c : Dev nD) (t : Fin cfg1.N) : sProp 𝕄 :=
  iprop((dat1 H X Wt B1 O₀ Ot Wts c).Φ t.castSucc ∗ (dat1 H X Wt B1 O₀ Ot Wts c).owesAt none t.castSucc
    ∗ (∃ d, owns (c : Thread nD τ) (st1_0 t) fullShare ((dat1 H X Wt B1 O₀ Ot Wts c).before 0 t d))
    ∗ (∃ d, owns (c : Thread nD τ) (st1_1 t) fullShare ((dat1 H X Wt B1 O₀ Ot Wts c).before 1 t d))
    ∗ (∃ d, owns (c : Thread nD τ) (st1_2 t) fullShare ((dat1 H X Wt B1 O₀ Ot Wts c).before 2 t d))
    ∗ (∃ d, owns (c : Thread nD τ) (st1_3 t) fullShare ((dat1 H X Wt B1 O₀ Ot Wts c).before 3 t d))
    ∗ (∃ d, owns (c : Thread nD τ) (st1_4 t) fullShare ((dat1 H X Wt B1 O₀ Ot Wts c).before 4 t d)))

/-- and what it returns. -/
def bodyPost (c : Dev nD) (t : Fin cfg1.N) : sProp 𝕄 :=
  iprop((dat1 H X Wt B1 O₀ Ot Wts c).Φ t.succ ∗ (dat1 H X Wt B1 O₀ Ot Wts c).owesAt none t.succ
    ∗ owns (c : Thread nD τ) (st1_0 t) fullShare ((dat1 H X Wt B1 O₀ Ot Wts c).after 0 t)
    ∗ owns (c : Thread nD τ) (st1_1 t) fullShare ((dat1 H X Wt B1 O₀ Ot Wts c).after 1 t)
    ∗ owns (c : Thread nD τ) (st1_2 t) fullShare ((dat1 H X Wt B1 O₀ Ot Wts c).after 2 t)
    ∗ owns (c : Thread nD τ) (st1_3 t) fullShare ((dat1 H X Wt B1 O₀ Ot Wts c).after 3 t)
    ∗ owns (c : Thread nD τ) (st1_4 t) fullShare ((dat1 H X Wt B1 O₀ Ot Wts c).after 4 t))

/-- The body at the point: the inputs' buffers hold their blocks, so the body's triple applies; the invariant and the
    device's debts pass through unread. -/
theorem sound_body (c : Dev nD) (t : Fin cfg1.N) :
    bodyPre H X Wt B1 O₀ Ot Wts c t ⊢ wp frame (wpE (defs₀ (F := F)) Variants.none c none) Set.univ (bodyAt1 t) (fun _ => bodyPost H X Wt B1 O₀ Ot Wts c t) := by
  unfold bodyPre bodyPost bodyAt1
  simp only [before1_0, before1_1, before1_2, before1_3]
  rw [show (dat1 H X Wt B1 O₀ Ot Wts c).Φ t.succ = (dat1 H X Wt B1 O₀ Ot Wts c).Φ t.castSucc from rfl,
    show (dat1 H X Wt B1 O₀ Ot Wts c).owesAt none t.succ = (dat1 H X Wt B1 O₀ Ot Wts c).owesAt none t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ (iblk H X Wt B1 O₀ c 0 t) (iblk H X Wt B1 O₀ c 1 t) (iblk H X Wt B1 O₀ c 2 t) (iblk H X Wt B1 O₀ c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation. -/
theorem body_obligation (c : Dev nD) : BodyObligation (dat1 H X Wt B1 O₀ Ot Wts c) (defs₀ (F := F)) Variants.none none Set.univ := fun t => by
  rw [bigSep_W1, bigSep_W1]
  exact sound_body H X Wt B1 O₀ Ot Wts c t

end Data

/-! ## The region as one step of @main on the TensorCore -/

section Region

variable (H : Vec F S32x10000 .f32) (X : Vec F S10000x128 .f32) (Wt : Vec F S128x256 .f32) (B1 : Vec F S1x128 .f32) (O₀ : Vec F S10000x128 .f32)
  (Ot : CellTallies nD τ sig (HIx 1)) (Wts : Waits sig (HIx 1))

/-- A buffer of device c's TensorCore at the full share. -/
abbrev pl (c : Dev nD) (b : Ref sig .tc) (f : b.ty.Contents (Elt F)) : sProp 𝕄 := ((c : Thread nD τ).loc b) ↦{fullShare} f

/-- The region's arrays at contents Fa are the five buffers held. -/
theorem arrays_eq (c : Dev nD) (Fa) : ((pdats H X Wt B1 O₀ Ot Wts 0 c).arrays Fa : sProp 𝕄)
    = iprop(pl c main_v0 (Fa 0) ∗ pl c main_arg0 (Fa 1) ∗ pl c main_arg2 (Fa 2) ∗ pl c main_v1 (Fa 3) ∗ pl c main_v2 (Fa 4)) := by
  rw [Pipeline.arrays_eq (Pipeline.pin (pcfgs (F := F)) adm) (pdats H X Wt B1 O₀ Ot Wts) 0 c launch1.arr_whole
    ((pdats H X Wt B1 O₀ Ot Wts 0 c).share_full fun _ => rfl) Fa, bigSep_W1]

/-- Reading a whole array through its one block reads the array. -/
theorem iblk_0 (c : Dev nD) : iblk H X Wt B1 O₀ c 0 t1_0 = H := by
  have hz : (fun a => (win1_0.index t1_0) a * main_v0.ty.shape.size a) = fun _ => 0 := funext fun a => by fin_cases a <;> decide
  exact Memref.read_access_unit_zero (Elt F) main_v0 hz (fun a => by fin_cases a <;> decide) H
theorem iblk_1 (c : Dev nD) : iblk H X Wt B1 O₀ c 1 t1_0 = X := by
  have hz : (fun a => (win1_1.index t1_0) a * main_arg0.ty.shape.size a) = fun _ => 0 := funext fun a => by fin_cases a <;> decide
  exact Memref.read_access_unit_zero (Elt F) main_arg0 hz (fun a => by fin_cases a <;> decide) X
theorem iblk_2 (c : Dev nD) : iblk H X Wt B1 O₀ c 2 t1_0 = Wt := by
  have hz : (fun a => (win1_2.index t1_0) a * main_arg2.ty.shape.size a) = fun _ => 0 := funext fun a => by fin_cases a <;> decide
  exact Memref.read_access_unit_zero (Elt F) main_arg2 hz (fun a => by fin_cases a <;> decide) Wt
theorem iblk_3 (c : Dev nD) : iblk H X Wt B1 O₀ c 3 t1_0 = B1 := by
  have hz : (fun a => (win1_3.index t1_0) a * main_v1.ty.shape.size a) = fun _ => 0 := funext fun a => by fin_cases a <;> decide
  exact Memref.read_access_unit_zero (Elt F) main_v1 hz (fun a => by fin_cases a <;> decide) B1

/-- The output array after the region holds the payload of the four input arrays. -/
theorem arrAt_out (c : Dev nD) : (pdats H X Wt B1 O₀ Ot Wts 0 c).arrAt 4 (Pipeline.pin (pcfgs (F := F)) adm 0).N = out H X Wt B1 := by
  show (dat1 H X Wt B1 O₀ Ot Wts c).arrAt 4 ((t1_0 : Fin cfg1.N).val + 1) = _
  rw [(dat1 H X Wt B1 O₀ Ot Wts c).arrAt_succ 4 t1_0, show (cfg1.win 4).flush t1_0 = true from flush1_4 t1_0, if_pos rfl]
  have hz : (fun a => (win1_4.index t1_0) a * main_v2.ty.shape.size a) = fun _ => 0 := funext fun a => by fin_cases a <;> decide
  refine (Memref.write_access_unit_zero_univ (Elt F) main_v2 hz (fun a => by fin_cases a <;> decide) _ _).trans ?_
  show (cfg1.win 4).cut _ ((dat1 H X Wt B1 O₀ Ot Wts c).after 4 t1_0) = _
  rw [after1_4, iblk_0, iblk_1, iblk_2, iblk_3]
  rfl

/-- The input arrays leave the region as they entered it. -/
theorem arrAt_in0 (c : Dev nD) (n : ℕ) : (pdats H X Wt B1 O₀ Ot Wts 0 c).arrAt 0 n = H :=
  (dat1 H X Wt B1 O₀ Ot Wts c).arrAt_in 0 rfl n
theorem arrAt_in1 (c : Dev nD) (n : ℕ) : (pdats H X Wt B1 O₀ Ot Wts 0 c).arrAt 1 n = X :=
  (dat1 H X Wt B1 O₀ Ot Wts c).arrAt_in 1 rfl n
theorem arrAt_in2 (c : Dev nD) (n : ℕ) : (pdats H X Wt B1 O₀ Ot Wts 0 c).arrAt 2 n = Wt :=
  (dat1 H X Wt B1 O₀ Ot Wts c).arrAt_in 2 rfl n
theorem arrAt_in3 (c : Dev nD) (n : ℕ) : (pdats H X Wt B1 O₀ Ot Wts 0 c).arrAt 3 n = B1 :=
  (dat1 H X Wt B1 O₀ Ot Wts c).arrAt_in 3 rfl n

variable {lv : GSem nD τ sig → HIx 1 → ℕ} (hlv : (K (F := F)).Refines (nD := nD) lv) (hOt : ∀ g, Ot g none = 0)

/-- The thread state the region is entered from: the five arrays held, the device owing Ot. -/
def preR (c : Dev nD) : sProp 𝕄 :=
  iprop(pl c main_v0 H ∗ pl c main_arg0 X ∗ pl c main_arg2 Wt ∗ pl c main_v1 B1 ∗ pl c main_v2 O₀ ∗ owes (T c : Thread nD τ) Ot Wts)

/-- The thread state it leaves: the inputs as they were, the output at the payload, the device owing Ot still, its
    recorded pairs grown only by pairs at index none. -/
def postR (c : Dev nD) : sProp 𝕄 :=
  iprop(pl c main_v0 H ∗ pl c main_arg0 X ∗ pl c main_arg2 Wt ∗ pl c main_v1 B1 ∗ pl c main_v2 (out H X Wt B1)
    ∗ ∃ W', ⌜∀ p ∈ W', p ∈ Wts ∨ p.2 = none⌝ ∗ owes (T c : Thread nD τ) Ot W')

include hlv hOt in
/-- The region as the segment library's record: the five arrays into the pipeline, nothing beside them; the staging
    cells' waits sit at index none, below every debt of the device. -/
def reg : Pipeline.RegionSeg (pcfgs (F := F)) adm (pdats H X Wt B1 O₀ Ot Wts) none defs₀ 𝒱₀ (K (F := F)).L lv 0 where
  win := launch1.win.to₀
  block_pos := launch1.block_pos
  stage_whole := launch1.stage_whole
  K := PEmpty
  osem k := k.elim
  ho := Pipeline.OwnSemFacts.none _
  hbody c := (body_obligation H X Wt B1 O₀ Ot Wts c).loose
  hwaits c := Pipeline.cellsWaits_intro _ (pdats H X Wt B1 O₀ Ot Wts) none 0 c fun w s t =>
    (K (F := F)).mayWait_none (thr := (c : Thread nD τ)) _ hOt lv hlv
  pre := preR H X Wt B1 O₀ Ot Wts
  post := postR H X Wt B1 Ot Wts
  X _ := iprop(emp)
  Y _ := iprop(emp)
  Z _ := iprop(emp)
  hentry c := by
    rw [Pipeline.ownSems0_none, arrays_eq]
    unfold preR
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      iexists Wts; isplitr; · ipureintro; exact fun _ h => Or.inl h
      iexact HO
    isplitr <;> iempintro
  hin c := by iintro -; iempintro
  hout c := by
    rw [Pipeline.ownSems0_none, scopedRest1_eq]
    iintro -; isplitr; · iempintro
    isplitr <;> iempintro
  hexit c := by
    unfold postR; rw [arrays_eq, arrAt_out, arrAt_in0, arrAt_in1, arrAt_in2, arrAt_in3]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    unfold Pipeline.Dat.owesAt Pipeline.owesWithin
    icases HO with ⟨%W, %hW, HO⟩
    iexists W; isplitr
    · ipureintro
      intro p hp
      rcases hW hp with h | ⟨w, s, rfl⟩
      · exact Or.inl h
      · exact Or.inr rfl
    iexact HO

end Region

/-! ## The rule -/

/-- THE REGION'S RULE on the TensorCore of device d, inside the vector-subcore program: from the level facts, the device's
    share of the staging cells' ghost state, the region boundary, the five arrays held whole and the device's debts
    (none at index none), the region's call runs to the continuation from the boundary again, the four input arrays
    unchanged, the output array at the body's payload of them, and the same debts. -/
theorem wp_region (d : Dev nD) {lv : GSem nD τ sig → HIx 1 → ℕ} (hlv : (K (F := F)).Refines (nD := nD) lv)
    (H : Vec F S32x10000 .f32) (X : Vec F S10000x128 .f32) (Wt : Vec F S128x256 .f32) (B1 : Vec F S1x128 .f32) (O₀ : Vec F S10000x128 .f32)
    (Ot : CellTallies nD τ sig (HIx 1)) (hOt : ∀ g, Ot g none = 0) (Wts : Waits sig (HIx 1))
    {α : Type} (k : PUnit → Prog (TpuEff nD τ sig (Elt F) (SparseCore.Sig (ΛP (F := F)) 1) .tc) α) (Φ : α → sProp 𝕄) :
    iprop(levAts (K (F := F)).L lv ∗ Gd (F := F) d ∗ boundary (T d : Thread nD τ)
        ∗ (hLoc d ↦{fullShare} H) ∗ (xLoc d ↦{fullShare} X) ∗ (wLoc d ↦{fullShare} Wt) ∗ (b1Loc d ↦{fullShare} B1) ∗ (oLoc d ↦{fullShare} O₀)
        ∗ owes (T d : Thread nD τ) Ot Wts
        ∗ (iprop(boundary (T d : Thread nD τ)
              ∗ (hLoc d ↦{fullShare} H) ∗ (xLoc d ↦{fullShare} X) ∗ (wLoc d ↦{fullShare} Wt) ∗ (b1Loc d ↦{fullShare} B1) ∗ (oLoc d ↦{fullShare} out H X Wt B1)
              ∗ ∃ W', ⌜∀ p ∈ W', p ∈ Wts ∨ p.2 = none⌝ ∗ owes (T d : Thread nD τ) Ot W')
            -∗ wp frame (wpE ((K (F := F)).defs (D (F := F))) 𝒱 (T d) none) Set.univ (k ⟨⟩) Φ))
      ⊢ wp frame (wpE ((K (F := F)).defs (D (F := F))) 𝒱 (T d) none) Set.univ (.op (.customCall (SparseCore.inner (Pipeline.entry 0)) ()) k) Φ := by
  have hprog : (Prog.op (TpuEff.customCall (SparseCore.inner (Pipeline.entry 0)) ()) k : Prog (TpuEff nD τ sig (Elt F) (SparseCore.Sig (ΛP (F := F)) 1) .tc) α)
      = (SparseCore.liftProg (Q := 1) (Prog.op (TpuEff.customCall (Pipeline.entry (0 : Fin 1)) ()) fun _ => Prog.ret PUnit.unit)) >>= k := rfl
  rw [hprog, wp_bind]
  have hreg := Pipeline.RegionSeg.wp (pcfgs (F := F)) adm (pdats H X Wt B1 O₀ Ot Wts) none cells_inj (ER (F := F)) defs₀ 𝒱₀ (K (F := F)).L lv
    (reg H X Wt B1 O₀ Ot Wts hlv hOt) d none (fun u hu => by cases hu) (fun _ => Prog.ret PUnit.unit)
    (fun a => wp frame (wpE ((K (F := F)).defs (D (F := F))) 𝒱 (T d) none) Set.univ (k a) Φ)
  rw [show (reg H X Wt B1 O₀ Ot Wts hlv hOt).pre = preR H X Wt B1 O₀ Ot Wts from rfl,
    show (reg H X Wt B1 O₀ Ot Wts hlv hOt).post = postR H X Wt B1 Ot Wts from rfl] at hreg
  unfold preR postR at hreg
  unfold Gd
  iintro ⟨#Hla, ⟨Hcg, Htk⟩, Hbd, H0, H1, H2, H3, H4, HO, Hk⟩
  iapply ((K (F := F)).wp_liftProg (D (F := F)) 𝒱 (T d) Set.univ none _ _)
  iapply hreg
  isplitl [Hk]
  · iintro ⟨Hbd, H0, H1, H2, H3, H4, HO⟩
    rw [wp_ret]
    imodintro
    iapply Hk
    isplitl [Hbd]; · iexact Hbd
    isplitl [H0]; · iexact H0
    isplitl [H1]; · iexact H1
    isplitl [H2]; · iexact H2
    isplitl [H3]; · iexact H3
    isplitl [H4]; · iexact H4
    iexact HO
  isplitl [Hbd]; · iexact Hbd
  isplitl [H0 H1 H2 H3 H4 HO]
  · isplitl [H0]; · iexact H0
    isplitl [H1]; · iexact H1
    isplitl [H2]; · iexact H2
    isplitl [H3]; · iexact H3
    isplitl [H4]; · iexact H4
    iexact HO
  isplitr; · iexact Hla
  isplitl [Hcg]; · iexact Hcg
  iexact Htk

/-- The same on the program as @main's do-block spells it. -/
theorem wp_region_bind (d : Dev nD) {lv : GSem nD τ sig → HIx 1 → ℕ} (hlv : (K (F := F)).Refines (nD := nD) lv)
    (H : Vec F S32x10000 .f32) (X : Vec F S10000x128 .f32) (Wt : Vec F S128x256 .f32) (B1 : Vec F S1x128 .f32) (O₀ : Vec F S10000x128 .f32)
    (Ot : CellTallies nD τ sig (HIx 1)) (hOt : ∀ g, Ot g none = 0) (Wts : Waits sig (HIx 1))
    {α : Type} (k : PUnit → Prog (TpuEff nD τ sig (Elt F) (SparseCore.Sig (ΛP (F := F)) 1) .tc) α) (Φ : α → sProp 𝕄) :
    iprop(levAts (K (F := F)).L lv ∗ Gd (F := F) d ∗ boundary (T d : Thread nD τ)
        ∗ (hLoc d ↦{fullShare} H) ∗ (xLoc d ↦{fullShare} X) ∗ (wLoc d ↦{fullShare} Wt) ∗ (b1Loc d ↦{fullShare} B1) ∗ (oLoc d ↦{fullShare} O₀)
        ∗ owes (T d : Thread nD τ) Ot Wts
        ∗ (iprop(boundary (T d : Thread nD τ)
              ∗ (hLoc d ↦{fullShare} H) ∗ (xLoc d ↦{fullShare} X) ∗ (wLoc d ↦{fullShare} Wt) ∗ (b1Loc d ↦{fullShare} B1) ∗ (oLoc d ↦{fullShare} out H X Wt B1)
              ∗ ∃ W', ⌜∀ p ∈ W', p ∈ Wts ∨ p.2 = none⌝ ∗ owes (T d : Thread nD τ) Ot W')
            -∗ wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 0)) ()) >>= k) Φ :=
  wp_region d hlv H X Wt B1 O₀ Ot hOt Wts k Φ

end Cert.KernelIdeal.TcRegion
end
-- ==== Proof.Main.lean ====
/-
  The launch of the whole program: the 32 vector subcores' counting kernel, then on the TensorCore the bias recast as
  a row and the kernel region, certified together by the vector-subcore launch theorem.

  * The launch element is the handshakes' rounds beside the rounds of the region's staging cells (and no counter); it
    funds, for every device, the region's share of ghost state, which the TensorCore holds until the region.
  * @main on the TensorCore of device d. For the call, the edge table's full share is halved per SparseCore and then per
    subcore into 32 read shares (the remainders stay with the TensorCore), and the [32, 10000] array is split into its 32
    rows, row 2 i + c to subcore i of SparseCore c (the rows are pairwise disjoint and cover the array). Back come the
    shares, rejoined to the full share, and the rows each at its subcore's counts, joined to ONE array Hf with
    Hf[2 i + c, n] = (subcore (c, i)'s count of source node n). The bias b : [128] is recast as the row B1 : [1, 128],
    B1[0, q] = b[q]. The region then leaves in the result array its payload of Hf, the node features, the weight and B1.
  * Read against a final memory: the result array is that payload, and the four arguments are as launched.
  run_main states it of every weakly fair execution of all the threads, at any float instance.
-/
import proofs.«215102_g56573309223269_cont_9to1_m_676_32_alg».proof.Proof.Pay
import proofs.«215102_g56573309223269_cont_9to1_m_676_32_alg».proof.Proof.TcRegion
import Idealize.ShloMosaic.Lib.ValueLayout

noncomputable section

namespace Cert.KernelIdeal.Main

open Cert.KernelIdeal Cert.KernelIdeal.Gen Cert.KernelIdeal.Setup Cert.KernelIdeal.Tile

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

variable (m : (ℓ : Loc nD τ sig) → Buf (Elt F) ℓ) (ρ : Dev nD → PrngReg)

/-! ## The launch element -/

/-- The launch element: the handshakes' rounds, the region's staging cells' rounds, no counter. -/
def u₀ : UU := (initOf (K (F := F)).hsCells (K (F := F)).hsToks, (initOf (TcRegion.regCells (F := F)) (TcRegion.regToks (F := F)), 1))

variable (hpre : PreOK m)

omit [FloatOps F] [Named F] in
theorem bigSep_emp' {I : Type} (s : Finset I) : (bigSep s fun _ => iprop(emp)) = (iprop(emp) : sProp 𝕄) := bigSep_emp_const s

/-- The element splits into the handshakes' rounds and the staging cells' rounds, which fund every device's share of
    the region's ghost state; the counters are dropped; no thread's kernel proof is dealt anything. -/
theorem hu₀ : (ownU (u₀ (F := F)) : sProp 𝕄)
    ⊢ |={Set.univ}=> iprop(BI.own ((EH (F := F)) (initOf (K (F := F)).hsCells (K (F := F)).hsToks)) ∗ bigSep Finset.univ (TcRegion.Gd (F := F))
        ∗ bigSep Finset.univ fun thr : Thread nD τ => bigSep Finset.univ fun q : Fin 1 => (P m hpre).x q thr) := by
  unfold u₀
  iintro Hu
  ihave H := (ownU_pair _ _) $$ Hu
  icases H with ⟨HH, HR⟩
  ihave HR' := (own_pair_emb (embR : Emb (UR × Counters) 𝕄) _ _) $$ HR
  icases HR' with ⟨HR, -⟩
  imod (TcRegion.fund (F := F)) $$ [HR] with HG
  · unfold ER; iexact HR
  imodintro
  isplitl [HH]; · unfold EH; iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The bias as a row -/

/-- The bias as the row the region reads: the [128] array cast to [1, 128]. -/
def B1 (d : Dev nD) : Vec F S1x128 .f32 := shapeCast S1x128 (m (bLoc d) : Vec F S128 .f32) shapeCasts_S128_S1x128

theorem B1_apply (d : Dev nD) (q : Fin 128) : B1 m d (ix2 (0 : Fin 1) q) = (m (bLoc d) : Vec F S128 .f32) (ix1 q) :=
  shapeCast_a_1a_apply _ _ 0 q

/-! ## The result's rows, keyed by (SparseCore, subcore) -/

/-- The row of the [32, 10000] array that subcore i of SparseCore c fills. -/
abbrev Kp (p : Fin 2 × Fin 16) : Finset S32x10000.Idx := rowSet (wid (coordsV p.1 p.2))

omit [FloatOps F] [Named F] in
theorem rowSet_eq (r : Fin 32) : rowSet r = (row r).set := by
  show ((View.whole (main_v0_scv : Ref sig .scVector)).slice (row r)).set = _
  rw [View.set_slice]; exact Finset.map_refl

theorem wid_coordsV (c : Fin 2) (i : Fin 16) : (wid (coordsV c i)).val = 2 * i.val + c.val := rfl

theorem wid_inj {p p' : Fin 2 × Fin 16} (h : wid (coordsV p.1 p.2) = wid (coordsV p'.1 p'.2)) : p = p' := by
  obtain ⟨c, i⟩ := p; obtain ⟨c', i'⟩ := p'
  have hv : 2 * i.val + c.val = 2 * i'.val + c'.val := congrArg Fin.val h
  have hc : c.val < 2 := c.isLt
  have hc' : c'.val < 2 := c'.isLt
  have e1 : c = c' := Fin.ext (by omega)
  have e2 : i = i' := Fin.ext (by omega)
  rw [e1, e2]

/-- Different subcores fill disjoint rows, -/
theorem rows_disjoint : ∀ p ∈ (Finset.univ : Finset (Fin 2 × Fin 16)), ∀ p' ∈ (Finset.univ : Finset (Fin 2 × Fin 16)), p ≠ p' → Disjoint (Kp p) (Kp p') :=
  fun p _ p' _ h => by
    show Disjoint (rowSet _) (rowSet _)
    rw [rowSet_eq, rowSet_eq]; exact Rect.part_disjoint hdiv fun e => h (wid_inj e)

/-- and together the rows are the whole array. -/
theorem rows_cover : (Finset.univ : Finset (Fin 2 × Fin 16)).biUnion Kp = Finset.univ := by
  apply Finset.eq_univ_of_forall; intro y
  have hy : y ∈ (Finset.univ : Finset (Fin 32)).biUnion rowSet := by
    rw [(Finset.biUnion_congr rfl fun r _ => rowSet_eq r).trans (Rect.biUnion_part hdiv)]; exact Finset.mem_univ y
  obtain ⟨r, -, hr⟩ := Finset.mem_biUnion.mp hy
  have h2 : r.val % 2 < 2 := Nat.mod_lt _ (by decide)
  have h16 : r.val / 2 < 16 := by have := r.isLt; omega
  refine Finset.mem_biUnion.mpr ⟨(⟨r.val % 2, h2⟩, ⟨r.val / 2, h16⟩), Finset.mem_univ _, ?_⟩
  have e : wid (coordsV (⟨r.val % 2, h2⟩ : Fin 2) (⟨r.val / 2, h16⟩ : Fin 16)) = r := Fin.ext (by rw [wid_coordsV]; show 2 * (r.val / 2) + r.val % 2 = r.val; omega)
  show y ∈ rowSet _
  rw [e]; exact hr

omit [FloatOps F] [Named F] in
/-- The array held whole is its 32 rows held, SparseCore by SparseCore and subcore by subcore. -/
theorem h_rows (d : Dev nD) (f : Buf (Elt F) (hLoc d)) :
    (hLoc d ↦{fullShare} f : sProp 𝕄) = bigSep Finset.univ fun c : Fin 2 => bigSep Finset.univ fun i : Fin 16 => hLoc d ↦[Kp (c, i)]{fullShare} f := by
  rw [← bigSep_univ_prod (fun p : Fin 2 × Fin 16 => (hLoc d ↦[Kp p]{fullShare} f : sProp 𝕄)),
    ← pointsTo_biUnion Finset.univ (ℓ := hLoc d) Kp rows_disjoint, rows_cover]; try rfl

/-! ## The edge table's read shares -/

/-- What the TensorCore keeps of the edge table while the subcores read it: the remainder of the halving per SparseCore
    and, per SparseCore, the remainder of the halving per subcore. -/
def eRest (d : Dev nD) : sProp 𝕄 :=
  iprop((eLoc d ↦{Transfers.shareDrop fullShare 2} m (eLoc d))
    ∗ bigSep Finset.univ fun c : Fin 2 => eLoc d ↦{Transfers.shareDrop (Transfers.shareTok fullShare 2 c) 16} m (eLoc d))

/-- The table held whole is those remainders and one read share per subcore. -/
theorem e_split (d : Dev nD) :
    (eLoc d ↦{fullShare} m (eLoc d) : sProp 𝕄)
      = iprop(eRest m d ∗ bigSep Finset.univ fun c : Fin 2 => bigSep Finset.univ fun i : Fin 16 => eLoc d ↦{tokShare c i} m (eLoc d)) := by
  have e1 : (eLoc d ↦{fullShare} m (eLoc d) : sProp 𝕄)
      = iprop((eLoc d ↦{Transfers.shareDrop fullShare 2} m (eLoc d)) ∗ bigSep Finset.univ fun c : Fin 2 => eLoc d ↦{Transfers.shareTok fullShare 2 c} m (eLoc d)) :=
    BI.equiv_iff.mp ⟨(Transfers.pointsTo_toks fullShare 2).1, (Transfers.pointsTo_toks fullShare 2).2⟩
  have e2 (c : Fin 2) : (eLoc d ↦{Transfers.shareTok fullShare 2 c} m (eLoc d) : sProp 𝕄)
      = iprop((eLoc d ↦{Transfers.shareDrop (Transfers.shareTok fullShare 2 c) 16} m (eLoc d)) ∗ bigSep Finset.univ fun i : Fin 16 => eLoc d ↦{tokShare c i} m (eLoc d)) :=
    BI.equiv_iff.mp ⟨(Transfers.pointsTo_toks (Transfers.shareTok fullShare 2 c) 16).1, (Transfers.pointsTo_toks (Transfers.shareTok fullShare 2 c) 16).2⟩
  rw [e1, bigSep_congr (fun c _ => e2 c), bigSep_sep']
  unfold eRest
  exact BI.equiv_iff.mp ⟨Idealize.SL.BI.sep_assoc', Idealize.SL.BI.sep_assoc⟩

/-! ## What the call takes and what it brings back -/

/-- The rows come back each at its subcore's counts: joined, ONE array whose row 2 i + c is subcore i of SparseCore c's. -/
theorem h_join (d : Dev nD) :
    (bigSep Finset.univ fun p : Fin 2 × Fin 16 =>
        iprop(∃ f : Vec F S32x10000 .f32, (hLoc d ↦[Kp p]{fullShare} f) ∗ ⌜RowOK (coordsV p.1 p.2) (m (eLoc d)) (hpre d) f⌝))
      ⊢ (iprop(∃ Hf : Vec F S32x10000 .f32,
          ⌜∀ (c : Fin 2) (i : Fin 16) (n : Fin 10000), Hf (ix2 (wid (coordsV c i)) n) = rowVal (coordsV c i) (m (eLoc d)) (hpre d) (ix1 n)⌝
          ∗ (hLoc d ↦{fullShare} Hf)) : sProp 𝕄) := by
  haveI : Nonempty (Vec F S32x10000 .f32) := ⟨m (hLoc d)⟩
  haveI : Nonempty (S32x10000.Idx → Elt F .f32) := ⟨m (hLoc d)⟩
  refine (bigSep_exists_pi Finset.univ (fun (p : Fin 2 × Fin 16) (f : Vec F S32x10000 .f32) =>
    iprop((hLoc d ↦[Kp p]{fullShare} f) ∗ ⌜RowOK (coordsV p.1 p.2) (m (eLoc d)) (hpre d) f⌝))).trans ?_
  iintro ⟨%fs, H⟩
  have hstep : (bigSep Finset.univ fun p : Fin 2 × Fin 16 => iprop((hLoc d ↦[Kp p]{fullShare} fs p) ∗ ⌜RowOK (coordsV p.1 p.2) (m (eLoc d)) (hpre d) (fs p)⌝))
      ⊢ (iprop(⌜∀ p ∈ (Finset.univ : Finset (Fin 2 × Fin 16)), RowOK (coordsV p.1 p.2) (m (eLoc d)) (hpre d) (fs p)⌝
          ∗ bigSep Finset.univ fun p : Fin 2 × Fin 16 => (hLoc d ↦[Kp p]{fullShare} fs p)) : sProp 𝕄) :=
    (bigSep_mono fun (p : Fin 2 × Fin 16) _ => (Laws.sep_comm (P := (hLoc d ↦[Kp p]{fullShare} fs p : sProp 𝕄))
      (Q := iprop(⌜RowOK (coordsV p.1 p.2) (m (eLoc d)) (hpre d) (fs p)⌝))).1).trans
    (bigSep_pure_sep Finset.univ (fun p : Fin 2 × Fin 16 => RowOK (coordsV p.1 p.2) (m (eLoc d)) (hpre d) (fs p))
      (fun p => (hLoc d ↦[Kp p]{fullShare} fs p : sProp 𝕄)))
  ihave H' := hstep $$ H
  icases H' with ⟨%hrow, H⟩
  ihave H2 := (pointsTo_biUnion_join Finset.univ Kp fs (fs (0, 0)) rows_disjoint) $$ H
  icases H2 with ⟨%g, %hg, Hg⟩
  rw [rows_cover]
  iexists g
  isplitr
  · ipureintro
    intro c i n
    rw [hg (c, i) (Finset.mem_univ _) _ (mem_rowSet (coordsV c i) n)]
    exact hrow (c, i) (Finset.mem_univ _) n
  · iexact Hg

/-- The call's operands, for both SparseCores: per subcore a read share of the table and its row. -/
theorem st0_eq (d : Dev nD) :
    (bigSep Finset.univ fun c : Fin ((K (F := F)).nCore 0) => (P m hpre).st 0 d c)
      = iprop((bigSep Finset.univ fun c : Fin 2 => bigSep Finset.univ fun i : Fin 16 => eLoc d ↦{tokShare c i} m (eLoc d))
          ∗ bigSep Finset.univ fun c : Fin 2 => bigSep Finset.univ fun i : Fin 16 => hLoc d ↦[Kp (c, i)]{fullShare} m (hLoc d)) := by
  show (bigSep Finset.univ fun c : Fin 2 => bigSep Finset.univ fun i : Fin 16 => goOf m d c i) = _
  unfold goOf
  rw [bigSep_congr (fun c _ => bigSep_sep' _ _ _), bigSep_sep']

/-- Its results: the shares back, the rows at the counts. -/
theorem dn0_eq (d : Dev nD) :
    (bigSep Finset.univ fun c : Fin ((K (F := F)).nCore 0) => (P m hpre).dn 0 d c)
      = iprop((bigSep Finset.univ fun c : Fin 2 => bigSep Finset.univ fun i : Fin 16 => eLoc d ↦{tokShare c i} m (eLoc d))
          ∗ bigSep Finset.univ fun p : Fin 2 × Fin 16 =>
              iprop(∃ f : Vec F S32x10000 .f32, (hLoc d ↦[Kp p]{fullShare} f) ∗ ⌜RowOK (coordsV p.1 p.2) (m (eLoc d)) (hpre d) f⌝)) := by
  show (bigSep Finset.univ fun c : Fin 2 => bigSep Finset.univ fun i : Fin 16 => tdOf m hpre d c i) = _
  unfold tdOf
  rw [bigSep_congr (fun c _ => bigSep_sep' _ _ _), bigSep_sep', bigSep_univ_prod]

/-! ## @main's arrays -/

omit [FloatOps F] [Named F] in
/-- The TensorCore's unscoped buffers: @main's seven arrays. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (eLoc d ↦{fullShare} W main_arg1) ∗ (wLoc d ↦{fullShare} W main_arg2) ∗ (bLoc d ↦{fullShare} W main_arg3)
          ∗ (hLoc d ↦{fullShare} W main_v0) ∗ (b1Loc d ↦{fullShare} W main_v1) ∗ (oLoc d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

abbrev b' : DevRef τ sig := Proc.devRef .tc (main_arg3 : Ref sig .tc)
abbrev r' : DevRef τ sig := Proc.devRef .tc (main_v1 : Ref sig .tc)
/-- The bias recast as a row: @main's one host operation. -/
abbrev opR : HloOp τ sig (Elt F) := StableHlo.reshape main_arg3 main_v1 rfl shapeCasts_S128_S1x128
abbrev S2 : Finset (DevRef τ sig) := {b', r'}

/-- The launch valuation. -/
def V0 (d : Dev nD) : Valuation τ sig (Elt F) := fun b => m (d, b)

omit [FloatOps F] [Named F] in
theorem held_S2 (d : Dev nD) (W : Valuation τ sig (Elt F)) :
    (StableHlo.held (T d) S2 W : sProp 𝕄) = iprop((bLoc d ↦{fullShare} W b') ∗ (b1Loc d ↦{fullShare} W r')) := by
  unfold StableHlo.held S2
  rw [SparseCore.bigSep_insert' (by decide), bigSep_singleton]

theorem hOpR : (opR (F := F)).bufs ⊆ S2 := show ({b', r'} : Finset (DevRef τ sig)) ⊆ S2 by decide

theorem opR_b (d : Dev nD) : (opR (F := F)).result (V0 m d) b' = m (bLoc d) :=
  (opR (F := F)).result_of_not_mem (V0 m d) (b := b') (show b' ∉ ({r'} : Finset (DevRef τ sig)) by decide)
theorem opR_r (d : Dev nD) : (opR (F := F)).result (V0 m d) r' = B1 m d :=
  (StableHlo.reshape_result main_arg3 main_v1 rfl shapeCasts_S128_S1x128 ⟨by decide, rfl⟩ ⟨by decide, rfl⟩ (V0 m d)).trans rfl

/-! ## @main on the TensorCore -/

/-- What @main leaves the claim on device d: the result at the region's payload of an array Hf whose rows are the
    subcores' counts, the four arguments at their launch contents. -/
def FIN (d : Dev nD) : sProp 𝕄 :=
  iprop(∃ Hf : Vec F S32x10000 .f32, ⌜∀ (c : Fin 2) (i : Fin 16) (n : Fin 10000), Hf (ix2 (wid (coordsV c i)) n) = rowVal (coordsV c i) (m (eLoc d)) (hpre d) (ix1 n)⌝
    ∗ (oLoc d ↦{fullShare} TcRegion.out Hf (m (xLoc d)) (m (wLoc d)) (B1 m d)) ∗ (xLoc d ↦{fullShare} m (xLoc d)) ∗ (eLoc d ↦{fullShare} m (eLoc d))
    ∗ (wLoc d ↦{fullShare} m (wLoc d)) ∗ (bLoc d ↦{fullShare} m (bLoc d)))

theorem hOt (d : Dev nD) : ∀ g, (K (F := F)).Otc d 1 g none = 0 := by
  rw [(K (F := F)).Otc_end d (le_refl 1)]; intro g; rfl

/-- @main on device d's TensorCore: the call (read shares of the table and the 32 rows out, the shares and the rows at the
    counts back, joined), the bias recast as a row, the region. -/
theorem hmain (κ : GSem nD τ sig → ℕ) (d : Dev nD) :
    iprop((K (F := F)).ctx EH (P m hpre) κ ∗ (K (F := F)).tcSt EH d 0 ∗ (K (F := F)).tcRes m ρ d ∗ TcRegion.Gd (F := F) d)
      ⊢ wp frame (wpE ((K (F := F)).defs (D (F := F))) 𝒱 (SparseCore.T d) none) Set.univ (main d)
          fun _ => iprop((K (F := F)).tcSt EH d 1 ∗ FIN m hpre d) := by
  unfold SparseCore.Cfg.tcRes
  rw [unscopedBufs_eq]
  simp only [main, wp_bind, wp_pure]
  iintro ⟨#Hctx, Hst, ⟨Hb, ⟨Hx, He, Hw, Hbias, Hh, Hb1, Ho⟩, -, -⟩, Hg⟩
  ihave He' := (Entails.of_eq (e_split m d)) $$ He
  icases He' with ⟨Her, Hetoks⟩
  ihave Hh' := (Entails.of_eq (h_rows (F := F) d (m (hLoc d)))) $$ Hh
  -- the call
  iapply ((K (F := F)).wp_run (D (F := F)) 𝒱 (EH := EH) (P := P m hpre) κ d 0) $$ [Hst Hetoks Hh' Hb Hx Hw Hbias Hb1 Ho Hg Her]
  isplitr; · iexact Hctx
  isplitl [Hst]; · iexact Hst
  isplitl [Hetoks Hh']
  · rw [st0_eq]
    isplitl [Hetoks]; · iexact Hetoks
    iexact Hh'
  iintro ⟨Hst, Hdn⟩
  ihave Hdn' := (Entails.of_eq (dn0_eq m hpre d)) $$ Hdn
  icases Hdn' with ⟨Hetoks, Hrows⟩
  ihave He := (Entails.of_eq (e_split m d).symm) $$ [Her Hetoks]
  · isplitl [Her]; · iexact Her
    iexact Hetoks
  ihave Hh := (h_join m hpre d) $$ Hrows
  icases Hh with ⟨%Hf, %hHf, Hh⟩
  -- the bias recast as a row
  iapply (StableHlo.wp_hlo_within 𝒱 (SparseCore.T d) none Set.univ (op := opR) (S := S2) hOpR (V := V0 m d)) $$ [Hb Hbias Hb1]
  · isplitl [Hb]; · iexact Hb
    rw [held_S2]
    isplitl [Hbias]; · iexact Hbias
    iexact Hb1
  iintro ⟨Hb, Hheld⟩
  ihave Hh2 := (Entails.of_eq (held_S2 (F := F) d _)) $$ Hheld
  icases Hh2 with ⟨Hbias, Hb1⟩
  rw [opR_b, opR_r, wp_ret]
  imodintro
  -- the region
  unfold SparseCore.Cfg.tcSt
  icases Hst with ⟨⟨%W, %hW, HO⟩, Hrest⟩
  iapply (TcRegion.wp_region d (K (F := F)).refines_self Hf (m (xLoc d)) (m (wLoc d)) (B1 m d) (m (oLoc d)) ((K (F := F)).Otc d 1) (hOt d) W (fun x => Prog.ret x) _)
  isplitr; · iapply (SparseCore.Cfg.ctx_levAts κ); iexact Hctx
  isplitl [Hg]; · iexact Hg
  isplitl [Hb]; · iexact Hb
  isplitl [Hh]; · iexact Hh
  isplitl [Hx]; · iexact Hx
  isplitl [Hw]; · iexact Hw
  isplitl [Hb1]; · iexact Hb1
  isplitl [Ho]; · iexact Ho
  isplitl [HO]; · iexact HO
  iintro ⟨Hb, Hh, Hx, Hw, Hb1, Ho, %W', %hW', HO⟩
  rw [wp_ret]
  imodintro; imodintro
  isplitl [HO Hrest]
  · isplitl [HO]
    · iexists W'; isplitr
      · ipureintro; exact TcRegion.wBelow_of d hW' hW
      · iexact HO
    iexact Hrest
  unfold FIN
  iexists Hf
  isplitr; · ipureintro; exact hHf
  isplitl [Ho]; · iexact Ho
  isplitl [Hx]; · iexact Hx
  isplitl [He]; · iexact He
  isplitl [Hw]; · iexact Hw
  iexact Hbias

/-! ## Reading the claim off the final memory -/

def fq (d : Dev nD) (s' : Phys nD τ sig (Elt F)) : Prop :=
  (∃ Hf : Vec F S32x10000 .f32, (∀ (c : Fin 2) (i : Fin 16) (n : Fin 10000), Hf (ix2 (wid (coordsV c i)) n) = rowVal (coordsV c i) (m (eLoc d)) (hpre d) (ix1 n))
      ∧ s'.mem.mem (oLoc d) = TcRegion.out Hf (m (xLoc d)) (m (wLoc d)) (B1 m d))
    ∧ s'.mem.mem (xLoc d) = m (xLoc d) ∧ s'.mem.mem (eLoc d) = m (eLoc d) ∧ s'.mem.mem (wLoc d) = m (wLoc d) ∧ s'.mem.mem (bLoc d) = m (bLoc d)

theorem hfin (d : Dev nD) (s' : Phys nD τ sig (Elt F)) : iprop(FIN m hpre d ∗ SI s') ⊢ (⌜fq m hpre d s'⌝ : sProp 𝕄) := by
  unfold FIN
  iintro ⟨⟨%Hf, %hHf, Ho, Hx, He, Hw, Hbias⟩, HSI⟩
  ihave H := (persistent_entails_right (SI_pointsTo_agree (st := s') (ℓ := oLoc d) (I := Finset.univ) (q := fullShare)
    (f := TcRegion.out Hf (m (xLoc d)) (m (wLoc d)) (B1 m d)))) $$ [HSI Ho]
  · isplitl [HSI] <;> iassumption
  icases H with ⟨%h0, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h3, HSI, -⟩
  ihave H := (SI_pointsTo_agree (st := s') (ℓ := bLoc d) (I := Finset.univ) (q := fullShare) (f := m (bLoc d))) $$ [HSI Hbias]
  · isplitl [HSI] <;> iassumption
  icases H with %h4
  ipureintro
  exact ⟨⟨Hf, hHf, funext fun i => h0 i (Finset.mem_univ i)⟩, funext fun i => h1 i (Finset.mem_univ i), funext fun i => h2 i (Finset.mem_univ i),
    funext fun i => h3 i (Finset.mem_univ i), funext fun i => h4 i (Finset.mem_univ i)⟩

/-! ## The program's run -/

/-- Every weakly fair execution of the 35 threads terminates, and every final memory has, on every device, the result at
    the region's payload of an array whose rows are the subcores' counts, and the four arguments unchanged. -/
theorem run_main [∀ e, Nonempty (Elt F e)] :
    θ_run (Cert.KernelIdeal.defs (F := F)) (Cert.KernelIdeal.threads (F := F)) ⟨m, fun _ => 0, ρ⟩
      (fun r => ∀ c : Dev nD,
        (∃ Hf : Vec F S32x10000 .f32, (∀ (c' : Fin 2) (i : Fin 16) (n : Fin 10000), Hf (ix2 (wid (coordsV c' i)) n) = rowVal (coordsV c' i) (m (eLoc c)) (hpre c) (ix1 n))
            ∧ r.2.mem (oLoc c) = TcRegion.out Hf (m (xLoc c)) (m (wLoc c)) (B1 m c))
          ∧ r.2.mem (xLoc c) = m (xLoc c) ∧ r.2.mem (eLoc c) = m (eLoc c) ∧ r.2.mem (wLoc c) = m (wLoc c) ∧ r.2.mem (bLoc c) = m (bLoc c)) :=
  SparseCore.Cfg.θ_run_sc (K := K (F := F)) (D := D (F := F)) (𝒱 := 𝒱) (EH := EH) (P := P m hpre) facts v₀
    (fun q hq => match q with | 0 => nomatch hq)
    (fun q _ => match q with | 0 => tileObl m hpre facts)
    (fun q _ => match q with | 0 => SparseCore.Cfg.VecSplit.of_plain (vecSplit m hpre))
    m ρ main (TcRegion.Gd (F := F)) (FIN m hpre) (u₀ (F := F)) (sep_elim_left.trans (hu₀ m hpre)) (hmain m ρ hpre) (fq m hpre) (hfin m hpre) _ (fun _ h => h)

end Cert.KernelIdeal.Main
end
-- ==== Proof.Bits.Setup.lean ====
/-
  The shared frame set-up for this program: one vector-subcore kernel on 2 × 16 vector subcores (each counts
  its share of the edges' source nodes into a row of a [32, 10000] array) followed, on the TensorCore, by one
  gridless kernel region. The resource algebra has three parts: the launch handshakes' rounds, the rounds of
  the TensorCore region's staging cells, and the counters of the vector subcores' own local copies.
-/
import proofs.«215102_g56573309223269_cont_9to1_m_676_32_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«215102_g56573309223269_cont_9to1_m_676_32_alg».proof.Proof.Gen.Kernel
import proofs.«215102_g56573309223269_cont_9to1_m_676_32_alg».proof.Proof.Gen.Kernel.Skeleton
import proofs.«215102_g56573309223269_cont_9to1_m_676_32_alg».proof.Proof.Gen.Kernel.Launch
import proofs.«215102_g56573309223269_cont_9to1_m_676_32_alg».proof.Proof.Gen.Kernel.Points

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The TensorCore region's staging cells' rounds. -/
abbrev UR : Type := URounds (GSem nD τ sig) Unit
/-- Handshakes, staging cells, and the counters of the vector subcores' local copies. -/
abbrev UU : Type := UH × (UR × Counters)

abbrev MM (F : FTy → Type) : Type := MT nD τ sig (HIx 1) (Elt F) ℕ UU ℕ

def EH : Emb UH (MM F) := embL
def ER : Emb UR (MM F) := (Emb.inl : Emb UR (UR × Counters)).trans (embR : Emb (UR × Counters) (MM F))

instance EH_landsIn : (EH : Emb UH (MM F)).LandsIn (upEmb : UEmb _ (MM F)) := by unfold EH; infer_instance
instance ER_landsIn : (ER : Emb UR (MM F)).LandsIn (upEmb : UEmb _ (MM F)) := by unfold ER; infer_instance

/-! ## The arrays, as locations of device `d` -/

abbrev xLoc (d : Dev nD) : Loc nD τ sig := (SparseCore.T d).loc main_arg0
abbrev eLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev hLoc (d : Dev nD) : Loc nD τ sig := (SparseCore.T d).loc main_v0
abbrev b1Loc (d : Dev nD) : Loc nD τ sig := (SparseCore.T d).loc main_v1
abbrev oLoc (d : Dev nD) : Loc nD τ sig := (SparseCore.T d).loc main_v2

end Cert.Kernel.Setup

end
-- ==== Proof.Bits.HistFold.lean ====
/-
  What one worker's counting loop computes, as a pure function of the words in its index scratch, at any
  float instance: the zero vector, then per block of 128 edges eight indexed add-stores of sixteen ones each.
-/
import proofs.«215102_g56573309223269_cont_9to1_m_676_32_alg».proof.Kernel
import proofs.«215102_g56573309223269_cont_9to1_m_676_32_alg».proof.Proof.Gen.Kernel
import proofs.«215102_g56573309223269_cont_9to1_m_676_32_alg».proof.Proof.Gen.Kernel.Skeleton
import Idealize.ShloMosaic.Lib.ValueIdx
import Idealize.ShloMosaic.Lib.Writes

noncomputable section

namespace Cert.Kernel.HistFold

open Cert.Kernel Cert.Kernel.Gen Idealize.ShloMosaic

variable {F : FTy → Type} [FloatOps F]

/-- The index scratch, whole. -/
abbrev sIv : View sig .scVector .vmem S2x10112 .i32 := (Memref.whole cc0_scratch0 : Memref sig .scVector .vmem S2x10112 .i32).view

/-- The window of the edge table worker `L` copies in: both rows, 79 blocks of 128 words from its (clamped) first block. -/
abbrev eWin (L : grid0.Coords) : Memref sig .scVector .hbm S2x10112 .i32 :=
  (Memref.whole main_arg1_scv : Memref sig .scVector .hbm S2x320000 .i32).slice (Rect.unit (s := S2x320000) (k0_off1 L) S2x10112.size (k0_off1_inb L)) (fun _ => rfl)

/-- The words that window holds of an edge table `E`. -/
def win (L : grid0.Coords) (E : Vec F S2x320000 .i32) : Vec F S2x10112 .i32 := View.read (Elt F) (eWin L).view E

/-- Sixteen consecutive words of the index scratch, as the body loads them. -/
def lanes (s0 : Vec F S2x10112 .i32) (off : Fin 2 → Nat) (hoff : ∀ a, off a + S1x16.size a ≤ S2x10112.size a) : Vec F S16 .i32 :=
  shapeCast S16 (sIv.readAt (Elt F) (Rect.unit (s := S2x10112) off S1x16.size hoff).toLoadRect s0) shapeCasts_S1x16_S16

/-- Every word of the index scratch names a node. -/
def InRange (s0 : Vec F S2x10112 .i32) : Prop := ∀ j, (s0 j).toNat < 10000

theorem lanes_inb (s0 : Vec F S2x10112 .i32) (hs : InRange s0) (off : Fin 2 → Nat) (hoff : ∀ a, off a + S1x16.size a ≤ S2x10112.size a) :
    ∀ a x, ((![lanes s0 off hoff] : Fin 1 → IVec S16 32) a x).toNat < S10000.size a := by
  intro a x
  obtain rfl : a = 0 := Subsingleton.elim _ _
  exact hs _

/-- One indexed add-store of sixteen ones at the nodes `v` names. -/
def bump (g : Vec F S10000 .f32) (v : Vec F S16 .i32) (h : ∀ a x, ((![v] : Fin 1 → IVec S16 32) a x).toNat < S10000.size a) : Vec F S10000 .f32 :=
  storeIdx g ![v] (k0_pay2 (F := F)) (fun _ => 1#1) true h

/-- One trip of the counting loop: the eight add-stores of block `k` of the worker's share, lanes 0–15 first. -/
def trip (s0 : Vec F S2x10112 .i32) (hs : InRange s0) (L : grid0.Coords) (k : Fin (k0_t2_loop L).trips) (g : Vec F S10000 .f32) : Vec F S10000 .f32 :=
  let b0 := bump g (lanes s0 (k0_off3 L k 0#32) (k0_off3_inb L k 0)) (lanes_inb s0 hs _ _)
  let b1 := bump b0 (lanes s0 (k0_off3 L k 16#32) (k0_off3_inb L k 1)) (lanes_inb s0 hs _ _)
  let b2 := bump b1 (lanes s0 (k0_off3 L k 32#32) (k0_off3_inb L k 2)) (lanes_inb s0 hs _ _)
  let b3 := bump b2 (lanes s0 (k0_off3 L k 48#32) (k0_off3_inb L k 3)) (lanes_inb s0 hs _ _)
  let b4 := bump b3 (lanes s0 (k0_off3 L k 64#32) (k0_off3_inb L k 4)) (lanes_inb s0 hs _ _)
  let b5 := bump b4 (lanes s0 (k0_off3 L k 80#32) (k0_off3_inb L k 5)) (lanes_inb s0 hs _ _)
  let b6 := bump b5 (lanes s0 (k0_off3 L k 96#32) (k0_off3_inb L k 6)) (lanes_inb s0 hs _ _)
  bump b6 (lanes s0 (k0_off3 L k 112#32) (k0_off3_inb L k 7)) (lanes_inb s0 hs _ _)

/-- The counting scratch before trip `k`, from `z` before the loop. -/
def histK (s0 : Vec F S2x10112 .i32) (hs : InRange s0) (L : grid0.Coords) (z : Vec F S10000 .f32) : ℕ → Vec F S10000 .f32
  | 0 => z
  | k + 1 => if h : k < (k0_t2_loop L).trips then trip s0 hs L ⟨k, h⟩ (histK s0 hs L z k) else histK s0 hs L z k

theorem histK_succ (s0 : Vec F S2x10112 .i32) (hs : InRange s0) (L : grid0.Coords) (z : Vec F S10000 .f32) (k : Fin (k0_t2_loop L).trips) :
    histK s0 hs L z (k.val + 1) = trip s0 hs L k (histK s0 hs L z k.val) := by
  rw [histK]; exact dif_pos k.isLt

/-- The zero vector the zeroing loop leaves. -/
def zeros : Vec F S10000 .f32 := fun _ => (k0_pay1 (F := F)) (ValueIdx.ix1 (0 : Fin 16))

/-- The counting scratch, whole. -/
abbrev sHv : View sig .scVector .vmem S10000 .f32 := (Memref.whole cc0_scratch1 : Memref sig .scVector .vmem S10000 .f32).view

/-- The first `n` entries are zero. -/
def ZeroBelow (n : ℕ) (f : Vec F S10000 .f32) : Prop := ∀ y : S10000.Idx, (y 0).val < n → f y = zeros (F := F) y

/-- What trip `k` of the zeroing loop stores: sixteen zeros at each of the 25 offsets 400 k + 16 r, the last first. -/
def zeroPieces (k : Fin k0_t1_loop.trips) : List (View.Piece (Elt F) S10000 .f32) :=
  [⟨Rect.unit (s := S10000) (k0_off2 k 24#32) S16.size (k0_off2_inb k 24), k0_pay1 (F := F)⟩, ⟨Rect.unit (s := S10000) (k0_off2 k 23#32) S16.size (k0_off2_inb k 23), k0_pay1 (F := F)⟩,
   ⟨Rect.unit (s := S10000) (k0_off2 k 22#32) S16.size (k0_off2_inb k 22), k0_pay1 (F := F)⟩, ⟨Rect.unit (s := S10000) (k0_off2 k 21#32) S16.size (k0_off2_inb k 21), k0_pay1 (F := F)⟩,
   ⟨Rect.unit (s := S10000) (k0_off2 k 20#32) S16.size (k0_off2_inb k 20), k0_pay1 (F := F)⟩, ⟨Rect.unit (s := S10000) (k0_off2 k 19#32) S16.size (k0_off2_inb k 19), k0_pay1 (F := F)⟩,
   ⟨Rect.unit (s := S10000) (k0_off2 k 18#32) S16.size (k0_off2_inb k 18), k0_pay1 (F := F)⟩, ⟨Rect.unit (s := S10000) (k0_off2 k 17#32) S16.size (k0_off2_inb k 17), k0_pay1 (F := F)⟩,
   ⟨Rect.unit (s := S10000) (k0_off2 k 16#32) S16.size (k0_off2_inb k 16), k0_pay1 (F := F)⟩, ⟨Rect.unit (s := S10000) (k0_off2 k 15#32) S16.size (k0_off2_inb k 15), k0_pay1 (F := F)⟩,
   ⟨Rect.unit (s := S10000) (k0_off2 k 14#32) S16.size (k0_off2_inb k 14), k0_pay1 (F := F)⟩, ⟨Rect.unit (s := S10000) (k0_off2 k 13#32) S16.size (k0_off2_inb k 13), k0_pay1 (F := F)⟩,
   ⟨Rect.unit (s := S10000) (k0_off2 k 12#32) S16.size (k0_off2_inb k 12), k0_pay1 (F := F)⟩, ⟨Rect.unit (s := S10000) (k0_off2 k 11#32) S16.size (k0_off2_inb k 11), k0_pay1 (F := F)⟩,
   ⟨Rect.unit (s := S10000) (k0_off2 k 10#32) S16.size (k0_off2_inb k 10), k0_pay1 (F := F)⟩, ⟨Rect.unit (s := S10000) (k0_off2 k 9#32) S16.size (k0_off2_inb k 9), k0_pay1 (F := F)⟩,
   ⟨Rect.unit (s := S10000) (k0_off2 k 8#32) S16.size (k0_off2_inb k 8), k0_pay1 (F := F)⟩, ⟨Rect.unit (s := S10000) (k0_off2 k 7#32) S16.size (k0_off2_inb k 7), k0_pay1 (F := F)⟩,
   ⟨Rect.unit (s := S10000) (k0_off2 k 6#32) S16.size (k0_off2_inb k 6), k0_pay1 (F := F)⟩, ⟨Rect.unit (s := S10000) (k0_off2 k 5#32) S16.size (k0_off2_inb k 5), k0_pay1 (F := F)⟩,
   ⟨Rect.unit (s := S10000) (k0_off2 k 4#32) S16.size (k0_off2_inb k 4), k0_pay1 (F := F)⟩, ⟨Rect.unit (s := S10000) (k0_off2 k 3#32) S16.size (k0_off2_inb k 3), k0_pay1 (F := F)⟩,
   ⟨Rect.unit (s := S10000) (k0_off2 k 2#32) S16.size (k0_off2_inb k 2), k0_pay1 (F := F)⟩, ⟨Rect.unit (s := S10000) (k0_off2 k 1#32) S16.size (k0_off2_inb k 1), k0_pay1 (F := F)⟩,
   ⟨Rect.unit (s := S10000) (k0_off2 k 0#32) S16.size (k0_off2_inb k 0), k0_pay1 (F := F)⟩]

/-- The store trip `k` makes at its `r`-th offset. -/
def zeroPiece (k : Fin k0_t1_loop.trips) (r : Fin 25) : View.Piece (Elt F) S10000 .f32 :=
  ⟨Rect.unit (s := S10000) (k0_off2 k (BitVec.ofNat 32 r.val)) S16.size (k0_off2_inb k r), k0_pay1 (F := F)⟩

/-- The trip's stores are those 25 pieces, the last offset first. -/
theorem zeroPieces_eq (k : Fin k0_t1_loop.trips) :
    zeroPieces (F := F) k = (List.finRange 25).reverse.map (zeroPiece (F := F) k) := rfl

theorem mem_zeroPieces (k : Fin k0_t1_loop.trips) (p : View.Piece (Elt F) S10000 .f32) :
    p ∈ zeroPieces (F := F) k ↔ ∃ r : Fin 25, zeroPiece (F := F) k r = p := by
  rw [zeroPieces_eq, List.mem_map]
  simp only [List.mem_reverse, List.mem_finRange, true_and]

/-- Piece `r` of trip `k` covers the sixteen entries from 400 k + 16 r. -/
theorem mem_zeroPiece_set (k : Fin k0_t1_loop.trips) (r : Fin 25) (y : S10000.Idx) :
    y ∈ (zeroPiece (F := F) k r).1.set ↔ 400 * k.val + 16 * r.val ≤ (y 0).val ∧ (y 0).val < 400 * k.val + 16 * r.val + 16 := by
  unfold zeroPiece
  rw [Rect.mem_set_unit, k0_off2_eq k r]
  constructor
  · intro h; exact h 0
  · intro h a; obtain rfl : a = 0 := Subsingleton.elim _ _; exact h

/-- A trip of the zeroing loop extends the zeroed prefix by 400 entries. -/
theorem zero_step (k : Fin k0_t1_loop.trips) (f : Vec F S10000 .f32) (hf : ZeroBelow (400 * k.val) f) :
    ZeroBelow (400 * (k.val + 1)) (sHv.writes (Elt F) f (zeroPieces (F := F) k)) := by
  intro y hy
  show sHv.read (Elt F) (sHv.writes (Elt F) f (zeroPieces (F := F) k)) y = zeros (F := F) y
  by_cases hlo : (y 0).val < 400 * k.val
  · have hnot : ∀ p ∈ zeroPieces (F := F) k, y ∉ p.1.set := by
      intro p hp hm
      obtain ⟨r, rfl⟩ := (mem_zeroPieces k p).1 hp
      have := (mem_zeroPiece_set k r y).1 hm
      omega
    rw [View.read_writes_apply_of_forall_not_mem sHv f y (zeroPieces (F := F) k) hnot]
    exact hf y hlo
  · refine View.read_writes_apply_of_pieces sHv f (zeros (F := F)) (zeroPieces (F := F) k) (fun p hp x => ?_) y ?_
    · obtain ⟨r, rfl⟩ := (mem_zeroPieces k p).1 hp
      rfl
    · have hr : ((y 0).val - 400 * k.val) / 16 < 25 := by omega
      refine ⟨zeroPiece (F := F) k ⟨_, hr⟩, (mem_zeroPieces k _).2 ⟨_, rfl⟩, (mem_zeroPiece_set k _ y).2 ?_⟩
      show 400 * k.val + 16 * (((y 0).val - 400 * k.val) / 16) ≤ (y 0).val
        ∧ (y 0).val < 400 * k.val + 16 * (((y 0).val - 400 * k.val) / 16) + 16
      omega

/-- After its 25 trips the whole scratch is zero. -/
theorem zero_done (f : Vec F S10000 .f32) (hf : ZeroBelow (400 * k0_t1_loop.trips) f) : f = zeros (F := F) := by
  have ht : k0_t1_loop.trips = 25 := by decide
  funext y
  have hy : (y 0).val < 10000 := (y 0).isLt
  exact hf y (by rw [ht]; omega)

/-- The window of a table of node numbers holds node numbers. -/
theorem win_inRange (L : grid0.Coords) (E : Vec F S2x320000 .i32) (hE : ∀ j, (E j).toNat < 10000) : InRange (win L E) := by
  intro j
  exact hE _

end Cert.Kernel.HistFold

end
-- ==== Proof.Bits.RowLanded.lean ====
/-
  Where a worker's outgoing row lands. Worker `L` copies its counting scratch onto row r = 2·(L 1) + (L 0) of the
  [32, 10000] result array, addressed as the [1, 10000] slice at offsets (r, 0), squeezed to [10000]. The squeeze
  keeps the row-major position, so entry `n` of the squeezed view is entry (0, n) of the slice, and the unit-stride
  slice adds its offsets: entry (r, n) of the array. Hence one unmasked write of a whole vector `w` through that view
  leaves `w n` at (r, n), and every (r, n) is an element of the view.
-/
import proofs.«215102_g56573309223269_cont_9to1_m_676_32_alg».proof.Proof.Bits.HistFold
import Idealize.ShloMosaic.Lib.Writes
import Idealize.ShloMosaic.Lib.ValueIdx

noncomputable section

namespace Cert.Kernel.HistFold

open Cert.Kernel Cert.Kernel.Gen Idealize.ShloMosaic

variable {F : FTy → Type} [FloatOps F]

/-- Row 2·(L 1) + (L 0) of the result array, as the outgoing copy addresses it. -/
abbrev outRow (L : grid0.Coords) : Memref sig .scVector .hbm S10000 .f32 :=
  ((Memref.whole main_v0_scv : Memref sig .scVector .hbm S32x10000 .f32).slice
    (Rect.unit (s := S32x10000) (k0_off5 L) S1x10000.size (k0_off5_inb L)) (fun _ => rfl)).squeeze S10000 squeezes_S1x10000_S10000

/-- Entry `n` of the squeezed row view is entry (r, n) of the array. -/
theorem outRow_emb (L : grid0.Coords) (r : Fin 32) (hr : r.val = 2 * (L 1).val + (L 0).val) (n : Fin 10000) :
    (outRow L).view.emb (ValueIdx.ix1 n) = (ValueIdx.ix2 r n : S32x10000.Idx) := by
  show (Rect.unit (s := S32x10000) (k0_off5 L) S1x10000.size (k0_off5_inb L)).emb
      (Shape.reshapeEquiv squeezes_S1x10000_S10000.numel_eq (ValueIdx.ix1 n)) = ValueIdx.ix2 r n
  have hk : Shape.reshapeEquiv squeezes_S1x10000_S10000.numel_eq (ValueIdx.ix1 n) = (ValueIdx.ix2 (0 : Fin 1) n : S1x10000.Idx) :=
    Shape.reshapeEquiv_eq_of_rowMajor _ (by
      rw [Shape.rowMajor_val_two, Shape.rowMajor_val_one]
      show 0 * 10000 + n.val = n.val
      omega)
  rw [hk]
  funext a
  apply Fin.ext
  rw [Rect.emb_apply, Rect.off_unit, Rect.stride_unit]
  match a with
  | ⟨0, _⟩ =>
    have ho : k0_off5 L 0 = 2 * (L 1).val + (L 0).val := congrFun (k0_off5_eq L) 0
    show k0_off5 L 0 + 1 * 0 = r.val
    omega
  | ⟨1, _⟩ =>
    have ho : k0_off5 L 1 = 0 := congrFun (k0_off5_eq L) 1
    show k0_off5 L 1 + 1 * n.val = n.val
    omega

theorem row_landed_raw (L : grid0.Coords) (f0 : Vec F S32x10000 .f32) (w : Vec F S10000 .f32) (n : Fin 10000) (r : Fin 32)
    (hr : r.val = 2 * (L 1).val + (L 0).val) :
    (outRow L).view.writes (Elt F) f0 [⟨Rect.whole S10000, w⟩] (ValueIdx.ix2 r n) = w (ValueIdx.ix1 n) := by
  have he : ((outRow L).view.slice (Rect.whole S10000)).emb (ValueIdx.ix1 n) = (ValueIdx.ix2 r n : S32x10000.Idx) := by
    show (outRow L).view.emb ((Rect.whole S10000).emb (ValueIdx.ix1 n)) = _
    rw [Rect.emb_whole_apply]
    exact outRow_emb L r hr n
  rw [View.writes_singleton, ← he, View.write_emb_of_mem _ _ (Finset.mem_univ _)]
  rfl

theorem mem_outRow_set (L : grid0.Coords) (r : Fin 32) (hr : r.val = 2 * (L 1).val + (L 0).val) (n : Fin 10000) :
    (ValueIdx.ix2 r n : S32x10000.Idx) ∈ (outRow L).view.set := by
  rw [← outRow_emb L r hr n]
  exact Finset.mem_map_of_mem _ (Finset.mem_univ _)

end Cert.Kernel.HistFold

end
-- ==== Proof.Bits.TileBody.lean ====
/-
  One vector subcore's task. Worker `w = 2 s + c` (subcore `s` of SparseCore `c`) copies a window of 79 blocks of
  128 edge words (both rows of the edge table) into its index scratch, zeroes its 10000-entry counting scratch
  while the copy is in flight, waits, then for each of its 78 or 79 blocks adds 1 at the source node of each of
  the block's 128 edges (eight indexed add-stores of 16 lanes), and copies the counting scratch to row `w` of
  the [32, 10000] result.
-/
import proofs.«215102_g56573309223269_cont_9to1_m_676_32_alg».proof.Proof.Bits.Setup
import proofs.«215102_g56573309223269_cont_9to1_m_676_32_alg».proof.Proof.Bits.HistFold
import proofs.«215102_g56573309223269_cont_9to1_m_676_32_alg».proof.Proof.Bits.RowLanded

noncomputable section

namespace Cert.Kernel.Tile

open Cert.Kernel Cert.Kernel.Gen Cert.Kernel.Setup Cert.Kernel.HistFold

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

local notation "eW" => (Memref.whole Cert.Kernel.main_arg1_scv : Memref Cert.Kernel.sig Kind.scVector Space.hbm Cert.Kernel.S2x320000 EltTy.i32)
local notation "hW" => (Memref.whole Cert.Kernel.main_v0_scv : Memref Cert.Kernel.sig Kind.scVector Space.hbm Cert.Kernel.S32x10000 EltTy.f32)
local notation "sI" => (Memref.whole Cert.Kernel.cc0_scratch0 : Memref Cert.Kernel.sig Kind.scVector Space.vmem Cert.Kernel.S2x10112 EltTy.i32)
local notation "sH" => (Memref.whole Cert.Kernel.cc0_scratch1 : Memref Cert.Kernel.sig Kind.scVector Space.vmem Cert.Kernel.S10000 EltTy.f32)

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0

/-- The task's two DMA semaphores: the incoming copy's, the outgoing copy's. -/
abbrev cIn (d : Dev nD) (c : Fin τ.nSC) (i : Fin τ.nSub) : GSem nD τ sig := (V d c i, .dma cc0_scratch2.sem)
abbrev cOut (d : Dev nD) (c : Fin τ.nSC) (i : Fin τ.nSub) : GSem nD τ sig := (V d c i, .dma cc0_scoped0.sem)

theorem ownSems0_V :
    (ownSems0 (V d (cV L) (jV L)) : sProp 𝕄)
      = iprop(semVal (cIn d (cV L) (jV L)) 0 ∗ semVal (cOut d (cV L) (jV L)) 0
          ∗ bigSep (((ownCells (V d (cV L) (jV L))).erase (cIn d (cV L) (jV L))).erase (cOut d (cV L) (jV L))) fun g => semVal g 0) := by
  unfold SparseCore.Cfg.ownSems0
  rw [SparseCore.bigSep_erase' ((mem_ownCells (g := cIn d (cV L) (jV L))).mpr ⟨rfl, by
      show (SemLoc.dma cc0_scratch2.sem : SemLoc sig).isScoped .scVector = true; decide⟩),
    SparseCore.bigSep_erase' (Finset.mem_erase.mpr ⟨by simp [cIn, cOut]; decide, (mem_ownCells (g := cOut d (cV L) (jV L))).mpr ⟨rfl, by
      show (SemLoc.dma cc0_scoped0.sem : SemLoc sig).isScoped .scVector = true; decide⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

/-! ## Rows of the result -/

theorem hdiv : 32 ∣ S32x10000.size 0 := ⟨1, rfl⟩
abbrev row (r : Fin 32) : Rect S32x10000 := Rect.part (s := S32x10000) (a₀ := 0) hdiv r
abbrev rowSet (r : Fin 32) : Finset S32x10000.Idx := ((hW).view.slice (row r)).set

/-- The worker number of the subcore at grid point `L`. -/
def wid (L : grid0.Coords) : Fin 32 := ⟨2 * (L 1).val + (L 0).val, by
  have h0 : (L 0).val < 2 := (L 0).isLt
  have h1 : (L 1).val < 16 := (L 1).isLt
  omega⟩

abbrev rowK (L : grid0.Coords) : Rect S32x10000 := Rect.unit (s := S32x10000) (k0_off5 L) S1x10000.size (k0_off5_inb L)
abbrev oRowK (L : grid0.Coords) : Memref sig .scVector .hbm S10000 .f32 := ((hW).slice (rowK L) (fun _ => rfl)).squeeze S10000 squeezes_S1x10000_S10000

theorem rowK_eq (L : grid0.Coords) : rowK L = row (wid L) := by
  unfold rowK row Rect.part Rect.block
  congr 1 <;> funext a
  · rw [k0_off5_eq]
    match a with
    | 0 => simp [Shape.partIx, Shape.partSize, wid]
    | 1 => simp [Shape.partIx, Shape.partSize]
  · match a with
    | 0 => simp [Shape.partSize]
    | 1 => simp [Shape.partSize]

theorem set_oRowK (L : grid0.Coords) : (oRowK L).view.set = rowSet (wid L) := by
  show (((hW).view.slice (rowK L)).reshape S10000 squeezes_S1x10000_S10000.numel_eq).set = ((hW).view.slice (row (wid L))).set
  rw [View.set_reshape]
  exact rowK_eq L ▸ rfl

/-- What worker `L` leaves in its counting scratch, from the edge table `E`. -/
def rowVal (L : grid0.Coords) (E : Vec F S2x320000 .i32) (hE : ∀ j, (E j).toNat < 10000) : Vec F S10000 .f32 :=
  histK (win L E) (win_inRange L E hE) L (zeros (F := F)) (k0_t2_loop L).trips

/-- Row `wid L` of a [32, 10000] array is worker `L`'s counts. -/
def RowOK (L : grid0.Coords) (E : Vec F S2x320000 .i32) (hE : ∀ j, (E j).toNat < 10000) (f : Vec F S32x10000 .f32) : Prop :=
  ∀ n : Fin 10000, f (ValueIdx.ix2 (wid L) n) = rowVal L E hE (ValueIdx.ix1 n)

/-- The outgoing copy lands the counting scratch in row `wid L`: an index of that row reads the scratch's word. -/
theorem row_landed (L : grid0.Coords) (f0 : Vec F S32x10000 .f32) (w : Vec F S10000 .f32) (n : Fin 10000) :
    (oRowK L).view.writes (Elt F) f0 [⟨Rect.whole S10000, w⟩] (ValueIdx.ix2 (wid L) n) = w (ValueIdx.ix1 n) :=
  row_landed_raw L f0 w n (wid L) rfl

/-- An index of row `wid L` lies in the set that row's memref addresses. -/
theorem mem_rowSet (L : grid0.Coords) (n : Fin 10000) : (ValueIdx.ix2 (wid L) n : S32x10000.Idx) ∈ rowSet (wid L) :=
  set_oRowK L ▸ mem_outRow_set L (wid L) rfl n

section Tile2

variable (d : Dev nD) (L : grid0.Coords)

theorem pts_oRowK (f : Buf (Elt F) (hLoc d)) :
    ((oRowK L).view.loc (V d (cV L) (jV L)) ↦[(oRowK L).view.set]{fullShare} f : sProp 𝕄) = hLoc d ↦[rowSet (wid L)]{fullShare} f := by
  rw [set_oRowK]
theorem pts_e (q : PosShare TreeShare) (f : Buf (Elt F) (eLoc d)) :
    ((eW).view.loc (V d (cV L) (jV L)) ↦{q} f : sProp 𝕄) = eLoc d ↦{q} f := by
  simp only [Memref.view_whole, View.set_whole]
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
theorem pts_sH (f : Buf (Elt F) ((V d (cV L) (jV L)).loc cc0_scratch1)) :
    ((sH).view.loc (V d (cV L) (jV L)) ↦{fullShare} f : sProp 𝕄) = (V d (cV L) (jV L)).loc cc0_scratch1 ↦{fullShare} f := rfl
theorem pts_sH_whole (f : Buf (Elt F) ((V d (cV L) (jV L)).loc cc0_scratch1)) :
    (((sH).access (.whole S10000)).loc (V d (cV L) (jV L)) ↦[((sH).access (.whole S10000)).set]{fullShare} f : sProp 𝕄)
      = ((sH).view.loc (V d (cV L) (jV L)) ↦{fullShare} f) := by
  rw [show ((sH).access (.whole S10000)).set = Finset.univ from Memref.set_access_whole (cc0_scratch1 : Ref sig .scVector)]

/-- One indexed add-store of sixteen ones: the counting scratch held whole goes from `g` to `bump g v`. -/
theorem wp_bump {α : Type} {v : Vec F S16 .i32} {h : ∀ a x, ((![v] : Fin 1 → IVec S16 32) a x).toNat < S10000.size a}
    {hs : ((sH).access (.whole S10000)).Stores Finset.univ}
    {k : PUnit → Prog (TpuEff nD τ sig (Elt F) Λ₀ (.scVector (cV L) (jV L))) α} {Q : α → sProp 𝕄} {g : Buf (Elt F) ((V d (cV L) (jV L)).loc cc0_scratch1)} :
    ((sH).view.loc (V d (cV L) (jV L)) ↦{fullShare} g : sProp 𝕄)
      ⊢ iprop((((sH).view.loc (V d (cV L) (jV L)) ↦{fullShare} (bump g v h : Vec F S10000 .f32)) -∗ wp frame (wpE (defs₀ (F := F)) 𝒱₀ (V d (cV L) (jV L)) none) Set.univ (k ⟨⟩) Q)
          -∗ wp frame (wpE (defs₀ (F := F)) 𝒱₀ (V d (cV L) (jV L)) none) Set.univ (SparseCore.vectorStoreIdx sH ![v] (k0_pay2 (F := F)) (fun _ => 1#1) true h hs >>= k) Q) := by
  iintro H Hk
  ihave H' := (Entails.of_eq (pts_sH_whole (F := F) d L g).symm) $$ H
  iapply (SparseCore.wp_vectorStoreIdx 𝒱₀ (V d (cV L) (jV L)) none Set.univ (base := sH)) $$ H'
  iintro H'
  iapply Hk
  have e1 : ((sH).access (.whole S10000)).write (Elt F) g (storeIdx (((sH).access (.whole S10000)).read (Elt F) g) ![v] (k0_pay2 (F := F)) (fun _ => 1#1) true h) Finset.univ
      = (bump g v h : Vec F S10000 .f32) :=
    (Memref.write_access_whole_univ (Elt F) (cc0_scratch1 : Ref sig .scVector) g _).trans
      (congrArg (fun f : Vec F S10000 .f32 => storeIdx f ![v] (k0_pay2 (F := F)) (fun _ => 1#1) true h) (Memref.read_access_whole (Elt F) (cc0_scratch1 : Ref sig .scVector) g))
  ihave H'' := (Entails.of_eq (congrArg (fun s => ((((sH).access (.whole S10000)).loc (V d (cV L) (jV L)) ↦[((sH).access (.whole S10000)).set]{fullShare} s : sProp 𝕄))) e1)) $$ H'
  iapply (Entails.of_eq (pts_sH_whole (F := F) d L _)); iexact H''

variable (E : Vec F S2x320000 .i32) (hE : ∀ j, (E j).toNat < 10000)

/-- Before trip `k` of the zeroing loop: the first 400 k entries of the counting scratch are zero. -/
def invZ (k : Nat) (_ : PUnit) : sProp 𝕄 :=
  iprop(∃ f : Vec F S10000 .f32, ((sH).view.loc (V d (cV L) (jV L)) ↦{fullShare} f) ∗ ⌜ZeroBelow (F := F) (400 * k) f⌝)

/-- Before trip `k` of the counting loop: the index scratch at the window that landed, the counting scratch at the
    counts of the first `k` blocks. -/
def invS (k : Nat) (_ : PUnit) : sProp 𝕄 :=
  iprop(((sI).view.loc (V d (cV L) (jV L)) ↦{fullShare} (win L E : Vec F S2x10112 .i32))
    ∗ ((sH).view.loc (V d (cV L) (jV L)) ↦{fullShare} (histK (win L E) (win_inRange L E hE) L (zeros (F := F)) k : Vec F S10000 .f32)))

/-- What the first part of the task leaves: the window landed, the counts made, the table's share back. -/
def Mid (q : PosShare TreeShare) (O : CellTallies nD τ sig (HIx 1)) (W : Waits sig (HIx 1)) (f0 : Buf (Elt F) (hLoc d)) : sProp 𝕄 :=
  iprop(((eW).view.loc (V d (cV L) (jV L)) ↦{q} (E : Buf (Elt F) (eLoc d)))
    ∗ ((oRowK L).view.loc (V d (cV L) (jV L)) ↦[(oRowK L).view.set]{fullShare} f0)
    ∗ ((sI).view.loc (V d (cV L) (jV L)) ↦{fullShare} (win L E : Vec F S2x10112 .i32))
    ∗ ((sH).view.loc (V d (cV L) (jV L)) ↦{fullShare} (rowVal L E hE : Vec F S10000 .f32))
    ∗ semVal (cIn d (cV L) (jV L)) 0 ∗ semVal (cOut d (cV L) (jV L)) 0
    ∗ ∃ W', ⌜∀ p ∈ W', p ∈ W ∨ p.2 = none⌝ ∗ owes (V d (cV L) (jV L)) O W')

theorem part6 (O : CellTallies nD τ sig (HIx 1)) (W : Waits sig (HIx 1)) (q : PosShare TreeShare)
    (f0 : Buf (Elt F) (hLoc d)) (fI : Buf (Elt F) ((V d (cV L) (jV L)).loc cc0_scratch0)) (fH : Buf (Elt F) ((V d (cV L) (jV L)).loc cc0_scratch1)) :
    (iprop(Transfers.MayWaits (V d (cV L) (jV L)) (none : HIx 1) O
        ∗ ((eW).view.loc (V d (cV L) (jV L)) ↦{q} (E : Buf (Elt F) (eLoc d)))
        ∗ ((oRowK L).view.loc (V d (cV L) (jV L)) ↦[(oRowK L).view.set]{fullShare} f0)
        ∗ ((sI).view.loc (V d (cV L) (jV L)) ↦{fullShare} fI) ∗ ((sH).view.loc (V d (cV L) (jV L)) ↦{fullShare} fH)
        ∗ semVal (cIn d (cV L) (jV L)) 0 ∗ semVal (cOut d (cV L) (jV L)) 0 ∗ owes (V d (cV L) (jV L)) O W) : sProp 𝕄)
      ⊢ wp frame (wpE (defs₀ (F := F)) 𝒱₀ (V d (cV L) (jV L)) none) Set.univ
          (k0_part6 L eW (Memref.isWhole_whole _) hW (Memref.isWhole_whole _) sI (Memref.isWhole_whole _) sH (Memref.isWhole_whole _) cc0_scratch2 cc0_scoped0)
          fun _ => Mid (F := F) d L E hE q O W f0 := by
  rw [k0_part6_eq_skeleton]; unfold k0_part6_skel
  iintro ⟨#Hmw, He', Hrow', HsI', HsH', HsemIn, HsemOut, HO⟩
  sl_exec
  -- the zeroing loop
  sl_for (invZ (F := F) d L) $$ [HsH']
  case region =>
    intro k _
    unfold invZ
    iintro ⟨%f, Hs, %hf⟩
    sl_exec
    sl_step
    iexists _
    isplitl [Hs]; · iexact Hs
    ipureintro; exact zero_step k f hf
  · unfold invZ
    iexists fH
    isplitl [HsH']; · iexact HsH'
    ipureintro; intro y hy; exact absurd hy (by omega)
  iintro %_ HI
  unfold invZ
  icases HI with ⟨%fZ, HsH, %hZ⟩
  obtain rfl : fZ = zeros (F := F) := zero_done fZ hZ
  -- the incoming copy's wait
  sl_exec
  have hland : View.write (Elt F) (sI).view fI (part6.sl.dma0 L E) Finset.univ = (win L E : Vec F S2x10112 .i32) :=
    (View.write_whole_univ (cc0_scratch0 : Ref sig .scVector) fI _).trans rfl
  ihave HsI := (Entails.of_eq (congrArg (fun s => (((sI).view.loc (V d (cV L) (jV L)) ↦{fullShare} s : sProp 𝕄))) hland)) $$ HsI'
  -- the counting loop
  sl_for (invS (F := F) d L E hE) $$ [HsI HsH]
  case region =>
    intro k _
    unfold invS
    iintro ⟨HI, HH⟩
    sl_exec (disch := exact lanes_inb (win L E) (win_inRange L E hE) _ _)
    iapply (wp_bump (F := F) d L) $$ HH; iintro HH
    iapply (wp_bump (F := F) d L) $$ HH; iintro HH
    iapply (wp_bump (F := F) d L) $$ HH; iintro HH
    iapply (wp_bump (F := F) d L) $$ HH; iintro HH
    iapply (wp_bump (F := F) d L) $$ HH; iintro HH
    iapply (wp_bump (F := F) d L) $$ HH; iintro HH
    iapply (wp_bump (F := F) d L) $$ HH; iintro HH
    iapply (wp_bump (F := F) d L) $$ HH; iintro HH
    sl_step
    isplitl [HI]; · iexact HI
    irw [histK_succ (win L E) (win_inRange L E hE) L (zeros (F := F)) k]
    iexact HH
  · unfold invS
    isplitl [HsI]; · iexact HsI
    iexact HsH
  iintro %_ HI
  -- the remainder loop makes no trip
  sl_for (fun (_ : Nat) (_ : PUnit) => invS (F := F) d L E hE (k0_t2_loop L).trips ⟨⟩) $$ [HI]
  case region =>
    intro k _
    exact absurd k.isLt (Nat.not_lt.2 (Nat.le_trans (k0_t3_abs L).2.1 (Nat.zero_le _)))
  · iexact HI
  iintro %_ HI
  unfold invS
  icases HI with ⟨HsI, HsH⟩
  sl_step
  unfold Mid
  isplitl [He']; · iexact He'
  isplitl [Hrow']; · iexact Hrow'
  isplitl [HsI]; · iexact HsI
  isplitl [HsH]; · iexact HsH
  isplitl [HsemIn]; · iexact HsemIn
  isplitl [HsemOut]; · iexact HsemOut
  iexists (insert (SemLoc.dma cc0_scratch2.sem, (default : HIx 1)) W); isplitr
  · ipureintro; intro p hp
    rcases Finset.mem_insert.mp hp with hp | hp
    · exact .inr (hp ▸ rfl)
    · exact .inl hp
  · iexact HO

end Tile2

section Tile3

variable (d : Dev nD) (L : grid0.Coords) (E : Vec F S2x320000 .i32) (hE : ∀ j, (E j).toNat < 10000)

/-- The outgoing copy reads the counting scratch as it stands. -/
theorem read_same (g : Vec F S10000 .f32) : ReadAs.same.apply (View.read (Elt F) (sH).view g) = g := rfl

/-- The whole task of the vector subcore at grid point `L`: from its share of the edge table and row `wid L` of
    the result, to the share back and the row at the worker's counts. -/
theorem tile_body (hF : (K (F := F)).Facts) (O : CellTallies nD τ sig (HIx 1)) (W : Waits sig (HIx 1)) (hO : ∀ g, O g none = 0) (q : PosShare TreeShare)
    (f0 : Buf (Elt F) (hLoc d)) :
    (iprop(levAts (K (F := F)).L (K (F := F)).lev ∗ emp ∗ ((eLoc d ↦{q} (E : Buf (Elt F) (eLoc d))) ∗ (hLoc d ↦[rowSet (wid L)]{fullShare} f0))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_hist_kernel L eW (Memref.isWhole_whole _) hW (Memref.isWhole_whole _) sI (Memref.isWhole_whole _) sH (Memref.isWhole_whole _) cc0_scratch2 cc0_scoped0)
          fun _ => iprop(((eLoc d ↦{q} (E : Buf (Elt F) (eLoc d))) ∗ ∃ f : Vec F S32x10000 .f32, (hLoc d ↦[rowSet (wid L)]{fullShare} f) ∗ ⌜RowOK L E hE f⌝)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_hist_kernel_eq_skeleton]; unfold cc0_hist_kernel_skel
  rw [wp_bind]
  rw [(K (F := F)).scopedBufs_V hF d (cV L) (jV L), SparseCore.Cfg.scopedSems0_V (Val := Elt F) d (cV L) (jV L), ownSems0_V, ownBufs_V]
  iintro ⟨#Hlv, -, ⟨He, Hrow⟩, ⟨⟨%fI, HsI⟩, ⟨%fH, HsH⟩, Hbufs⟩, ⟨HsemIn, HsemOut, Hsems⟩, HO⟩
  ihave Hmw := ((K (F := F)).mayWaits_none (thr := V d (cV L) (jV L)) hO) $$ Hlv
  ihave He' := (Entails.of_eq (pts_e (F := F) d L q _).symm) $$ He
  ihave Hrow' := (Entails.of_eq (pts_oRowK (F := F) d L _).symm) $$ Hrow
  ihave HsI' := (Entails.of_eq (pts_sI (F := F) d L _).symm) $$ HsI
  ihave HsH' := (Entails.of_eq (pts_sH (F := F) d L _).symm) $$ HsH
  iapply (wp_wand_r frame _ Set.univ)
  isplitl [He' Hrow' HsI' HsH' HsemIn HsemOut HO]
  · iapply (part6 (F := F) d L E hE O W q f0 fI fH)
    isplitr; · iexact Hmw
    isplitl [He']; · iexact He'
    isplitl [Hrow']; · iexact Hrow'
    isplitl [HsI']; · iexact HsI'
    isplitl [HsH']; · iexact HsH'
    isplitl [HsemIn]; · iexact HsemIn
    isplitl [HsemOut]; · iexact HsemOut
    iexact HO
  iintro %_ HM
  unfold Mid
  icases HM with ⟨He', Hrow', HsI, HsH, HsemIn, HsemOut, %W', %hW', HO⟩
  sl_exec
  sl_step
  isplitl [He' Hrow']
  · isplitl [He']; · iapply (Entails.of_eq (pts_e (F := F) d L q _)); iexact He'
    iexists _
    isplitl [Hrow']; · iapply (Entails.of_eq (pts_oRowK (F := F) d L _)); iexact Hrow'
    ipureintro; intro n
    have hd : tile_body.sl.dma0 L E hE = (rowVal L E hE : Vec F S10000 .f32) := by
      unfold tile_body.sl.dma0; exact read_same (F := F) _
    rw [hd]; exact row_landed L f0 _ n
  isplitl [HsI HsH Hbufs]
  · isplitl [HsI]; · iexists _; iapply (Entails.of_eq (pts_sI (F := F) d L _)); iexact HsI
    isplitl [HsH]; · iexists _; iapply (Entails.of_eq (pts_sH (F := F) d L _)); iexact HsH
    iexact Hbufs
  isplitl [HsemIn HsemOut Hsems]
  · isplitl [HsemIn]; · iexact HsemIn
    isplitl [HsemOut]; · iexact HsemOut
    iexact Hsems
  iexists (insert (SemLoc.dma cc0_scoped0.sem, (default : HIx 1)) W'); isplitr
  · ipureintro; intro p hp
    rcases Finset.mem_insert.mp hp with hp | hp
    · exact .inr (hp ▸ rfl)
    · exact hW' p hp
  · iexact HO

end Tile3

end Cert.Kernel.Tile

end
-- ==== Proof.Bits.Pay.lean ====
/-
  What the launch's handshakes carry for the counting kernel, and the kernel's obligation towards them: each vector
  subcore is handed a read share of the edge table and its own row of the [32, 10000] result, and hands back the
  share and the row at its counts.
-/
import proofs.«215102_g56573309223269_cont_9to1_m_676_32_alg».proof.Proof.Bits.TileBody

noncomputable section

namespace Cert.Kernel.Tile

open Cert.Kernel Cert.Kernel.Gen Cert.Kernel.Setup Cert.Kernel.HistFold

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (m : (ℓ : Loc nD τ sig) → Buf (Elt F) ℓ)

/-- What the frames ask of the launch memory: every word of the edge table names a node. -/
def PreOK : Prop := ∀ (d : Dev nD) (j : S2x320000.Idx), ((m (eLoc d) : Vec F S2x320000 .i32) j).toNat < 10000

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The read share of the edge table handed to vector subcore `i` of SparseCore `c`: the table's share halved per
    SparseCore, then per subcore. -/
def tokShare (c : Fin 2) (i : Fin 16) : PosShare TreeShare :=
  Transfers.shareTok (Transfers.shareTok fullShare 2 c) 16 i

variable (hpre : PreOK m)

def goOf (d : Dev nD) (c : Fin 2) (i : Fin 16) : sProp 𝕄 :=
  iprop((eLoc d ↦{tokShare c i} m (eLoc d)) ∗ (hLoc d ↦[rowSet (wid (coordsV c i))]{fullShare} m (hLoc d)))
def tdOf (d : Dev nD) (c : Fin 2) (i : Fin 16) : sProp 𝕄 :=
  iprop((eLoc d ↦{tokShare c i} m (eLoc d))
    ∗ ∃ f : Vec F S32x10000 .f32, (hLoc d ↦[rowSet (wid (coordsV c i))]{fullShare} f) ∗ ⌜RowOK (coordsV c i) (m (eLoc d)) (hpre d) f⌝)

/-- The one call: each SparseCore takes its sixteen subcores' shares and rows and brings them back. -/
def P : (K (F := F)).Pay (nD := nD) (Val := Elt F) (Name := ℕ) (U := UU) where
  st := fun q d c => match q with | 0 => bigSep Finset.univ fun i : Fin 16 => goOf m d c i
  dn := fun q d c => match q with | 0 => bigSep Finset.univ fun i : Fin 16 => tdOf m hpre d c i
  go := fun q d c i => match q with | 0 => goOf m d c i
  td := fun q d c i => match q with | 0 => tdOf m hpre d c i
  x := fun _ _ => iprop(emp)

instance goOf_storable (d : Dev nD) (c : Fin 2) (i : Fin 16) : BI.Storable (upEmb : UEmb _ 𝕄) (goOf m d c i) := by
  unfold goOf; infer_instance
instance tdOf_storable (d : Dev nD) (c : Fin 2) (i : Fin 16) : BI.Storable (upEmb : UEmb _ 𝕄) (tdOf m hpre d c i) := by
  unfold tdOf; infer_instance

instance P_storable : (P (F := F) m hpre).IsStorable where
  st q d c := match q with | 0 => (inferInstance : BI.Storable (upEmb : UEmb _ 𝕄) (bigSep Finset.univ fun i : Fin 16 => goOf m d c i))
  dn q d c := match q with | 0 => (inferInstance : BI.Storable (upEmb : UEmb _ 𝕄) (bigSep Finset.univ fun i : Fin 16 => tdOf m hpre d c i))
  go q d c i := match q with | 0 => (inferInstance : BI.Storable (upEmb : UEmb _ 𝕄) (goOf m d c i))
  td q d c i := match q with | 0 => (inferInstance : BI.Storable (upEmb : UEmb _ 𝕄) (tdOf m hpre d c i))

/-! ## The launch theorem's obligations -/

theorem defs₀_vector (c : Fin τ.nSC) (s : Fin τ.nSub) :
    defs₀ (F := F) (.scVector c s) 0 ()
      = SparseCore.onTile hcore0 hsub0 (fun c s => cc0_hist_kernel (coordsV c s)
          (Memref.whole main_arg1_scv) (Memref.isWhole_whole _) (Memref.whole main_v0_scv) (Memref.isWhole_whole _)
          (Memref.whole cc0_scratch0) (Memref.isWhole_whole _) (Memref.whole cc0_scratch1) (Memref.isWhole_whole _) cc0_scratch2 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m hpre) v₀ 0 := by
  intro d c i O W hO _ _
  simp only [show (P m hpre).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (F := F) d (coordsV ⟨_, hc.1⟩ ⟨_, hc.2⟩) (m (eLoc d)) (hpre d) hF O W hO (tokShare c i) (m (hLoc d))).trans (wp_mono frame _ _ fun _ => obl_post)

theorem vecSplit : (K (F := F)).VecSplit' (P m hpre) 0 := by
  intro d c
  have hst : (P m hpre).st 0 d c = bigSep Finset.univ fun i : Fin ((K (F := F)).nSub 0) => (P m hpre).go 0 d c i := rfl
  have hdn : (P m hpre).dn 0 d c = bigSep Finset.univ fun i : Fin ((K (F := F)).nSub 0) => (P m hpre).td 0 d c i := rfl
  rw [hst, hdn]
  iintro Hst
  imodintro
  isplitl [Hst]; · iexact Hst
  iintro Htd; iexact Htd

end Cert.Kernel.Tile

end
-- ==== Proof.Bits.TcRegion.lean ====
/-
  The TensorCore kernel region of this program as one step of @main, on the TensorCore of a device whose vector
  subcores ran the histogram kernel before it.

  The region stages five whole arrays — the 32 partial histograms H : [32, 10000], the node features X : [10000, 128],
  the weight Wt : [128, 256], the bias as a row B1 : [1, 128] and the result [10000, 128] — through one buffer each,
  runs the body once (no grid: one point) and writes the result back. The body loads the four inputs, Wt as its two
  column blocks W1 Wt = Wt[:, 0:128] and W2 Wt = Wt[:, 128:256], and stores

      out H X Wt B1  =  X · (W1 Wt)ᵀ + broadcast( (((Σ_w (H · X)[w, :]) · inv_320000) · (W2 Wt)ᵀ)[0:1] + B1 )

  (the body's payload of the values it loaded) over the whole result buffer.

  Proved here, for any float instance:
  * fund — the rounds element at the region's staging cells and transfers funds, for every device d, the cells'
    launch state and the transfers' duty tokens (Gd d), which the device holds from the launch until the region;
  * W1_apply, W2_apply — the two column blocks index by index;
  * wp_region — from the level facts, Gd d, the region boundary, the five arrays held whole at the full share (the
    result at anything) and the device's debts Ot, none of them at index none (the staging cells' waits sit at index
    none, level 0, below every debt at a call's index), the region's call runs to the continuation from: the boundary
    again, the four inputs unchanged, the result array at out H X Wt B1, and the device owing Ot still, its recorded
    wait pairs grown only by pairs at index none (wBelow_of: such a set stays below every bound the old one was below).
  The proof instantiates the pipeline library's region record (the body obligation by running the body's loads and its
  one covering store; entry and exit sorting the five arrays into and out of the pipeline's windows) and lifts the
  region's rule to the body table extended with the vector-subcore dispatch.
-/
import proofs.«215102_g56573309223269_cont_9to1_m_676_32_alg».proof.Proof.Bits.Setup
import Idealize.ShloMosaic.Lib.Pipeline.FrameBody
import Idealize.ShloMosaic.Lib.Pipeline.Value
import Idealize.ShloMosaic.Lib.ValueIdx

set_option maxRecDepth 16384

noncomputable section

namespace Cert.Kernel.TcRegion

open Cert.Kernel Cert.Kernel.Gen Cert.Kernel.Setup

open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The launch half: the staging cells' ghost state and duty tokens, per device -/

/-- The one admissible contents of the (empty) prefetched tables. -/
abbrev adm : (p : Fin 1) → (pcfgs (F := F) p).Adm := fun p => (cfgs p).toPCfg_adm

/-- The region's staging cells are pairwise distinct. -/
theorem cells_inj : Function.Injective (cellOf (nD := nD) (τ := τ) (Pipeline.pin (pcfgs (F := F)) adm)) := cellOf_inj

/-- The staging cells of the region, on every device, and the duty tokens of its transfers. -/
abbrev regCells : Finset (GSem nD τ sig) := Pipeline.cells (Pipeline.pin (pcfgs (F := F)) adm) cells_inj
abbrev regToks : Finset (GSem nD τ sig × ℕ × Unit) := Pipeline.launchToks (Pipeline.pin (pcfgs (F := F)) adm) cells_inj

/-- What device d holds of them from the launch until the region: each staging cell's launch state, its owner at
    round 0, and one duty token per transfer. -/
def Gd (d : Dev nD) : sProp 𝕄 :=
  iprop(Pipeline.cellsGhost (Pipeline.pin (pcfgs (F := F)) adm) (ER (F := F)) 0 d ∗ Pipeline.toksInit (Pipeline.pin (pcfgs (F := F)) adm) (ER (F := F)) 0 d)

theorem bigSep_fin1 (Φ : Fin 1 → sProp 𝕄) : bigSep Finset.univ Φ = Φ 0 := by
  rw [show (Finset.univ : Finset (Fin 1)) = {0} from rfl, bigSep_singleton]

/-- The rounds element at the region's cells and tokens funds every device's share. -/
theorem fund : (BI.own ((ER (F := F)) (initOf (regCells (F := F)) (regToks (F := F)))) : sProp 𝕄) ⊢ iprop(|==> bigSep Finset.univ (Gd (F := F))) := by
  refine (Pipeline.fund_ghost (nD := nD) (τ := τ) (Pipeline.pin (pcfgs (F := F)) adm) (ER (F := F)) cells_inj).trans (bupd_mono ?_)
  simp only [bigSep_fin1]
  unfold Gd
  exact BI.Entails.refl _

/-! ## The weight's two column blocks, as the body's loads read them -/

abbrev rWa : Rect S128x256 := Rect.unit (s := S128x256) ![0, 0] S128x128.size inb_S128x256_S128x128_0_0
abbrev rWb : Rect S128x256 := Rect.unit (s := S128x256) ![0, 128] S128x128.size inb_S128x256_S128x128_0_128

/-- Columns 0 … 127 of the weight. -/
def W1 (Wt : Vec F S128x256 .f32) : Vec F S128x128 .f32 := View.ld Wt rWa
/-- Columns 128 … 255 of the weight. -/
def W2 (Wt : Vec F S128x256 .f32) : Vec F S128x128 .f32 := View.ld Wt rWb

theorem W1_apply (Wt : Vec F S128x256 .f32) (p q : Fin 128) : W1 Wt (ix2 p q) = Wt (ix2 p (⟨q.val, by omega⟩ : Fin 256)) := by
  unfold W1
  show Wt (rWa.idx (ix2 p q)) = _
  congr 1
  funext a
  match a with
  | ⟨0, _⟩ => exact Fin.ext (by show 0 + 1 * p.val = p.val; omega)
  | ⟨1, _⟩ => exact Fin.ext (by show 0 + 1 * q.val = q.val; omega)
theorem W2_apply (Wt : Vec F S128x256 .f32) (p q : Fin 128) : W2 Wt (ix2 p q) = Wt (ix2 p (⟨128 + q.val, by omega⟩ : Fin 256)) := by
  unfold W2
  show Wt (rWb.idx (ix2 p q)) = _
  congr 1
  funext a
  match a with
  | ⟨0, _⟩ => exact Fin.ext (by show 0 + 1 * p.val = p.val; omega)
  | ⟨1, _⟩ => exact Fin.ext (by show 128 + 1 * q.val = 128 + q.val; omega)

/-- What the region leaves in the output array: the body's payload of the four input arrays. -/
def out (H : Vec F S32x10000 .f32) (X : Vec F S10000x128 .f32) (Wt : Vec F S128x256 .f32) (B1 : Vec F S1x128 .f32) : Vec F S10000x128 .f32 :=
  k1_pay1 X (W1 Wt) (W2 Wt) H B1

/-- A recorded set grown only by pairs at index none stays below every bound the old one was below. -/
theorem wBelow_of (d : Dev nD) {Wts W' : Waits sig (HIx 1)} (h : ∀ p ∈ W', p ∈ Wts ∨ p.2 = none) {b : ℕ}
    (hb : (K (F := F)).WBelow (T d : Thread nD τ) Wts b) : (K (F := F)).WBelow (T d : Thread nD τ) W' b := by
  intro p hp
  rcases h p hp with h | h
  · exact hb p h
  · rw [h]; exact Nat.zero_le _

/-! ## The body on whole staging buffers -/

abbrev rH : Rect S32x10000 := Rect.unit (s := S32x10000) ![0, 0] S32x10000.size inb_S32x10000_S32x10000_0_0
abbrev rX : Rect S10000x128 := Rect.unit (s := S10000x128) ![0, 0] S10000x128.size inb_S10000x128_S10000x128_0_0
abbrev rB : Rect S1x128 := Rect.unit (s := S1x128) ![0, 0] S1x128.size inb_S1x128_S1x128_0_0

theorem hzH : (![0, 0] : Fin S32x10000.rank → Nat) = fun _ => 0 := funext fun a => by fin_cases a <;> rfl
theorem hzX : (![0, 0] : Fin S10000x128.rank → Nat) = fun _ => 0 := funext fun a => by fin_cases a <;> rfl
theorem hzB : (![0, 0] : Fin S1x128.rank → Nat) = fun _ => 0 := funext fun a => by fin_cases a <;> rfl

/-- The output staging buffer after the body, from the input buffers: its one store, over what the loads read. -/
def out4 (x0 : Vec F S32x10000 .f32) (x1 : Vec F S10000x128 .f32) (x2 : Vec F S128x256 .f32) (x3 : Vec F S1x128 .f32) : Vec F S10000x128 .f32 :=
  View.canon [⟨rX, k1_pay1 (View.ld x1 rX) (View.ld x2 rWa) (View.ld x2 rWb) (View.ld x0 rH) (View.ld x3 rB)⟩]

/-- The whole-buffer loads read the buffers and the one covering store leaves its payload. -/
theorem out4_eq (x0 : Vec F S32x10000 .f32) (x1 : Vec F S10000x128 .f32) (x2 : Vec F S128x256 .f32) (x3 : Vec F S1x128 .f32) :
    out4 x0 x1 x2 x3 = out x0 x1 x2 x3 := by
  unfold out4 out W1 W2
  rw [View.canon_unit_zero hzX, View.ld_unit_zero hzX, View.ld_unit_zero hzH, View.ld_unit_zero hzB]

/-- The store covers the buffer. -/
theorem cover4 (p0 : Vec F S10000x128 .f32) (y : S10000x128.Idx) :
    ∃ pc ∈ ([⟨rX, p0⟩] : List (View.Piece (Elt F) S10000x128 .f32)), y ∈ pc.1.set :=
  ⟨_, List.mem_singleton_self _, View.mem_set_unit_zero hzX inb_S10000x128_S10000x128_0_0 y⟩

set_option maxHeartbeats 1000000 in
/-- The kernel body on whole staging memrefs, the inputs' at read contents and the output's at anything, runs to the
    continuation holding the inputs' as they were and the output's at the payload of the inputs'. -/
theorem sound_kernel (c : Dev nD) (E : Set ℕ) (arg0 : Memref sig .tc .vmem S32x10000 .f32) (harg0 : arg0.IsWhole) (arg1 : Memref sig .tc .vmem S10000x128 .f32) (harg1 : arg1.IsWhole)
    (arg2 : Memref sig .tc .vmem S128x256 .f32) (harg2 : arg2.IsWhole) (arg3 : Memref sig .tc .vmem S1x128 .f32) (harg3 : arg3.IsWhole) (arg4 : Memref sig .tc .vmem S10000x128 .f32) (harg4 : arg4.IsWhole)
    (x0 : Vec F S32x10000 .f32) (x1 : Vec F S10000x128 .f32) (x2 : Vec F S128x256 .f32) (x3 : Vec F S1x128 .f32) (Kp : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
              ∗ owns (c : Thread nD τ) arg4 fullShare (out x0 x1 x2 x3)) -∗ Kp ⟨⟩))
      ⊢ wp frame (wpE (defs₀ (F := F)) Variants.none c none) E (cc1_body arg0 harg0 arg1 harg1 arg2 harg2 arg3 harg3 arg4 harg4) Kp := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [← out4_eq]
  exact View.read_writes_eq_canon _ _ _ (cover4 _)

/-! ## The region's proof data -/

section Data

variable (H : Vec F S32x10000 .f32) (X : Vec F S10000x128 .f32) (Wt : Vec F S128x256 .f32) (B1 : Vec F S1x128 .f32) (O₀ : Vec F S10000x128 .f32)
  (Ot : CellTallies nD τ sig (HIx 1)) (Wts : Waits sig (HIx 1))

/-- The five windowed arrays as the region finds them. -/
def AV (c : Dev nD) : (w : Fin cfg1.W) → Buf (Elt F) ((cfg1.win w).arr.view.loc (c : Thread nD τ))
  | ⟨0, _⟩ => H
  | ⟨1, _⟩ => X
  | ⟨2, _⟩ => Wt
  | ⟨3, _⟩ => B1
  | ⟨4, _⟩ => O₀

/-- Window w's block at the one point, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (AV H X Wt B1 O₀ c w)

/-- The proof data on device c: the arrays as found; after the body each input's buffer at its block and the output's at
    the payload of the input blocks; no invariant; owing Ot throughout, the recorded pairs those recorded before. -/
def dat1 (c : Dev nD) : Dat τ (Elt F) (HIx 1) ℕ UU ℕ cfg1 c where
  A w := AV H X Wt B1 O₀ c w
  after w t := match w with
    | ⟨0, _⟩ => iblk H X Wt B1 O₀ c 0 t
    | ⟨1, _⟩ => iblk H X Wt B1 O₀ c 1 t
    | ⟨2, _⟩ => iblk H X Wt B1 O₀ c 2 t
    | ⟨3, _⟩ => iblk H X Wt B1 O₀ c 3 t
    | ⟨4, _⟩ => out (iblk H X Wt B1 O₀ c 0 t) (iblk H X Wt B1 O₀ c 1 t) (iblk H X Wt B1 O₀ c 2 t) (iblk H X Wt B1 O₀ c 3 t)
  Φ _ := iprop(emp)
  q _ := fullShare
  owed _ := Ot
  recorded _ := (↑Wts : Set (SemLoc sig × HIx 1))

def pdats : (p : Fin 1) → (c : Dev nD) → Dat τ (Elt F) (HIx 1) ℕ UU ℕ (Pipeline.pin (pcfgs (F := F)) adm p) c
  | 0 => dat1 H X Wt B1 O₀ Ot Wts

theorem A_eq (c : Dev nD) (w : Fin cfg1.W) : (dat1 H X Wt B1 O₀ Ot Wts c).A w = AV H X Wt B1 O₀ c w := by dsimp only [dat1]
theorem after1_0 (c : Dev nD) (t : Fin cfg1.N) : (dat1 H X Wt B1 O₀ Ot Wts c).after 0 t = iblk H X Wt B1 O₀ c 0 t := by dsimp only [dat1]
theorem after1_1 (c : Dev nD) (t : Fin cfg1.N) : (dat1 H X Wt B1 O₀ Ot Wts c).after 1 t = iblk H X Wt B1 O₀ c 1 t := by dsimp only [dat1]
theorem after1_2 (c : Dev nD) (t : Fin cfg1.N) : (dat1 H X Wt B1 O₀ Ot Wts c).after 2 t = iblk H X Wt B1 O₀ c 2 t := by dsimp only [dat1]
theorem after1_3 (c : Dev nD) (t : Fin cfg1.N) : (dat1 H X Wt B1 O₀ Ot Wts c).after 3 t = iblk H X Wt B1 O₀ c 3 t := by dsimp only [dat1]
theorem after1_4 (c : Dev nD) (t : Fin cfg1.N) : (dat1 H X Wt B1 O₀ Ot Wts c).after 4 t
    = out (iblk H X Wt B1 O₀ c 0 t) (iblk H X Wt B1 O₀ c 1 t) (iblk H X Wt B1 O₀ c 2 t) (iblk H X Wt B1 O₀ c 3 t) := by dsimp only [dat1]

/-- Each input's staging buffer holds its block when the body runs. -/
theorem before1_0 (c : Dev nD) (t : Fin cfg1.N) (d) : (dat1 H X Wt B1 O₀ Ot Wts c).before 0 t d = iblk H X Wt B1 O₀ c 0 t :=
  ((dat1 H X Wt B1 O₀ Ot Wts c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat1 H X Wt B1 O₀ Ot Wts c).before 1 t d = iblk H X Wt B1 O₀ c 1 t :=
  ((dat1 H X Wt B1 O₀ Ot Wts c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dat1 H X Wt B1 O₀ Ot Wts c).before 2 t d = iblk H X Wt B1 O₀ c 2 t :=
  ((dat1 H X Wt B1 O₀ Ot Wts c).before_in_eq_fetched 2 rfl (fun _ => rfl) (fun _ _ _ => rfl)
    (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dat1 H X Wt B1 O₀ Ot Wts c).before 3 t d = iblk H X Wt B1 O₀ c 3 t :=
  ((dat1 H X Wt B1 O₀ Ot Wts c).before_in_eq_fetched 3 rfl (fun _ => rfl) (fun _ _ _ => rfl)
    (fun t => by rw [after1_3]; unfold Dat.blockOf iblk; rw [A_eq]; try rfl) t d).trans
    (by unfold Dat.fetched Dat.blockOf iblk; rw [A_eq]; try rfl)

/-- What the body is called with at the point, the windows one by one, -/
def bodyPre (c : Dev nD) (t : Fin cfg1.N) : sProp 𝕄 :=
  iprop((dat1 H X Wt B1 O₀ Ot Wts c).Φ t.castSucc ∗ (dat1 H X Wt B1 O₀ Ot Wts c).owesAt none t.castSucc
    ∗ (∃ d, owns (c : Thread nD τ) (st1_0 t) fullShare ((dat1 H X Wt B1 O₀ Ot Wts c).before 0 t d))
    ∗ (∃ d, owns (c : Thread nD τ) (st1_1 t) fullShare ((dat1 H X Wt B1 O₀ Ot Wts c).before 1 t d))
    ∗ (∃ d, owns (c : Thread nD τ) (st1_2 t) fullShare ((dat1 H X Wt B1 O₀ Ot Wts c).before 2 t d))
    ∗ (∃ d, owns (c : Thread nD τ) (st1_3 t) fullShare ((dat1 H X Wt B1 O₀ Ot Wts c).before 3 t d))
    ∗ (∃ d, owns (c : Thread nD τ) (st1_4 t) fullShare ((dat1 H X Wt B1 O₀ Ot Wts c).before 4 t d)))

/-- and what it returns. -/
def bodyPost (c : Dev nD) (t : Fin cfg1.N) : sProp 𝕄 :=
  iprop((dat1 H X Wt B1 O₀ Ot Wts c).Φ t.succ ∗ (dat1 H X Wt B1 O₀ Ot Wts c).owesAt none t.succ
    ∗ owns (c : Thread nD τ) (st1_0 t) fullShare ((dat1 H X Wt B1 O₀ Ot Wts c).after 0 t)
    ∗ owns (c : Thread nD τ) (st1_1 t) fullShare ((dat1 H X Wt B1 O₀ Ot Wts c).after 1 t)
    ∗ owns (c : Thread nD τ) (st1_2 t) fullShare ((dat1 H X Wt B1 O₀ Ot Wts c).after 2 t)
    ∗ owns (c : Thread nD τ) (st1_3 t) fullShare ((dat1 H X Wt B1 O₀ Ot Wts c).after 3 t)
    ∗ owns (c : Thread nD τ) (st1_4 t) fullShare ((dat1 H X Wt B1 O₀ Ot Wts c).after 4 t))

/-- The body at the point: the inputs' buffers hold their blocks, so the body's triple applies; the invariant and the
    device's debts pass through unread. -/
theorem sound_body (c : Dev nD) (t : Fin cfg1.N) :
    bodyPre H X Wt B1 O₀ Ot Wts c t ⊢ wp frame (wpE (defs₀ (F := F)) Variants.none c none) Set.univ (bodyAt1 t) (fun _ => bodyPost H X Wt B1 O₀ Ot Wts c t) := by
  unfold bodyPre bodyPost bodyAt1
  simp only [before1_0, before1_1, before1_2, before1_3]
  rw [show (dat1 H X Wt B1 O₀ Ot Wts c).Φ t.succ = (dat1 H X Wt B1 O₀ Ot Wts c).Φ t.castSucc from rfl,
    show (dat1 H X Wt B1 O₀ Ot Wts c).owesAt none t.succ = (dat1 H X Wt B1 O₀ Ot Wts c).owesAt none t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ (iblk H X Wt B1 O₀ c 0 t) (iblk H X Wt B1 O₀ c 1 t) (iblk H X Wt B1 O₀ c 2 t) (iblk H X Wt B1 O₀ c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation. -/
theorem body_obligation (c : Dev nD) : BodyObligation (dat1 H X Wt B1 O₀ Ot Wts c) (defs₀ (F := F)) Variants.none none Set.univ := fun t => by
  rw [bigSep_W1, bigSep_W1]
  exact sound_body H X Wt B1 O₀ Ot Wts c t

end Data

/-! ## The region as one step of @main on the TensorCore -/

section Region

variable (H : Vec F S32x10000 .f32) (X : Vec F S10000x128 .f32) (Wt : Vec F S128x256 .f32) (B1 : Vec F S1x128 .f32) (O₀ : Vec F S10000x128 .f32)
  (Ot : CellTallies nD τ sig (HIx 1)) (Wts : Waits sig (HIx 1))

/-- A buffer of device c's TensorCore at the full share. -/
abbrev pl (c : Dev nD) (b : Ref sig .tc) (f : b.ty.Contents (Elt F)) : sProp 𝕄 := ((c : Thread nD τ).loc b) ↦{fullShare} f

/-- The region's arrays at contents Fa are the five buffers held. -/
theorem arrays_eq (c : Dev nD) (Fa) : ((pdats H X Wt B1 O₀ Ot Wts 0 c).arrays Fa : sProp 𝕄)
    = iprop(pl c main_v0 (Fa 0) ∗ pl c main_arg0 (Fa 1) ∗ pl c main_arg2 (Fa 2) ∗ pl c main_v1 (Fa 3) ∗ pl c main_v2 (Fa 4)) := by
  rw [Pipeline.arrays_eq (Pipeline.pin (pcfgs (F := F)) adm) (pdats H X Wt B1 O₀ Ot Wts) 0 c launch1.arr_whole
    ((pdats H X Wt B1 O₀ Ot Wts 0 c).share_full fun _ => rfl) Fa, bigSep_W1]

/-- Reading a whole array through its one block reads the array. -/
theorem iblk_0 (c : Dev nD) : iblk H X Wt B1 O₀ c 0 t1_0 = H := by
  have hz : (fun a => (win1_0.index t1_0) a * main_v0.ty.shape.size a) = fun _ => 0 := funext fun a => by fin_cases a <;> decide
  exact Memref.read_access_unit_zero (Elt F) main_v0 hz (fun a => by fin_cases a <;> decide) H
theorem iblk_1 (c : Dev nD) : iblk H X Wt B1 O₀ c 1 t1_0 = X := by
  have hz : (fun a => (win1_1.index t1_0) a * main_arg0.ty.shape.size a) = fun _ => 0 := funext fun a => by fin_cases a <;> decide
  exact Memref.read_access_unit_zero (Elt F) main_arg0 hz (fun a => by fin_cases a <;> decide) X
theorem iblk_2 (c : Dev nD) : iblk H X Wt B1 O₀ c 2 t1_0 = Wt := by
  have hz : (fun a => (win1_2.index t1_0) a * main_arg2.ty.shape.size a) = fun _ => 0 := funext fun a => by fin_cases a <;> decide
  exact Memref.read_access_unit_zero (Elt F) main_arg2 hz (fun a => by fin_cases a <;> decide) Wt
theorem iblk_3 (c : Dev nD) : iblk H X Wt B1 O₀ c 3 t1_0 = B1 := by
  have hz : (fun a => (win1_3.index t1_0) a * main_v1.ty.shape.size a) = fun _ => 0 := funext fun a => by fin_cases a <;> decide
  exact Memref.read_access_unit_zero (Elt F) main_v1 hz (fun a => by fin_cases a <;> decide) B1

/-- The output array after the region holds the payload of the four input arrays. -/
theorem arrAt_out (c : Dev nD) : (pdats H X Wt B1 O₀ Ot Wts 0 c).arrAt 4 (Pipeline.pin (pcfgs (F := F)) adm 0).N = out H X Wt B1 := by
  show (dat1 H X Wt B1 O₀ Ot Wts c).arrAt 4 ((t1_0 : Fin cfg1.N).val + 1) = _
  rw [(dat1 H X Wt B1 O₀ Ot Wts c).arrAt_succ 4 t1_0, show (cfg1.win 4).flush t1_0 = true from flush1_4 t1_0, if_pos rfl]
  have hz : (fun a => (win1_4.index t1_0) a * main_v2.ty.shape.size a) = fun _ => 0 := funext fun a => by fin_cases a <;> decide
  refine (Memref.write_access_unit_zero_univ (Elt F) main_v2 hz (fun a => by fin_cases a <;> decide) _ _).trans ?_
  show (cfg1.win 4).cut _ ((dat1 H X Wt B1 O₀ Ot Wts c).after 4 t1_0) = _
  rw [after1_4, iblk_0, iblk_1, iblk_2, iblk_3]
  rfl

/-- The input arrays leave the region as they entered it. -/
theorem arrAt_in0 (c : Dev nD) (n : ℕ) : (pdats H X Wt B1 O₀ Ot Wts 0 c).arrAt 0 n = H :=
  (dat1 H X Wt B1 O₀ Ot Wts c).arrAt_in 0 rfl n
theorem arrAt_in1 (c : Dev nD) (n : ℕ) : (pdats H X Wt B1 O₀ Ot Wts 0 c).arrAt 1 n = X :=
  (dat1 H X Wt B1 O₀ Ot Wts c).arrAt_in 1 rfl n
theorem arrAt_in2 (c : Dev nD) (n : ℕ) : (pdats H X Wt B1 O₀ Ot Wts 0 c).arrAt 2 n = Wt :=
  (dat1 H X Wt B1 O₀ Ot Wts c).arrAt_in 2 rfl n
theorem arrAt_in3 (c : Dev nD) (n : ℕ) : (pdats H X Wt B1 O₀ Ot Wts 0 c).arrAt 3 n = B1 :=
  (dat1 H X Wt B1 O₀ Ot Wts c).arrAt_in 3 rfl n

variable {lv : GSem nD τ sig → HIx 1 → ℕ} (hlv : (K (F := F)).Refines (nD := nD) lv) (hOt : ∀ g, Ot g none = 0)

/-- The thread state the region is entered from: the five arrays held, the device owing Ot. -/
def preR (c : Dev nD) : sProp 𝕄 :=
  iprop(pl c main_v0 H ∗ pl c main_arg0 X ∗ pl c main_arg2 Wt ∗ pl c main_v1 B1 ∗ pl c main_v2 O₀ ∗ owes (T c : Thread nD τ) Ot Wts)

/-- The thread state it leaves: the inputs as they were, the output at the payload, the device owing Ot still, its
    recorded pairs grown only by pairs at index none. -/
def postR (c : Dev nD) : sProp 𝕄 :=
  iprop(pl c main_v0 H ∗ pl c main_arg0 X ∗ pl c main_arg2 Wt ∗ pl c main_v1 B1 ∗ pl c main_v2 (out H X Wt B1)
    ∗ ∃ W', ⌜∀ p ∈ W', p ∈ Wts ∨ p.2 = none⌝ ∗ owes (T c : Thread nD τ) Ot W')

include hlv hOt in
/-- The region as the segment library's record: the five arrays into the pipeline, nothing beside them; the staging
    cells' waits sit at index none, below every debt of the device. -/
def reg : Pipeline.RegionSeg (pcfgs (F := F)) adm (pdats H X Wt B1 O₀ Ot Wts) none defs₀ 𝒱₀ (K (F := F)).L lv 0 where
  win := launch1.win.to₀
  block_pos := launch1.block_pos
  stage_whole := launch1.stage_whole
  K := PEmpty
  osem k := k.elim
  ho := Pipeline.OwnSemFacts.none _
  hbody c := (body_obligation H X Wt B1 O₀ Ot Wts c).loose
  hwaits c := Pipeline.cellsWaits_intro _ (pdats H X Wt B1 O₀ Ot Wts) none 0 c fun w s t =>
    (K (F := F)).mayWait_none (thr := (c : Thread nD τ)) _ hOt lv hlv
  pre := preR H X Wt B1 O₀ Ot Wts
  post := postR H X Wt B1 Ot Wts
  X _ := iprop(emp)
  Y _ := iprop(emp)
  Z _ := iprop(emp)
  hentry c := by
    rw [Pipeline.ownSems0_none, arrays_eq]
    unfold preR
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      iexists Wts; isplitr; · ipureintro; exact fun _ h => Or.inl h
      iexact HO
    isplitr <;> iempintro
  hin c := by iintro -; iempintro
  hout c := by
    rw [Pipeline.ownSems0_none, scopedRest1_eq]
    iintro -; isplitr; · iempintro
    isplitr <;> iempintro
  hexit c := by
    unfold postR; rw [arrays_eq, arrAt_out, arrAt_in0, arrAt_in1, arrAt_in2, arrAt_in3]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    unfold Pipeline.Dat.owesAt Pipeline.owesWithin
    icases HO with ⟨%W, %hW, HO⟩
    iexists W; isplitr
    · ipureintro
      intro p hp
      rcases hW hp with h | ⟨w, s, rfl⟩
      · exact Or.inl h
      · exact Or.inr rfl
    iexact HO

end Region

/-! ## The rule -/

/-- THE REGION'S RULE on the TensorCore of device d, inside the vector-subcore program: from the level facts, the device's
    share of the staging cells' ghost state, the region boundary, the five arrays held whole and the device's debts
    (none at index none), the region's call runs to the continuation from the boundary again, the four input arrays
    unchanged, the output array at the body's payload of them, and the same debts. -/
theorem wp_region (d : Dev nD) {lv : GSem nD τ sig → HIx 1 → ℕ} (hlv : (K (F := F)).Refines (nD := nD) lv)
    (H : Vec F S32x10000 .f32) (X : Vec F S10000x128 .f32) (Wt : Vec F S128x256 .f32) (B1 : Vec F S1x128 .f32) (O₀ : Vec F S10000x128 .f32)
    (Ot : CellTallies nD τ sig (HIx 1)) (hOt : ∀ g, Ot g none = 0) (Wts : Waits sig (HIx 1))
    {α : Type} (k : PUnit → Prog (TpuEff nD τ sig (Elt F) (SparseCore.Sig (ΛP (F := F)) 1) .tc) α) (Φ : α → sProp 𝕄) :
    iprop(levAts (K (F := F)).L lv ∗ Gd (F := F) d ∗ boundary (T d : Thread nD τ)
        ∗ (hLoc d ↦{fullShare} H) ∗ (xLoc d ↦{fullShare} X) ∗ (wLoc d ↦{fullShare} Wt) ∗ (b1Loc d ↦{fullShare} B1) ∗ (oLoc d ↦{fullShare} O₀)
        ∗ owes (T d : Thread nD τ) Ot Wts
        ∗ (iprop(boundary (T d : Thread nD τ)
              ∗ (hLoc d ↦{fullShare} H) ∗ (xLoc d ↦{fullShare} X) ∗ (wLoc d ↦{fullShare} Wt) ∗ (b1Loc d ↦{fullShare} B1) ∗ (oLoc d ↦{fullShare} out H X Wt B1)
              ∗ ∃ W', ⌜∀ p ∈ W', p ∈ Wts ∨ p.2 = none⌝ ∗ owes (T d : Thread nD τ) Ot W')
            -∗ wp frame (wpE ((K (F := F)).defs (D (F := F))) 𝒱 (T d) none) Set.univ (k ⟨⟩) Φ))
      ⊢ wp frame (wpE ((K (F := F)).defs (D (F := F))) 𝒱 (T d) none) Set.univ (.op (.customCall (SparseCore.inner (Pipeline.entry 0)) ()) k) Φ := by
  have hprog : (Prog.op (TpuEff.customCall (SparseCore.inner (Pipeline.entry 0)) ()) k : Prog (TpuEff nD τ sig (Elt F) (SparseCore.Sig (ΛP (F := F)) 1) .tc) α)
      = (SparseCore.liftProg (Q := 1) (Prog.op (TpuEff.customCall (Pipeline.entry (0 : Fin 1)) ()) fun _ => Prog.ret PUnit.unit)) >>= k := rfl
  rw [hprog, wp_bind]
  have hreg := Pipeline.RegionSeg.wp (pcfgs (F := F)) adm (pdats H X Wt B1 O₀ Ot Wts) none cells_inj (ER (F := F)) defs₀ 𝒱₀ (K (F := F)).L lv
    (reg H X Wt B1 O₀ Ot Wts hlv hOt) d none (fun u hu => by cases hu) (fun _ => Prog.ret PUnit.unit)
    (fun a => wp frame (wpE ((K (F := F)).defs (D (F := F))) 𝒱 (T d) none) Set.univ (k a) Φ)
  rw [show (reg H X Wt B1 O₀ Ot Wts hlv hOt).pre = preR H X Wt B1 O₀ Ot Wts from rfl,
    show (reg H X Wt B1 O₀ Ot Wts hlv hOt).post = postR H X Wt B1 Ot Wts from rfl] at hreg
  unfold preR postR at hreg
  unfold Gd
  iintro ⟨#Hla, ⟨Hcg, Htk⟩, Hbd, H0, H1, H2, H3, H4, HO, Hk⟩
  iapply ((K (F := F)).wp_liftProg (D (F := F)) 𝒱 (T d) Set.univ none _ _)
  iapply hreg
  isplitl [Hk]
  · iintro ⟨Hbd, H0, H1, H2, H3, H4, HO⟩
    rw [wp_ret]
    imodintro
    iapply Hk
    isplitl [Hbd]; · iexact Hbd
    isplitl [H0]; · iexact H0
    isplitl [H1]; · iexact H1
    isplitl [H2]; · iexact H2
    isplitl [H3]; · iexact H3
    isplitl [H4]; · iexact H4
    iexact HO
  isplitl [Hbd]; · iexact Hbd
  isplitl [H0 H1 H2 H3 H4 HO]
  · isplitl [H0]; · iexact H0
    isplitl [H1]; · iexact H1
    isplitl [H2]; · iexact H2
    isplitl [H3]; · iexact H3
    isplitl [H4]; · iexact H4
    iexact HO
  isplitr; · iexact Hla
  isplitl [Hcg]; · iexact Hcg
  iexact Htk

/-- The same on the program as @main's do-block spells it. -/
theorem wp_region_bind (d : Dev nD) {lv : GSem nD τ sig → HIx 1 → ℕ} (hlv : (K (F := F)).Refines (nD := nD) lv)
    (H : Vec F S32x10000 .f32) (X : Vec F S10000x128 .f32) (Wt : Vec F S128x256 .f32) (B1 : Vec F S1x128 .f32) (O₀ : Vec F S10000x128 .f32)
    (Ot : CellTallies nD τ sig (HIx 1)) (hOt : ∀ g, Ot g none = 0) (Wts : Waits sig (HIx 1))
    {α : Type} (k : PUnit → Prog (TpuEff nD τ sig (Elt F) (SparseCore.Sig (ΛP (F := F)) 1) .tc) α) (Φ : α → sProp 𝕄) :
    iprop(levAts (K (F := F)).L lv ∗ Gd (F := F) d ∗ boundary (T d : Thread nD τ)
        ∗ (hLoc d ↦{fullShare} H) ∗ (xLoc d ↦{fullShare} X) ∗ (wLoc d ↦{fullShare} Wt) ∗ (b1Loc d ↦{fullShare} B1) ∗ (oLoc d ↦{fullShare} O₀)
        ∗ owes (T d : Thread nD τ) Ot Wts
        ∗ (iprop(boundary (T d : Thread nD τ)
              ∗ (hLoc d ↦{fullShare} H) ∗ (xLoc d ↦{fullShare} X) ∗ (wLoc d ↦{fullShare} Wt) ∗ (b1Loc d ↦{fullShare} B1) ∗ (oLoc d ↦{fullShare} out H X Wt B1)
              ∗ ∃ W', ⌜∀ p ∈ W', p ∈ Wts ∨ p.2 = none⌝ ∗ owes (T d : Thread nD τ) Ot W')
            -∗ wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 0)) ()) >>= k) Φ :=
  wp_region d hlv H X Wt B1 O₀ Ot hOt Wts k Φ

end Cert.Kernel.TcRegion
end
-- ==== Proof.Bits.Main.lean ====
/-
  The launch of the whole program: the 32 vector subcores' counting kernel, then on the TensorCore the bias recast as
  a row and the kernel region, certified together by the vector-subcore launch theorem.

  * The launch element is the handshakes' rounds beside the rounds of the region's staging cells (and no counter); it
    funds, for every device, the region's share of ghost state, which the TensorCore holds until the region.
  * @main on the TensorCore of device d. For the call, the edge table's full share is halved per SparseCore and then per
    subcore into 32 read shares (the remainders stay with the TensorCore), and the [32, 10000] array is split into its 32
    rows, row 2 i + c to subcore i of SparseCore c (the rows are pairwise disjoint and cover the array). Back come the
    shares, rejoined to the full share, and the rows each at its subcore's counts, joined to ONE array Hf with
    Hf[2 i + c, n] = (subcore (c, i)'s count of source node n). The bias b : [128] is recast as the row B1 : [1, 128],
    B1[0, q] = b[q]. The region then leaves in the result array its payload of Hf, the node features, the weight and B1.
  * Read against a final memory: the result array is that payload, and the four arguments are as launched.
  run_main states it of every weakly fair execution of all the threads, at any float instance.
-/
import proofs.«215102_g56573309223269_cont_9to1_m_676_32_alg».proof.Proof.Bits.Pay
import proofs.«215102_g56573309223269_cont_9to1_m_676_32_alg».proof.Proof.Bits.TcRegion
import Idealize.ShloMosaic.Lib.ValueLayout

noncomputable section

namespace Cert.Kernel.Main

open Cert.Kernel Cert.Kernel.Gen Cert.Kernel.Setup Cert.Kernel.Tile

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (ρ : Dev nD → PrngReg)

/-! ## The launch element -/

/-- The launch element: the handshakes' rounds, the region's staging cells' rounds, no counter. -/
def u₀ : UU := (initOf (K (F := F)).hsCells (K (F := F)).hsToks, (initOf (TcRegion.regCells (F := F)) (TcRegion.regToks (F := F)), 1))

variable (hpre : PreOK m)

omit [FloatOps F] in
theorem bigSep_emp' {I : Type} (s : Finset I) : (bigSep s fun _ => iprop(emp)) = (iprop(emp) : sProp 𝕄) := bigSep_emp_const s

/-- The element splits into the handshakes' rounds and the staging cells' rounds, which fund every device's share of
    the region's ghost state; the counters are dropped; no thread's kernel proof is dealt anything. -/
theorem hu₀ : (ownU (u₀ (F := F)) : sProp 𝕄)
    ⊢ |={Set.univ}=> iprop(BI.own ((EH (F := F)) (initOf (K (F := F)).hsCells (K (F := F)).hsToks)) ∗ bigSep Finset.univ (TcRegion.Gd (F := F))
        ∗ bigSep Finset.univ fun thr : Thread nD τ => bigSep Finset.univ fun q : Fin 1 => (P m hpre).x q thr) := by
  unfold u₀
  iintro Hu
  ihave H := (ownU_pair _ _) $$ Hu
  icases H with ⟨HH, HR⟩
  ihave HR' := (own_pair_emb (embR : Emb (UR × Counters) 𝕄) _ _) $$ HR
  icases HR' with ⟨HR, -⟩
  imod (TcRegion.fund (F := F)) $$ [HR] with HG
  · unfold ER; iexact HR
  imodintro
  isplitl [HH]; · unfold EH; iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The bias as a row -/

/-- The bias as the row the region reads: the [128] array cast to [1, 128]. -/
def B1 (d : Dev nD) : Vec F S1x128 .f32 := shapeCast S1x128 (m (bLoc d) : Vec F S128 .f32) shapeCasts_S128_S1x128

theorem B1_apply (d : Dev nD) (q : Fin 128) : B1 m d (ix2 (0 : Fin 1) q) = (m (bLoc d) : Vec F S128 .f32) (ix1 q) :=
  shapeCast_a_1a_apply _ _ 0 q

/-! ## The result's rows, keyed by (SparseCore, subcore) -/

/-- The row of the [32, 10000] array that subcore i of SparseCore c fills. -/
abbrev Kp (p : Fin 2 × Fin 16) : Finset S32x10000.Idx := rowSet (wid (coordsV p.1 p.2))

omit [FloatOps F] in
theorem rowSet_eq (r : Fin 32) : rowSet r = (row r).set := by
  show ((View.whole (main_v0_scv : Ref sig .scVector)).slice (row r)).set = _
  rw [View.set_slice]; exact Finset.map_refl

theorem wid_coordsV (c : Fin 2) (i : Fin 16) : (wid (coordsV c i)).val = 2 * i.val + c.val := rfl

theorem wid_inj {p p' : Fin 2 × Fin 16} (h : wid (coordsV p.1 p.2) = wid (coordsV p'.1 p'.2)) : p = p' := by
  obtain ⟨c, i⟩ := p; obtain ⟨c', i'⟩ := p'
  have hv : 2 * i.val + c.val = 2 * i'.val + c'.val := congrArg Fin.val h
  have hc : c.val < 2 := c.isLt
  have hc' : c'.val < 2 := c'.isLt
  have e1 : c = c' := Fin.ext (by omega)
  have e2 : i = i' := Fin.ext (by omega)
  rw [e1, e2]

/-- Different subcores fill disjoint rows, -/
theorem rows_disjoint : ∀ p ∈ (Finset.univ : Finset (Fin 2 × Fin 16)), ∀ p' ∈ (Finset.univ : Finset (Fin 2 × Fin 16)), p ≠ p' → Disjoint (Kp p) (Kp p') :=
  fun p _ p' _ h => by
    show Disjoint (rowSet _) (rowSet _)
    rw [rowSet_eq, rowSet_eq]; exact Rect.part_disjoint hdiv fun e => h (wid_inj e)

/-- and together the rows are the whole array. -/
theorem rows_cover : (Finset.univ : Finset (Fin 2 × Fin 16)).biUnion Kp = Finset.univ := by
  apply Finset.eq_univ_of_forall; intro y
  have hy : y ∈ (Finset.univ : Finset (Fin 32)).biUnion rowSet := by
    rw [(Finset.biUnion_congr rfl fun r _ => rowSet_eq r).trans (Rect.biUnion_part hdiv)]; exact Finset.mem_univ y
  obtain ⟨r, -, hr⟩ := Finset.mem_biUnion.mp hy
  have h2 : r.val % 2 < 2 := Nat.mod_lt _ (by decide)
  have h16 : r.val / 2 < 16 := by have := r.isLt; omega
  refine Finset.mem_biUnion.mpr ⟨(⟨r.val % 2, h2⟩, ⟨r.val / 2, h16⟩), Finset.mem_univ _, ?_⟩
  have e : wid (coordsV (⟨r.val % 2, h2⟩ : Fin 2) (⟨r.val / 2, h16⟩ : Fin 16)) = r := Fin.ext (by rw [wid_coordsV]; show 2 * (r.val / 2) + r.val % 2 = r.val; omega)
  show y ∈ rowSet _
  rw [e]; exact hr

omit [FloatOps F] in
/-- The array held whole is its 32 rows held, SparseCore by SparseCore and subcore by subcore. -/
theorem h_rows (d : Dev nD) (f : Buf (Elt F) (hLoc d)) :
    (hLoc d ↦{fullShare} f : sProp 𝕄) = bigSep Finset.univ fun c : Fin 2 => bigSep Finset.univ fun i : Fin 16 => hLoc d ↦[Kp (c, i)]{fullShare} f := by
  rw [← bigSep_univ_prod (fun p : Fin 2 × Fin 16 => (hLoc d ↦[Kp p]{fullShare} f : sProp 𝕄)),
    ← pointsTo_biUnion Finset.univ (ℓ := hLoc d) Kp rows_disjoint, rows_cover]; try rfl

/-! ## The edge table's read shares -/

/-- What the TensorCore keeps of the edge table while the subcores read it: the remainder of the halving per SparseCore
    and, per SparseCore, the remainder of the halving per subcore. -/
def eRest (d : Dev nD) : sProp 𝕄 :=
  iprop((eLoc d ↦{Transfers.shareDrop fullShare 2} m (eLoc d))
    ∗ bigSep Finset.univ fun c : Fin 2 => eLoc d ↦{Transfers.shareDrop (Transfers.shareTok fullShare 2 c) 16} m (eLoc d))

/-- The table held whole is those remainders and one read share per subcore. -/
theorem e_split (d : Dev nD) :
    (eLoc d ↦{fullShare} m (eLoc d) : sProp 𝕄)
      = iprop(eRest m d ∗ bigSep Finset.univ fun c : Fin 2 => bigSep Finset.univ fun i : Fin 16 => eLoc d ↦{tokShare c i} m (eLoc d)) := by
  have e1 : (eLoc d ↦{fullShare} m (eLoc d) : sProp 𝕄)
      = iprop((eLoc d ↦{Transfers.shareDrop fullShare 2} m (eLoc d)) ∗ bigSep Finset.univ fun c : Fin 2 => eLoc d ↦{Transfers.shareTok fullShare 2 c} m (eLoc d)) :=
    BI.equiv_iff.mp ⟨(Transfers.pointsTo_toks fullShare 2).1, (Transfers.pointsTo_toks fullShare 2).2⟩
  have e2 (c : Fin 2) : (eLoc d ↦{Transfers.shareTok fullShare 2 c} m (eLoc d) : sProp 𝕄)
      = iprop((eLoc d ↦{Transfers.shareDrop (Transfers.shareTok fullShare 2 c) 16} m (eLoc d)) ∗ bigSep Finset.univ fun i : Fin 16 => eLoc d ↦{tokShare c i} m (eLoc d)) :=
    BI.equiv_iff.mp ⟨(Transfers.pointsTo_toks (Transfers.shareTok fullShare 2 c) 16).1, (Transfers.pointsTo_toks (Transfers.shareTok fullShare 2 c) 16).2⟩
  rw [e1, bigSep_congr (fun c _ => e2 c), bigSep_sep']
  unfold eRest
  exact BI.equiv_iff.mp ⟨Idealize.SL.BI.sep_assoc', Idealize.SL.BI.sep_assoc⟩

/-! ## What the call takes and what it brings back -/

/-- The rows come back each at its subcore's counts: joined, ONE array whose row 2 i + c is subcore i of SparseCore c's. -/
theorem h_join (d : Dev nD) :
    (bigSep Finset.univ fun p : Fin 2 × Fin 16 =>
        iprop(∃ f : Vec F S32x10000 .f32, (hLoc d ↦[Kp p]{fullShare} f) ∗ ⌜RowOK (coordsV p.1 p.2) (m (eLoc d)) (hpre d) f⌝))
      ⊢ (iprop(∃ Hf : Vec F S32x10000 .f32,
          ⌜∀ (c : Fin 2) (i : Fin 16) (n : Fin 10000), Hf (ix2 (wid (coordsV c i)) n) = rowVal (coordsV c i) (m (eLoc d)) (hpre d) (ix1 n)⌝
          ∗ (hLoc d ↦{fullShare} Hf)) : sProp 𝕄) := by
  haveI : Nonempty (Vec F S32x10000 .f32) := ⟨m (hLoc d)⟩
  haveI : Nonempty (S32x10000.Idx → Elt F .f32) := ⟨m (hLoc d)⟩
  refine (bigSep_exists_pi Finset.univ (fun (p : Fin 2 × Fin 16) (f : Vec F S32x10000 .f32) =>
    iprop((hLoc d ↦[Kp p]{fullShare} f) ∗ ⌜RowOK (coordsV p.1 p.2) (m (eLoc d)) (hpre d) f⌝))).trans ?_
  iintro ⟨%fs, H⟩
  have hstep : (bigSep Finset.univ fun p : Fin 2 × Fin 16 => iprop((hLoc d ↦[Kp p]{fullShare} fs p) ∗ ⌜RowOK (coordsV p.1 p.2) (m (eLoc d)) (hpre d) (fs p)⌝))
      ⊢ (iprop(⌜∀ p ∈ (Finset.univ : Finset (Fin 2 × Fin 16)), RowOK (coordsV p.1 p.2) (m (eLoc d)) (hpre d) (fs p)⌝
          ∗ bigSep Finset.univ fun p : Fin 2 × Fin 16 => (hLoc d ↦[Kp p]{fullShare} fs p)) : sProp 𝕄) :=
    (bigSep_mono fun (p : Fin 2 × Fin 16) _ => (Laws.sep_comm (P := (hLoc d ↦[Kp p]{fullShare} fs p : sProp 𝕄))
      (Q := iprop(⌜RowOK (coordsV p.1 p.2) (m (eLoc d)) (hpre d) (fs p)⌝))).1).trans
    (bigSep_pure_sep Finset.univ (fun p : Fin 2 × Fin 16 => RowOK (coordsV p.1 p.2) (m (eLoc d)) (hpre d) (fs p))
      (fun p => (hLoc d ↦[Kp p]{fullShare} fs p : sProp 𝕄)))
  ihave H' := hstep $$ H
  icases H' with ⟨%hrow, H⟩
  ihave H2 := (pointsTo_biUnion_join Finset.univ Kp fs (fs (0, 0)) rows_disjoint) $$ H
  icases H2 with ⟨%g, %hg, Hg⟩
  rw [rows_cover]
  iexists g
  isplitr
  · ipureintro
    intro c i n
    rw [hg (c, i) (Finset.mem_univ _) _ (mem_rowSet (coordsV c i) n)]
    exact hrow (c, i) (Finset.mem_univ _) n
  · iexact Hg

/-- The call's operands, for both SparseCores: per subcore a read share of the table and its row. -/
theorem st0_eq (d : Dev nD) :
    (bigSep Finset.univ fun c : Fin ((K (F := F)).nCore 0) => (P m hpre).st 0 d c)
      = iprop((bigSep Finset.univ fun c : Fin 2 => bigSep Finset.univ fun i : Fin 16 => eLoc d ↦{tokShare c i} m (eLoc d))
          ∗ bigSep Finset.univ fun c : Fin 2 => bigSep Finset.univ fun i : Fin 16 => hLoc d ↦[Kp (c, i)]{fullShare} m (hLoc d)) := by
  show (bigSep Finset.univ fun c : Fin 2 => bigSep Finset.univ fun i : Fin 16 => goOf m d c i) = _
  unfold goOf
  rw [bigSep_congr (fun c _ => bigSep_sep' _ _ _), bigSep_sep']

/-- Its results: the shares back, the rows at the counts. -/
theorem dn0_eq (d : Dev nD) :
    (bigSep Finset.univ fun c : Fin ((K (F := F)).nCore 0) => (P m hpre).dn 0 d c)
      = iprop((bigSep Finset.univ fun c : Fin 2 => bigSep Finset.univ fun i : Fin 16 => eLoc d ↦{tokShare c i} m (eLoc d))
          ∗ bigSep Finset.univ fun p : Fin 2 × Fin 16 =>
              iprop(∃ f : Vec F S32x10000 .f32, (hLoc d ↦[Kp p]{fullShare} f) ∗ ⌜RowOK (coordsV p.1 p.2) (m (eLoc d)) (hpre d) f⌝)) := by
  show (bigSep Finset.univ fun c : Fin 2 => bigSep Finset.univ fun i : Fin 16 => tdOf m hpre d c i) = _
  unfold tdOf
  rw [bigSep_congr (fun c _ => bigSep_sep' _ _ _), bigSep_sep', bigSep_univ_prod]

/-! ## @main's arrays -/

omit [FloatOps F] in
/-- The TensorCore's unscoped buffers: @main's seven arrays. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (eLoc d ↦{fullShare} W main_arg1) ∗ (wLoc d ↦{fullShare} W main_arg2) ∗ (bLoc d ↦{fullShare} W main_arg3)
          ∗ (hLoc d ↦{fullShare} W main_v0) ∗ (b1Loc d ↦{fullShare} W main_v1) ∗ (oLoc d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

abbrev b' : DevRef τ sig := Proc.devRef .tc (main_arg3 : Ref sig .tc)
abbrev r' : DevRef τ sig := Proc.devRef .tc (main_v1 : Ref sig .tc)
/-- The bias recast as a row: @main's one host operation. -/
abbrev opR : HloOp τ sig (Elt F) := StableHlo.reshape main_arg3 main_v1 rfl shapeCasts_S128_S1x128
abbrev S2 : Finset (DevRef τ sig) := {b', r'}

/-- The launch valuation. -/
def V0 (d : Dev nD) : Valuation τ sig (Elt F) := fun b => m (d, b)

omit [FloatOps F] in
theorem held_S2 (d : Dev nD) (W : Valuation τ sig (Elt F)) :
    (StableHlo.held (T d) S2 W : sProp 𝕄) = iprop((bLoc d ↦{fullShare} W b') ∗ (b1Loc d ↦{fullShare} W r')) := by
  unfold StableHlo.held S2
  rw [SparseCore.bigSep_insert' (by decide), bigSep_singleton]

theorem hOpR : (opR (F := F)).bufs ⊆ S2 := show ({b', r'} : Finset (DevRef τ sig)) ⊆ S2 by decide

theorem opR_b (d : Dev nD) : (opR (F := F)).result (V0 m d) b' = m (bLoc d) :=
  (opR (F := F)).result_of_not_mem (V0 m d) (b := b') (show b' ∉ ({r'} : Finset (DevRef τ sig)) by decide)
theorem opR_r (d : Dev nD) : (opR (F := F)).result (V0 m d) r' = B1 m d :=
  (StableHlo.reshape_result main_arg3 main_v1 rfl shapeCasts_S128_S1x128 ⟨by decide, rfl⟩ ⟨by decide, rfl⟩ (V0 m d)).trans rfl

/-! ## @main on the TensorCore -/

/-- What @main leaves the claim on device d: the result at the region's payload of an array Hf whose rows are the
    subcores' counts, the four arguments at their launch contents. -/
def FIN (d : Dev nD) : sProp 𝕄 :=
  iprop(∃ Hf : Vec F S32x10000 .f32, ⌜∀ (c : Fin 2) (i : Fin 16) (n : Fin 10000), Hf (ix2 (wid (coordsV c i)) n) = rowVal (coordsV c i) (m (eLoc d)) (hpre d) (ix1 n)⌝
    ∗ (oLoc d ↦{fullShare} TcRegion.out Hf (m (xLoc d)) (m (wLoc d)) (B1 m d)) ∗ (xLoc d ↦{fullShare} m (xLoc d)) ∗ (eLoc d ↦{fullShare} m (eLoc d))
    ∗ (wLoc d ↦{fullShare} m (wLoc d)) ∗ (bLoc d ↦{fullShare} m (bLoc d)))

theorem hOt (d : Dev nD) : ∀ g, (K (F := F)).Otc d 1 g none = 0 := by
  rw [(K (F := F)).Otc_end d (le_refl 1)]; intro g; rfl

/-- @main on device d's TensorCore: the call (read shares of the table and the 32 rows out, the shares and the rows at the
    counts back, joined), the bias recast as a row, the region. -/
theorem hmain (κ : GSem nD τ sig → ℕ) (d : Dev nD) :
    iprop((K (F := F)).ctx EH (P m hpre) κ ∗ (K (F := F)).tcSt EH d 0 ∗ (K (F := F)).tcRes m ρ d ∗ TcRegion.Gd (F := F) d)
      ⊢ wp frame (wpE ((K (F := F)).defs (D (F := F))) 𝒱 (SparseCore.T d) none) Set.univ (main d)
          fun _ => iprop((K (F := F)).tcSt EH d 1 ∗ FIN m hpre d) := by
  unfold SparseCore.Cfg.tcRes
  rw [unscopedBufs_eq]
  simp only [main, wp_bind, wp_pure]
  iintro ⟨#Hctx, Hst, ⟨Hb, ⟨Hx, He, Hw, Hbias, Hh, Hb1, Ho⟩, -, -⟩, Hg⟩
  ihave He' := (Entails.of_eq (e_split m d)) $$ He
  icases He' with ⟨Her, Hetoks⟩
  ihave Hh' := (Entails.of_eq (h_rows (F := F) d (m (hLoc d)))) $$ Hh
  -- the call
  iapply ((K (F := F)).wp_run (D (F := F)) 𝒱 (EH := EH) (P := P m hpre) κ d 0) $$ [Hst Hetoks Hh' Hb Hx Hw Hbias Hb1 Ho Hg Her]
  isplitr; · iexact Hctx
  isplitl [Hst]; · iexact Hst
  isplitl [Hetoks Hh']
  · rw [st0_eq]
    isplitl [Hetoks]; · iexact Hetoks
    iexact Hh'
  iintro ⟨Hst, Hdn⟩
  ihave Hdn' := (Entails.of_eq (dn0_eq m hpre d)) $$ Hdn
  icases Hdn' with ⟨Hetoks, Hrows⟩
  ihave He := (Entails.of_eq (e_split m d).symm) $$ [Her Hetoks]
  · isplitl [Her]; · iexact Her
    iexact Hetoks
  ihave Hh := (h_join m hpre d) $$ Hrows
  icases Hh with ⟨%Hf, %hHf, Hh⟩
  -- the bias recast as a row
  iapply (StableHlo.wp_hlo_within 𝒱 (SparseCore.T d) none Set.univ (op := opR) (S := S2) hOpR (V := V0 m d)) $$ [Hb Hbias Hb1]
  · isplitl [Hb]; · iexact Hb
    rw [held_S2]
    isplitl [Hbias]; · iexact Hbias
    iexact Hb1
  iintro ⟨Hb, Hheld⟩
  ihave Hh2 := (Entails.of_eq (held_S2 (F := F) d _)) $$ Hheld
  icases Hh2 with ⟨Hbias, Hb1⟩
  rw [opR_b, opR_r, wp_ret]
  imodintro
  -- the region
  unfold SparseCore.Cfg.tcSt
  icases Hst with ⟨⟨%W, %hW, HO⟩, Hrest⟩
  iapply (TcRegion.wp_region d (K (F := F)).refines_self Hf (m (xLoc d)) (m (wLoc d)) (B1 m d) (m (oLoc d)) ((K (F := F)).Otc d 1) (hOt d) W (fun x => Prog.ret x) _)
  isplitr; · iapply (SparseCore.Cfg.ctx_levAts κ); iexact Hctx
  isplitl [Hg]; · iexact Hg
  isplitl [Hb]; · iexact Hb
  isplitl [Hh]; · iexact Hh
  isplitl [Hx]; · iexact Hx
  isplitl [Hw]; · iexact Hw
  isplitl [Hb1]; · iexact Hb1
  isplitl [Ho]; · iexact Ho
  isplitl [HO]; · iexact HO
  iintro ⟨Hb, Hh, Hx, Hw, Hb1, Ho, %W', %hW', HO⟩
  rw [wp_ret]
  imodintro; imodintro
  isplitl [HO Hrest]
  · isplitl [HO]
    · iexists W'; isplitr
      · ipureintro; exact TcRegion.wBelow_of d hW' hW
      · iexact HO
    iexact Hrest
  unfold FIN
  iexists Hf
  isplitr; · ipureintro; exact hHf
  isplitl [Ho]; · iexact Ho
  isplitl [Hx]; · iexact Hx
  isplitl [He]; · iexact He
  isplitl [Hw]; · iexact Hw
  iexact Hbias

/-! ## Reading the claim off the final memory -/

def fq (d : Dev nD) (s' : Phys nD τ sig (Elt F)) : Prop :=
  (∃ Hf : Vec F S32x10000 .f32, (∀ (c : Fin 2) (i : Fin 16) (n : Fin 10000), Hf (ix2 (wid (coordsV c i)) n) = rowVal (coordsV c i) (m (eLoc d)) (hpre d) (ix1 n))
      ∧ s'.mem.mem (oLoc d) = TcRegion.out Hf (m (xLoc d)) (m (wLoc d)) (B1 m d))
    ∧ s'.mem.mem (xLoc d) = m (xLoc d) ∧ s'.mem.mem (eLoc d) = m (eLoc d) ∧ s'.mem.mem (wLoc d) = m (wLoc d) ∧ s'.mem.mem (bLoc d) = m (bLoc d)

theorem hfin (d : Dev nD) (s' : Phys nD τ sig (Elt F)) : iprop(FIN m hpre d ∗ SI s') ⊢ (⌜fq m hpre d s'⌝ : sProp 𝕄) := by
  unfold FIN
  iintro ⟨⟨%Hf, %hHf, Ho, Hx, He, Hw, Hbias⟩, HSI⟩
  ihave H := (persistent_entails_right (SI_pointsTo_agree (st := s') (ℓ := oLoc d) (I := Finset.univ) (q := fullShare)
    (f := TcRegion.out Hf (m (xLoc d)) (m (wLoc d)) (B1 m d)))) $$ [HSI Ho]
  · isplitl [HSI] <;> iassumption
  icases H with ⟨%h0, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h3, HSI, -⟩
  ihave H := (SI_pointsTo_agree (st := s') (ℓ := bLoc d) (I := Finset.univ) (q := fullShare) (f := m (bLoc d))) $$ [HSI Hbias]
  · isplitl [HSI] <;> iassumption
  icases H with %h4
  ipureintro
  exact ⟨⟨Hf, hHf, funext fun i => h0 i (Finset.mem_univ i)⟩, funext fun i => h1 i (Finset.mem_univ i), funext fun i => h2 i (Finset.mem_univ i),
    funext fun i => h3 i (Finset.mem_univ i), funext fun i => h4 i (Finset.mem_univ i)⟩

/-! ## The program's run -/

/-- Every weakly fair execution of the 35 threads terminates, and every final memory has, on every device, the result at
    the region's payload of an array whose rows are the subcores' counts, and the four arguments unchanged. -/
theorem run_main [∀ e, Nonempty (Elt F e)] :
    θ_run (Cert.Kernel.defs (F := F)) (Cert.Kernel.threads (F := F)) ⟨m, fun _ => 0, ρ⟩
      (fun r => ∀ c : Dev nD,
        (∃ Hf : Vec F S32x10000 .f32, (∀ (c' : Fin 2) (i : Fin 16) (n : Fin 10000), Hf (ix2 (wid (coordsV c' i)) n) = rowVal (coordsV c' i) (m (eLoc c)) (hpre c) (ix1 n))
            ∧ r.2.mem (oLoc c) = TcRegion.out Hf (m (xLoc c)) (m (wLoc c)) (B1 m c))
          ∧ r.2.mem (xLoc c) = m (xLoc c) ∧ r.2.mem (eLoc c) = m (eLoc c) ∧ r.2.mem (wLoc c) = m (wLoc c) ∧ r.2.mem (bLoc c) = m (bLoc c)) :=
  SparseCore.Cfg.θ_run_sc (K := K (F := F)) (D := D (F := F)) (𝒱 := 𝒱) (EH := EH) (P := P m hpre) facts v₀
    (fun q hq => match q with | 0 => nomatch hq)
    (fun q _ => match q with | 0 => tileObl m hpre facts)
    (fun q _ => match q with | 0 => SparseCore.Cfg.VecSplit.of_plain (vecSplit m hpre))
    m ρ main (TcRegion.Gd (F := F)) (FIN m hpre) (u₀ (F := F)) (sep_elim_left.trans (hu₀ m hpre)) (hmain m ρ hpre) (fq m hpre) (hfin m hpre) _ (fun _ h => h)

end Cert.Kernel.Main
end
-- ==== Proof.PreFacts.lean ====
/-
  What the input-domain precondition gives. The precondition is one `i1` word: the conjunction of "every entry of
  `x`, of `W` and of `b` has absolute value below +∞" with "every word of the edge table, read signed, lies in
  [0, 9999]". When that word is 1:

    * every word of the edge table, read UNSIGNED, is below 10000 (a signed word in [0, 9999] has its top bit clear,
      so its signed and unsigned readings agree);
    * at the ideal instance every entry of `x` is a real number: `max v (-v) < ⊤` excludes both `v = ⊤` and `v = ⊥`.
-/
import proofs.«215102_g56573309223269_cont_9to1_m_676_32_alg».proof.Pre_input_domain
import proofs.«215102_g56573309223269_cont_9to1_m_676_32_alg».proof.Proof.Gen.Pre_input_domain
import Idealize.ShloMosaic.Lib.ReduceAll
import Idealize.ShloMosaic.Lib.ValueIdx
import Idealize.ShloMosaic.PureOps.Ideal

noncomputable section

namespace Cert.RefSide

open Idealize.ShloMosaic Cert.Pre_input_domain

attribute [local instance] Cert.Pre_input_domain.Gen.facts

/-- The rank-0 shape has one index. -/
instance subsingleton_S_ : Subsingleton S_.Idx := ⟨fun a b => funext fun d => d.elim0⟩

/-- A word that reads signed in [0, 9999] reads unsigned below 10000. -/
theorem toNat_lt_of_signed_range (w : BitVec 32) (h0 : IntOp.cmpi .sge w 0#32 = 1#1)
    (h1 : IntOp.cmpi .sle w 9999#32 = 1#1) : w.toNat < 10000 := by
  rw [IntOp.cmpi_sge] at h0
  rw [IntOp.cmpi_sle] at h1
  have z : (0#32 : BitVec 32).toInt = 0 := by decide
  have n : (9999#32 : BitVec 32).toInt = 9999 := by decide
  rw [z] at h0
  rw [n] at h1
  have hw := w.isLt
  rw [BitVec.toInt_eq_toNat_cond] at h0 h1
  split at h0 <;> omega

/-- Every word of the edge table is below 10000 when the precondition holds. -/
theorem idx_lt_of_pre {F : FTy → Type} [FloatOps F] (x : FVec F Cert.Pre_input_domain.S10000x128 .f32)
    (ei : IVec Cert.Pre_input_domain.S2x320000 32) (W : FVec F Cert.Pre_input_domain.S128x256 .f32)
    (b : FVec F Cert.Pre_input_domain.S128 .f32)
    (h : Cert.Pre_input_domain.fn (F := F) x ei W b = fun _ => 1#1) : ∀ j, (ei j).toNat < 10000 := by
  intro j
  have e := congrFun h ValueIdx.ix0
  dsimp only [Cert.Pre_input_domain.fn, Cert.Pre_input_domain.fn_part1] at e
  change IntOp.andi _ _ = 1#1 at e
  obtain ⟨-, e2⟩ := IntOp.andi_eq_one.1 e
  have hj := Host.reduce_andi_all _ _ _ _ _ e2 j
  change IntOp.andi (IntOp.cmpi .sge (ei j) 0#32) (IntOp.cmpi .sle (ei j) 9999#32) = 1#1 at hj
  obtain ⟨h0, h1⟩ := IntOp.andi_eq_one.1 hj
  exact toNat_lt_of_signed_range (ei j) h0 h1

/-- A comparison's bit is 1 exactly when the comparison holds. -/
theorem ofBool_eq_one (c : Bool) : BitVec.ofBool c = 1#1 ↔ c = true := by cases c <;> decide

/-- An extended real whose absolute value `max v (-v)` is below `⊤` is a real number. -/
theorem real_of_abs_lt_top (v : EReal) (h : max v (-v) < ⊤) : ∃ r : ℝ, v = (r : EReal) := by
  induction v using EReal.rec with
  | bot => simp at h
  | coe r => exact ⟨r, rfl⟩
  | top => simp at h

/-- The pattern `0x7F800000` denotes `⊤`. -/
theorem ofBits_inf : Ideal.ofBits .f32 0x7F800000#32 = ⊤ := by
  simp [Ideal.ofBits, Ideal.ieee]

/-- At the ideal instance every entry of `x` is a real number when the precondition holds. -/
theorem x_finite_of_pre (x : FVec Ideal Cert.Pre_input_domain.S10000x128 .f32)
    (ei : IVec Cert.Pre_input_domain.S2x320000 32) (W : FVec Ideal Cert.Pre_input_domain.S128x256 .f32)
    (b : FVec Ideal Cert.Pre_input_domain.S128 .f32)
    (h : Cert.Pre_input_domain.fn (F := Ideal) x ei W b = fun _ => 1#1) : ∀ j, ∃ r : ℝ, x j = (r : EReal) := by
  intro j
  have e := congrFun h ValueIdx.ix0
  dsimp only [Cert.Pre_input_domain.fn, Cert.Pre_input_domain.fn_part1] at e
  change IntOp.andi (IntOp.andi (IntOp.andi _ _) _) _ = 1#1 at e
  obtain ⟨e1, -⟩ := IntOp.andi_eq_one.1 e
  obtain ⟨e1, -⟩ := IntOp.andi_eq_one.1 e1
  obtain ⟨e1, -⟩ := IntOp.andi_eq_one.1 e1
  have hj := Host.reduce_andi_all _ _ _ _ _ e1 j
  change Ideal.cmp .olt (max (x j) (-(x j))) (Ideal.ofBits .f32 0x7F800000#32) = 1#1 at hj
  rw [ofBits_inf] at hj
  have hj' : BitVec.ofBool (decide (max (x j) (-(x j)) < ⊤)) = 1#1 := hj
  exact real_of_abs_lt_top (x j) (of_decide_eq_true ((ofBool_eq_one _).1 hj'))

end Cert.RefSide

end
-- ==== Proof.Spec.lean ====
/-
  The specification both programs are compared with, stated once over literal shapes at the ideal instance
  (a float an extended real). Nodes carry feature rows `x : [10000, 128]`; the edge table `ei : [2, 320000]`
  names in its row 1 the source node of each edge; `W : [128, 256]` and `b : [128]` are a linear layer over the
  concatenation of a node's own features with the MEAN, over ALL edges, of the source nodes' features:

    out[n, o] = Σ_{k < 256} h[n, k] · W[o, k] + b[o],   h[n, k] = x[n, k] (k < 128),  h[n, 128 + c] = mean[c],
    mean[c]   = (Σ_e x[col e, c]) · (1 / 320000).

  The kernel reaches the same mean through a histogram: the 2500 blocks of 128 edges are dealt to 32 workers
  (worker `w` owns blocks `78 w + min w 4` up to `78 + [w < 4]` further), worker `w` counts in `cnt w n` how many
  of its edges have source `n`, and Σ_e x[col e, c] = Σ_w Σ_n cnt w n · x[n, c] for finite `x`.
-/
import Idealize.ShloMosaic.PureOps.Ideal
import Idealize.ShloMosaic.Lib.ValueIdx

noncomputable section

namespace Cert.Spec

open Idealize.ShloMosaic Idealize.ShloMosaic.ValueIdx

abbrev SX : Shape := ⟨2, ![10000, 128]⟩
abbrev SE : Shape := ⟨2, ![2, 320000]⟩
abbrev SW : Shape := ⟨2, ![128, 256]⟩
abbrev SB : Shape := ⟨1, ![128]⟩
abbrev SH : Shape := ⟨2, ![32, 10000]⟩

/-- Edge `e`'s source node: the word in row 1 of the edge table, read unsigned. -/
def col (ei : IVec SE 32) (e : Fin 320000) : ℕ := (ei (ix2 (1 : Fin 2) e)).toNat

/-- The first edge of worker `w`'s share: 128 edges a block, 78 blocks a worker, the first four workers one more. -/
def lo (w : ℕ) : ℕ := 128 * (78 * w + min w 4)
/-- One past the last edge of worker `w`'s share. -/
def hi (w : ℕ) : ℕ := lo w + 128 * (78 + if w < 4 then 1 else 0)

/-- How many of worker `w`'s edges have source node `n`. -/
def cnt (ei : IVec SE 32) (w : Fin 32) (n : Fin 10000) : ℕ :=
  (Finset.univ.filter fun e : Fin 320000 => lo w.val ≤ e.val ∧ e.val < hi w.val ∧ col ei e = n.val).card

/-- The 32 workers' histograms, as the extended reals the kernel's counting leaves. -/
def hist (ei : IVec SE 32) : FVec Ideal SH .f32 := fun i => (((cnt ei (i 0) (i 1) : ℕ) : ℝ) : EReal)

/-- Feature `c` of edge `e`'s source node (zero where the word names no node: excluded by the precondition). -/
def srcFeat (x : FVec Ideal SX .f32) (ei : IVec SE 32) (e : Fin 320000) (c : Fin 128) : EReal :=
  if h : col ei e < 10000 then x (ix2 (⟨col ei e, h⟩ : Fin 10000) c) else 0

/-- The mean over all 320000 edges of the source nodes' feature `c`. -/
def meanFeat (x : FVec Ideal SX .f32) (ei : IVec SE 32) (c : Fin 128) : EReal :=
  (∑ e : Fin 320000, srcFeat x ei e c) * (((1 / 320000 : ℝ)) : EReal)

/-- Column `k` of the concatenated row of node `n`: its own features, then the mean. -/
def hcat (x : FVec Ideal SX .f32) (ei : IVec SE 32) (n : Fin 10000) (k : Fin 256) : EReal :=
  if h : k.val < 128 then x (ix2 n (⟨k.val, h⟩ : Fin 128)) else meanFeat x ei (⟨k.val - 128, by omega⟩ : Fin 128)

/-- The layer's output. -/
def G (x : FVec Ideal SX .f32) (ei : IVec SE 32) (W : FVec Ideal SW .f32) (b : FVec Ideal SB .f32) : FVec Ideal SX .f32 :=
  fun i => (∑ k : Fin 256, hcat x ei (i 0) k * W (ix2 (i 1) k)) + b (ix1 (i 1))

end Cert.Spec

end
-- ==== Proof.RefValue.lean ====
/-
  The reference's result term is the specification `Cert.Spec.G`.

  The reference takes row 1 of the edge table, normalises each word `w` as `if w < 0 then w + 10000 else w` (signed),
  gathers row `w` of `x` for every edge (a start index read signed and clamped into [0, 9999]), sums the 320000
  gathered rows from 0, divides by the float 320000, lays the mean beside every node's own row, and applies the
  linear layer: out[n, o] = Σ_k h[n, k] · W[o, k] + b[o].

  Under the hypothesis that every word of the table is below 10000 (read unsigned): a word is below 2^31, so it is
  not negative read signed, the normalisation leaves it, its signed reading is its unsigned one, and the clamp leaves
  it; the gathered entry is `x[col e, c]`. Dividing by the real 320000 ≠ 0 is multiplying by the real 1/320000.
  The concatenation at column `k` is the node's own entry for `k < 128` and the mean's entry `k - 128` otherwise.
-/
import proofs.«215102_g56573309223269_cont_9to1_m_676_32_alg».proof.Proof.Spec
import proofs.«215102_g56573309223269_cont_9to1_m_676_32_alg».proof.Proof.Gen.ReferenceIdeal.Read

noncomputable section

namespace Cert.RefSide

open Idealize.ShloMosaic Idealize.ShloMosaic.ValueIdx
open Cert.ReferenceIdeal Cert.ReferenceIdeal.Gen Cert.ReferenceIdeal.Read Cert.Spec

/-! ## The two float constants -/

/-- The pattern of `+0.0` denotes `0`. -/
theorem ofBits_zero : Ideal.ofBits .f32 0x00000000#32 = 0 := by
  simp [Ideal.ofBits, Ideal.ieee]

/-- The pattern `0x489C4000` denotes the real `320000`: exponent 145 − 127 = 18, significand 2^23 + 1851392,
    and (2^23 + 1851392) · 2^(18 − 23) = 10240000 / 32. -/
theorem ofBits_320000 : Ideal.ofBits .f32 0x489C4000#32 = ((320000 : ℝ) : EReal) := by
  simp [Ideal.ofBits, Ideal.ieee, -EReal.coe_mul]; norm_num

/-! ## The edge's source word through the index normalisation -/

/-- Row 1 of the edge table, flattened, at edge `k`. -/
theorem v3_at (ei : IVec SE 32) (k : Fin 320000) :
    val_main_v3 (F := Ideal) ei (ix1 k) = ei (ix2 (1 : Fin 2) k) := by
  rw [val_main_v3_apply, val_main_v2_apply]
  refine congrArg ei (funext fun a => ?_)
  match a with
  | ⟨0, _⟩ => rfl
  | ⟨1, _⟩ => exact Fin.ext (Nat.mod_eq_of_lt k.isLt)

/-- A word below 10000 is not negative read signed: the normalisation returns it. -/
theorem v8_at (ei : IVec SE 32) (hr : ∀ j, (ei j).toNat < 10000) (k : Fin 320000) :
    val_main_v8 (F := Ideal) ei (ix1 k) = ei (ix2 (1 : Fin 2) k) := by
  rw [val_main_v8_apply, val_main_v5_apply, val_main_v4_apply, val_main_c_apply, v3_at]
  have hlt : ¬ IntOp.cmpi .slt (ei (ix2 (1 : Fin 2) k)) 0#32 = 1#1 := by
    rw [IntOp.cmpi_slt]
    have h := hr (ix2 (1 : Fin 2) k)
    have z : (0#32 : BitVec 32).toInt = 0 := by decide
    rw [z, BitVec.toInt_eq_toNat_cond]
    split <;> omega
  rw [eq_zero_of_ne_one hlt, select_zero]

/-- The start index of edge `k`'s gather. -/
theorem v9_at (ei : IVec SE 32) (hr : ∀ j, (ei j).toNat < 10000) (k : Fin 320000) (z : Fin 1) :
    val_main_v9 (F := Ideal) ei (ix2 k z) = ei (ix2 (1 : Fin 2) k) := by
  rw [val_main_v9_apply]
  rw [show idx_main_v9 (ix2 k z) = ix1 k from funext fun a => by match a with | ⟨0, _⟩ => rfl]
  exact v8_at ei hr k

/-! ## The gather, the sum over edges and the mean -/

/-- The gathered entry of edge `k`, feature `c`: the source node's feature. Axis 0 of the operand is indexed by the
    start index read signed and clamped into [0, 9999] (both leave a word below 10000), axis 1 by the offset `c`. -/
theorem v10_at (x : FVec Ideal SX .f32) (ei : IVec SE 32) (hr : ∀ j, (ei j).toNat < 10000) (k : Fin 320000) (c : Fin 128) :
    val_main_v10 (F := Ideal) x ei (ix2 k c) = srcFeat x ei k c := by
  have hcol : col ei k < 10000 := hr _
  unfold val_main_v10 Host.gather
  rw [srcFeat, dif_pos hcol]
  refine congrArg x (funext fun a => Fin.ext ?_)
  match a with
  | ⟨0, _⟩ =>
    show gather_S10000x128_S320000x1_S320000x128_1_0_n_n_0_1_1128.start (ix2 k c) (val_main_v9 (F := Ideal) ei) 0
        + gather_S10000x128_S320000x1_S320000x128_1_0_n_n_0_1_1128.batchCoord (ix2 k c) 0
        + gather_S10000x128_S320000x1_S320000x128_1_0_n_n_0_1_1128.offCoord (ix2 k c) 0 = col ei k
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S320000x1_S320000x128_1_0_n_n_0_1_1128.startIndexMap from List.mem_singleton.mpr rfl)]
    have hsi : gather_S10000x128_S320000x1_S320000x128_1_0_n_n_0_1_1128.siIdx (ix2 k c)
        ⟨List.idxOf (0 : Fin 2) gather_S10000x128_S320000x1_S320000x128_1_0_n_n_0_1_1128.startIndexMap, List.idxOf_lt_length_iff.2 (List.mem_singleton.mpr rfl)⟩
        = ix2 k (0 : Fin 1) := by
      funext b; refine Fin.ext ?_
      match b with
      | ⟨0, _⟩ => rfl
      | ⟨1, _⟩ => rfl
    rw [hsi, v9_at ei hr k 0]
    have e1 : S10000x128.size 0 - gather_S10000x128_S320000x1_S320000x128_1_0_n_n_0_1_1128.sliceSizes 0 = 9999 := rfl
    rw [e1]
    have h := hr (ix2 (1 : Fin 2) k)
    have hti : (ei (ix2 (1 : Fin 2) k)).toInt = ((ei (ix2 (1 : Fin 2) k)).toNat : Int) :=
      BitVec.toInt_eq_toNat_of_lt (by omega)
    rw [hti, Int.toNat_natCast]
    exact Nat.min_eq_left (by omega)
  | ⟨1, _⟩ =>
    show gather_S10000x128_S320000x1_S320000x128_1_0_n_n_0_1_1128.start (ix2 k c) (val_main_v9 (F := Ideal) ei) 1
        + gather_S10000x128_S320000x1_S320000x128_1_0_n_n_0_1_1128.batchCoord (ix2 k c) 1
        + gather_S10000x128_S320000x1_S320000x128_1_0_n_n_0_1_1128.offCoord (ix2 k c) 1 = c.val
    rw [GatherDims.batchCoord_eq_zero _ _ _ List.not_mem_nil]
    have hs : gather_S10000x128_S320000x1_S320000x128_1_0_n_n_0_1_1128.start (ix2 k c) (val_main_v9 (F := Ideal) ei) 1 = 0 := by
      unfold GatherDims.start
      exact dif_neg (by decide)
    have ho : gather_S10000x128_S320000x1_S320000x128_1_0_n_n_0_1_1128.offCoord (ix2 k c) 1 = c.val := by
      unfold GatherDims.offCoord
      rw [dif_pos (by decide)]
      rfl
    rw [hs, ho]
    omega

/-- The float sum over the edges, from the initial value `0`. -/
theorem v11_at (x : FVec Ideal SX .f32) (ei : IVec SE 32) (hr : ∀ j, (ei j).toNat < 10000) (c : Fin 128) :
    val_main_v11 (F := Ideal) x ei (ix1 c) = ∑ e : Fin 320000, srcFeat x ei e c := by
  rw [val_main_v11_apply, val_main_cst_apply, Ideal.ofBits_def, ofBits_zero, zero_add]
  refine Finset.sum_congr rfl fun k _ => ?_
  rw [show idx_main_v11 (ix1 c) k = ix2 k c from funext fun a => by match a with | ⟨0, _⟩ => rfl | ⟨1, _⟩ => rfl]
  exact v10_at x ei hr k c

/-- The mean: the sum divided by the real 320000, which is the sum times the real 1/320000. -/
theorem v13_at (x : FVec Ideal SX .f32) (ei : IVec SE 32) (hr : ∀ j, (ei j).toNat < 10000) (c : Fin 128) :
    val_main_v13 (F := Ideal) x ei (ix1 c) = meanFeat x ei c := by
  rw [val_main_v13_apply, Ideal.hostDivf_def, val_main_v12_apply, val_main_cst_1_apply, Ideal.ofBits_def, ofBits_320000,
    Ideal.div_coe (by norm_num : (320000 : ℝ) ≠ 0), v11_at x ei hr c]
  rfl

/-- The mean row laid under every node. -/
theorem v15_at (x : FVec Ideal SX .f32) (ei : IVec SE 32) (hr : ∀ j, (ei j).toNat < 10000) (n : Fin 10000) (c : Fin 128) :
    val_main_v15 (F := Ideal) x ei (ix2 n c) = meanFeat x ei c := by
  rw [val_main_v15_apply, val_main_v14_apply]
  rw [show idx_main_v14 (idx_main_v15 (ix2 n c)) = ix1 c from funext fun a => by match a with | ⟨0, _⟩ => rfl]
  exact v13_at x ei hr c

/-! ## The concatenated row and the layer -/

/-- Column `k` of node `n`'s concatenated row. -/
theorem v16_at (x : FVec Ideal SX .f32) (ei : IVec SE 32) (hr : ∀ j, (ei j).toNat < 10000) (n : Fin 10000) (k : Fin 256) :
    val_main_v16 (F := Ideal) x ei (ix2 n k) = hcat x ei n k := by
  unfold val_main_v16 hcat
  by_cases h : k.val < 128
  · rw [dif_pos h]
    exact concatenate_pair_apply_left (1 : Fin 2) x (val_main_v15 (F := Ideal) x ei)
      concatenates_S10000x128_S10000x128_S10000x256_d1 (ix2 n k) rfl (ix2 n (⟨k.val, h⟩ : Fin 128))
      (fun b => by match b with | ⟨0, _⟩ => rfl | ⟨1, _⟩ => rfl)
  · rw [dif_neg h]
    have hk : k.val - 128 < 128 := by have := k.isLt; omega
    refine (concatenate_pair_apply_right (1 : Fin 2) x (val_main_v15 (F := Ideal) x ei)
      concatenates_S10000x128_S10000x128_S10000x256_d1 (ix2 n k) rfl rfl (ix2 n (⟨k.val - 128, hk⟩ : Fin 128))
      (fun b hb => by
        match b with
        | ⟨0, _⟩ => rfl
        | ⟨1, _⟩ => exact absurd rfl hb)
      (by show k.val - 128 + 128 = k.val; omega)).trans ?_
    exact v15_at x ei hr n _

/-- THE REFERENCE'S RESULT IS THE SPECIFICATION. -/
theorem ref_eq_G (x : FVec Ideal Cert.Spec.SX .f32) (ei : IVec Cert.Spec.SE 32) (W : FVec Ideal Cert.Spec.SW .f32)
    (b : FVec Ideal Cert.Spec.SB .f32) (hr : ∀ j, (ei j).toNat < 10000) :
    Cert.ReferenceIdeal.Read.val_main_v21 (F := Ideal) x ei W b = Cert.Spec.G x ei W b := by
  funext i
  rw [val_main_v21_apply, Ideal.addf_def, val_main_v18_apply, val_main_v20_apply, val_main_v19_apply]
  unfold G
  refine congrArg₂ (· + ·) (Finset.sum_congr rfl fun k _ => ?_) (congrArg b (funext fun a => by match a with | ⟨0, _⟩ => rfl))
  rw [val_main_v17_apply]
  rw [show lidx_main_v18 i k = ix2 (i 0) k from funext fun a => by match a with | ⟨0, _⟩ => rfl | ⟨1, _⟩ => rfl,
    show idx_main_v17 (ridx_main_v18 i k) = ix2 (i 1) k from funext fun a => by match a with | ⟨0, _⟩ => rfl | ⟨1, _⟩ => rfl]
  exact congrArg (fun t => t * W (ix2 (i 1) k)) (v16_at x ei hr (i 0) k)

end Cert.RefSide

end
-- ==== Proof.HistAlgebra.lean ====
/-
  The counting law that joins the histogram to the sum over edges.

  The 32 shares [lo w, hi w) are consecutive (hi w = lo (w + 1)) and run from lo 0 = 0 to lo 32 = 320000, so every edge
  lies in exactly one share; within a share every edge has exactly one source node. Hence for every real function f of
  the node,

      Σ_{w < 32} Σ_{n < 10000} cnt w n · f n  =  Σ_{e < 320000} f (col e),

  by writing each count as a sum of indicators and exchanging the order of summation twice. For feature rows whose
  entries are all real numbers the same identity holds on the extended reals (hist_law): coercion commutes with finite
  sums and with products of reals.
-/
import proofs.«215102_g56573309223269_cont_9to1_m_676_32_alg».proof.Proof.Spec

noncomputable section

namespace Cert.TcSide

open Idealize.ShloMosaic Idealize.ShloMosaic.ValueIdx Cert.Spec

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A share ends where the next one begins. -/
theorem hi_eq_lo_succ (w : ℕ) : hi w = lo (w + 1) := by
  unfold hi lo
  split_ifs with h <;> omega

/-- The shares' starting points increase. -/
theorem lo_le_succ (w : ℕ) : lo w ≤ lo (w + 1) := by
  unfold lo
  omega

theorem lo_zero : lo 0 = 0 := by decide
theorem lo_last : lo 32 = 320000 := by decide

/-- Every edge's source is a node, under the domain hypothesis on the table's words. -/
theorem col_lt (ei : IVec SE 32) (hr : ∀ j, (ei j).toNat < 10000) (e : Fin 320000) : col ei e < 10000 :=
  hr (ix2 (1 : Fin 2) e)

/-- Over consecutive intervals [a w, a (w + 1)) of a nondecreasing sequence, the indicators of "e lies in interval w",
    summed over w < N, are the indicator of "e lies in [a 0, a N)". -/
theorem sum_indicator_consecutive (a : ℕ → ℕ) (hmono : ∀ w, a w ≤ a (w + 1)) (e : ℕ) (g : ℝ) (N : ℕ) :
    ∑ w ∈ Finset.range N, (if a w ≤ e ∧ e < a (w + 1) then g else 0) = if a 0 ≤ e ∧ e < a N then g else 0 := by
  induction N with
  | zero =>
    rw [Finset.range_zero, Finset.sum_empty, if_neg]
    omega
  | succ N ih =>
    rw [Finset.sum_range_succ, ih]
    have h0 : a 0 ≤ a N := monotone_nat_of_le_succ hmono (Nat.zero_le N)
    have h1 : a N ≤ a (N + 1) := hmono N
    split_ifs <;> first | omega | simp

/-- Every edge lies in exactly one of the 32 shares. -/
theorem sum_share_indicator (e : Fin 320000) (g : ℝ) :
    ∑ w : Fin 32, (if lo w.val ≤ e.val ∧ e.val < hi w.val then g else 0) = g := by
  have h := sum_indicator_consecutive lo lo_le_succ e.val g 32
  rw [lo_zero, lo_last, if_pos ⟨Nat.zero_le _, e.isLt⟩] at h
  refine Eq.trans ?_ h
  rw [← Fin.sum_univ_eq_sum_range (fun w => if lo w ≤ e.val ∧ e.val < lo (w + 1) then g else 0) 32]
  refine Finset.sum_congr rfl fun w _ => ?_
  rw [hi_eq_lo_succ]

/-- THE LAW over the reals: the histogram-weighted sum over workers and nodes is the sum over edges of the source's value. -/
theorem count_law_real (ei : IVec SE 32) (hr : ∀ j, (ei j).toNat < 10000) (f : Fin 10000 → ℝ) :
    ∑ w : Fin 32, ∑ n : Fin 10000, ((cnt ei w n : ℕ) : ℝ) * f n
      = ∑ e : Fin 320000, f ⟨col ei e, col_lt ei hr e⟩ := by
  -- a count times a value is a sum of indicators over the edges
  have hcnt : ∀ (w : Fin 32) (n : Fin 10000), ((cnt ei w n : ℕ) : ℝ) * f n
      = ∑ e : Fin 320000, if lo w.val ≤ e.val ∧ e.val < hi w.val ∧ col ei e = n.val then f n else 0 := by
    intro w n
    unfold cnt
    rw [← Finset.sum_filter, Finset.sum_const, nsmul_eq_mul]
  -- an edge has one source: over the nodes only that one survives
  have hnode : ∀ (w : Fin 32) (e : Fin 320000),
      ∑ n : Fin 10000, (if lo w.val ≤ e.val ∧ e.val < hi w.val ∧ col ei e = n.val then f n else 0)
        = if lo w.val ≤ e.val ∧ e.val < hi w.val then f ⟨col ei e, col_lt ei hr e⟩ else 0 := by
    intro w e
    rw [Finset.sum_eq_single (⟨col ei e, col_lt ei hr e⟩ : Fin 10000)]
    · by_cases hP : lo w.val ≤ e.val ∧ e.val < hi w.val
      · rw [if_pos ⟨hP.1, hP.2, rfl⟩, if_pos hP]
      · rw [if_neg (fun h => hP ⟨h.1, h.2.1⟩), if_neg hP]
    · intro n _ hn
      rw [if_neg]
      rintro ⟨_, _, h⟩
      exact hn (Fin.ext h.symm)
    · intro h
      exact absurd (Finset.mem_univ _) h
  calc ∑ w : Fin 32, ∑ n : Fin 10000, ((cnt ei w n : ℕ) : ℝ) * f n
      = ∑ w : Fin 32, ∑ n : Fin 10000, ∑ e : Fin 320000,
          (if lo w.val ≤ e.val ∧ e.val < hi w.val ∧ col ei e = n.val then f n else 0) := by
        simp only [hcnt]
    _ = ∑ w : Fin 32, ∑ e : Fin 320000, ∑ n : Fin 10000,
          (if lo w.val ≤ e.val ∧ e.val < hi w.val ∧ col ei e = n.val then f n else 0) :=
        Finset.sum_congr rfl fun w _ => Finset.sum_comm
    _ = ∑ w : Fin 32, ∑ e : Fin 320000,
          (if lo w.val ≤ e.val ∧ e.val < hi w.val then f ⟨col ei e, col_lt ei hr e⟩ else 0) := by
        simp only [hnode]
    _ = ∑ e : Fin 320000, ∑ w : Fin 32,
          (if lo w.val ≤ e.val ∧ e.val < hi w.val then f ⟨col ei e, col_lt ei hr e⟩ else 0) := Finset.sum_comm
    _ = ∑ e : Fin 320000, f ⟨col ei e, col_lt ei hr e⟩ :=
        Finset.sum_congr rfl fun e _ => sum_share_indicator e _

/-- THE LAW on the extended reals, for feature rows with real entries: the 32 histograms against the rows, summed over
    workers and nodes, give the sum over all edges of the source node's feature. -/
theorem hist_law (x : FVec Ideal SX .f32) (ei : IVec SE 32)
    (hx : ∀ j, ∃ r : ℝ, x j = (r : EReal)) (hr : ∀ j, (ei j).toNat < 10000) (c : Fin 128) :
    ∑ w : Fin 32, ∑ n : Fin 10000, hist ei (ix2 w n) * x (ix2 n c) = ∑ e : Fin 320000, srcFeat x ei e c := by
  choose xr hxr using hx
  have hL : ∀ (w : Fin 32) (n : Fin 10000),
      hist ei (ix2 w n) * x (ix2 n c) = ((((cnt ei w n : ℕ) : ℝ) * xr (ix2 n c) : ℝ) : EReal) := by
    intro w n
    rw [hxr, EReal.coe_mul]
    rfl
  have hR : ∀ e : Fin 320000,
      srcFeat x ei e c = ((xr (ix2 (⟨col ei e, col_lt ei hr e⟩ : Fin 10000) c) : ℝ) : EReal) := by
    intro e
    unfold srcFeat
    rw [dif_pos (col_lt ei hr e), hxr]
  simp only [hL, hR, ← coe_sum]
  exact congrArg _ (count_law_real ei hr fun n => xr (ix2 n c))

end Cert.TcSide

end
-- ==== Proof.TcValue.lean ====
/-
  The TensorCore body's stored value, at the ideal instance, is the specification.

  The body computes, from the node features x [10000, 128], the two halves W1 = W[:, 0:128] and W2 = W[:, 128:256] of the
  weights, the 32 workers' histograms H [32, 10000] and the bias b,

      x · W1ᵀ + broadcast( (((Σ_w (H · x)[w, :]) · (1/320000)) · W2ᵀ)[0, :] + b ).

  Read at an output index (p, q): each product into a zero accumulator is a plain sum over its one contracted axis, the
  lane reduction is the sum over the 32 workers, the layout operations read one element, and the named constant denotes
  the real 1/320000. The histogram-weighted double sum Σ_w Σ_n H[w, n] · x[n, c] is, by the counting law (hist_law),
  the sum over all edges of the source node's feature c, so the middle factor is the mean feature. The specification's
  sum over the 256 concatenated columns splits into the first 128 (the node's own features against W1) and the last
  128 (the mean against W2); the rest is associativity of addition on the extended reals.
-/
import proofs.«215102_g56573309223269_cont_9to1_m_676_32_alg».proof.Proof.Spec
import proofs.«215102_g56573309223269_cont_9to1_m_676_32_alg».proof.Proof.HistAlgebra
import proofs.«215102_g56573309223269_cont_9to1_m_676_32_alg».proof.Proof.Gen.KernelIdeal.Skeleton
import Idealize.ShloMosaic.PureOps.Ideal.Laws
import Idealize.ShloMosaic.PureOps.IdealRules
import Idealize.ShloMosaic.Lib.Pipeline.Value
import Idealize.ShloMosaic.Lib.ValueIdx
import Idealize.ShloMosaic.Lib.ValueLayout

noncomputable section

namespace Cert.TcSide

open Idealize.ShloMosaic Idealize.ShloMosaic.ValueIdx Cert.KernelIdeal Cert.KernelIdeal.Gen

/-! ## The named constant -/

/-- The named reciprocal of the edge count denotes the real 1/320000. -/
theorem inv_count :
    Named.named (F := Ideal) Cert.KernelIdeal.κ "inv_320000" (φ := .f32) 0x3651B717#32 = ((1 / 320000 : ℝ) : EReal) :=
  IdealRules.named_const.ideal_named_scalar _ _ _ _ rfl

/-! ## The three products, each into a zero accumulator, read at an index -/

/-- Off the contracted axis an operand's index is the output's coordinate: the left operand reads the output's row, the
    right operand the output's column (for each of the three products). -/
theorem hist_rows_lhs_free (i : S32x128.Idx) (k : dot_S32x10000_S10000x128_S32x128_1_0_0_1_n_n.contr.Idx) :
    (dot_S32x10000_S10000x128_S32x128_1_0_0_1_n_n.lhsIdx i k 0).val = (i 0).val := by
  unfold DotDims.lhsIdx
  rw [dif_neg (show ¬(0 : Fin S32x10000.rank) ∈ dot_S32x10000_S10000x128_S32x128_1_0_0_1_n_n.lhsBatch by decide),
    dif_pos (show (0 : Fin S32x10000.rank) ∈ dot_S32x10000_S10000x128_S32x128_1_0_0_1_n_n.lhsNonContracting by decide)]
  rfl
theorem hist_rows_rhs_free (i : S32x128.Idx) (k : dot_S32x10000_S10000x128_S32x128_1_0_0_1_n_n.contr.Idx) :
    (dot_S32x10000_S10000x128_S32x128_1_0_0_1_n_n.rhsIdx i k 1).val = (i 1).val := by
  unfold DotDims.rhsIdx
  rw [dif_neg (show ¬(1 : Fin S10000x128.rank) ∈ dot_S32x10000_S10000x128_S32x128_1_0_0_1_n_n.rhsBatch by decide),
    dif_pos (show (1 : Fin S10000x128.rank) ∈ dot_S32x10000_S10000x128_S32x128_1_0_0_1_n_n.rhsNonContracting by decide)]
  rfl

theorem rows8_lhs_free (i : S8x128.Idx) (k : dot_S8x128_S128x128_S8x128_1_1_0_0_n_n.contr.Idx) :
    (dot_S8x128_S128x128_S8x128_1_1_0_0_n_n.lhsIdx i k 0).val = (i 0).val := by
  unfold DotDims.lhsIdx
  rw [dif_neg (show ¬(0 : Fin S8x128.rank) ∈ dot_S8x128_S128x128_S8x128_1_1_0_0_n_n.lhsBatch by decide),
    dif_pos (show (0 : Fin S8x128.rank) ∈ dot_S8x128_S128x128_S8x128_1_1_0_0_n_n.lhsNonContracting by decide)]
  rfl
theorem rows8_rhs_free (i : S8x128.Idx) (k : dot_S8x128_S128x128_S8x128_1_1_0_0_n_n.contr.Idx) :
    (dot_S8x128_S128x128_S8x128_1_1_0_0_n_n.rhsIdx i k 0).val = (i 1).val := by
  unfold DotDims.rhsIdx
  rw [dif_neg (show ¬(0 : Fin S128x128.rank) ∈ dot_S8x128_S128x128_S8x128_1_1_0_0_n_n.rhsBatch by decide),
    dif_pos (show (0 : Fin S128x128.rank) ∈ dot_S8x128_S128x128_S8x128_1_1_0_0_n_n.rhsNonContracting by decide)]
  rfl

theorem rows_lhs_free (i : S10000x128.Idx) (k : dot_S10000x128_S128x128_S10000x128_1_1_0_0_n_n.contr.Idx) :
    (dot_S10000x128_S128x128_S10000x128_1_1_0_0_n_n.lhsIdx i k 0).val = (i 0).val := by
  unfold DotDims.lhsIdx
  rw [dif_neg (show ¬(0 : Fin S10000x128.rank) ∈ dot_S10000x128_S128x128_S10000x128_1_1_0_0_n_n.lhsBatch by decide),
    dif_pos (show (0 : Fin S10000x128.rank) ∈ dot_S10000x128_S128x128_S10000x128_1_1_0_0_n_n.lhsNonContracting by decide)]
  rfl
theorem rows_rhs_free (i : S10000x128.Idx) (k : dot_S10000x128_S128x128_S10000x128_1_1_0_0_n_n.contr.Idx) :
    (dot_S10000x128_S128x128_S10000x128_1_1_0_0_n_n.rhsIdx i k 0).val = (i 1).val := by
  unfold DotDims.rhsIdx
  rw [dif_neg (show ¬(0 : Fin S128x128.rank) ∈ dot_S10000x128_S128x128_S10000x128_1_1_0_0_n_n.rhsBatch by decide),
    dif_pos (show (0 : Fin S128x128.rank) ∈ dot_S10000x128_S128x128_S10000x128_1_1_0_0_n_n.rhsNonContracting by decide)]
  rfl

/-- The histograms against the feature rows: (H · x)[w, c] = Σ_n H[w, n] · x[n, c]. -/
theorem hist_times_rows (H : FVec Ideal S32x10000 .f32) (x : FVec Ideal S10000x128 .f32) (w : Fin 32) (c : Fin 128) :
    matmul dot_S32x10000_S10000x128_S32x128_1_0_0_1_n_n none H x (constant (F := Ideal) S32x128 .f32 0x00000000#32) (ix2 w c)
      = ∑ n : Fin 10000, H (ix2 w n) * x (ix2 n c) := by
  refine (Ideal.matmul_constant_zero_apply dot_S32x10000_S10000x128_S32x128_1_0_0_1_n_n none H x (ix2 w c)).trans ?_
  rw [← Equiv.sum_comp (contrEquiv1 dot_S32x10000_S10000x128_S32x128_1_0_0_1_n_n 10000 rfl rfl).symm]
  refine Finset.sum_congr rfl fun n _ => ?_
  have hn := contrEquiv1_symm_val dot_S32x10000_S10000x128_S32x128_1_0_0_1_n_n 10000 rfl rfl n
  have el : dot_S32x10000_S10000x128_S32x128_1_0_0_1_n_n.lhsIdx (ix2 w c) ((contrEquiv1 dot_S32x10000_S10000x128_S32x128_1_0_0_1_n_n 10000 rfl rfl).symm n) = ix2 w n :=
    funext fun a => Fin.ext (by
      match a with
      | ⟨0, _⟩ => exact hist_rows_lhs_free _ _
      | ⟨1, _⟩ => exact (dot_S32x10000_S10000x128_S32x128_1_0_0_1_n_n.lhsIdx_val_of_single rfl _ _).trans hn)
  have er : dot_S32x10000_S10000x128_S32x128_1_0_0_1_n_n.rhsIdx (ix2 w c) ((contrEquiv1 dot_S32x10000_S10000x128_S32x128_1_0_0_1_n_n 10000 rfl rfl).symm n) = ix2 n c :=
    funext fun a => Fin.ext (by
      match a with
      | ⟨0, _⟩ => exact (dot_S32x10000_S10000x128_S32x128_1_0_0_1_n_n.rhsIdx_val_of_single rfl _ _).trans hn
      | ⟨1, _⟩ => exact hist_rows_rhs_free _ _)
  rw [el, er]

/-- Eight equal rows against the second half of the weights: (a · W2ᵀ)[r, o] = Σ_c a[r, c] · W2[o, c]. -/
theorem rows_times_weights8 (a : FVec Ideal S8x128 .f32) (v : FVec Ideal S128x128 .f32) (r : Fin 8) (o : Fin 128) :
    matmul dot_S8x128_S128x128_S8x128_1_1_0_0_n_n none a v (constant (F := Ideal) S8x128 .f32 0x00000000#32) (ix2 r o)
      = ∑ c : Fin 128, a (ix2 r c) * v (ix2 o c) := by
  refine (Ideal.matmul_constant_zero_apply dot_S8x128_S128x128_S8x128_1_1_0_0_n_n none a v (ix2 r o)).trans ?_
  rw [← Equiv.sum_comp (contrEquiv1 dot_S8x128_S128x128_S8x128_1_1_0_0_n_n 128 rfl rfl).symm]
  refine Finset.sum_congr rfl fun c _ => ?_
  have hc := contrEquiv1_symm_val dot_S8x128_S128x128_S8x128_1_1_0_0_n_n 128 rfl rfl c
  have el : dot_S8x128_S128x128_S8x128_1_1_0_0_n_n.lhsIdx (ix2 r o) ((contrEquiv1 dot_S8x128_S128x128_S8x128_1_1_0_0_n_n 128 rfl rfl).symm c) = ix2 r c :=
    funext fun a => Fin.ext (by
      match a with
      | ⟨0, _⟩ => exact rows8_lhs_free _ _
      | ⟨1, _⟩ => exact (dot_S8x128_S128x128_S8x128_1_1_0_0_n_n.lhsIdx_val_of_single rfl _ _).trans hc)
  have er : dot_S8x128_S128x128_S8x128_1_1_0_0_n_n.rhsIdx (ix2 r o) ((contrEquiv1 dot_S8x128_S128x128_S8x128_1_1_0_0_n_n 128 rfl rfl).symm c) = ix2 o c :=
    funext fun a => Fin.ext (by
      match a with
      | ⟨0, _⟩ => exact rows8_rhs_free _ _
      | ⟨1, _⟩ => exact (dot_S8x128_S128x128_S8x128_1_1_0_0_n_n.rhsIdx_val_of_single rfl _ _).trans hc)
  rw [el, er]

/-- The feature rows against the first half of the weights: (x · W1ᵀ)[p, o] = Σ_k x[p, k] · W1[o, k]. -/
theorem rows_times_weights (x : FVec Ideal S10000x128 .f32) (v : FVec Ideal S128x128 .f32) (p : Fin 10000) (o : Fin 128) :
    matmul dot_S10000x128_S128x128_S10000x128_1_1_0_0_n_n none x v (constant (F := Ideal) S10000x128 .f32 0x00000000#32) (ix2 p o)
      = ∑ k : Fin 128, x (ix2 p k) * v (ix2 o k) := by
  refine (Ideal.matmul_constant_zero_apply dot_S10000x128_S128x128_S10000x128_1_1_0_0_n_n none x v (ix2 p o)).trans ?_
  rw [← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 p o) ((contrEquiv1 dot_S10000x128_S128x128_S10000x128_1_1_0_0_n_n 128 rfl rfl).symm k) = ix2 p k :=
    funext fun a => Fin.ext (by
      match a with
      | ⟨0, _⟩ => exact rows_lhs_free _ _
      | ⟨1, _⟩ => exact (dot_S10000x128_S128x128_S10000x128_1_1_0_0_n_n.lhsIdx_val_of_single rfl _ _).trans hk)
  have er : dot_S10000x128_S128x128_S10000x128_1_1_0_0_n_n.rhsIdx (ix2 p o) ((contrEquiv1 dot_S10000x128_S128x128_S10000x128_1_1_0_0_n_n 128 rfl rfl).symm k) = ix2 o k :=
    funext fun a => Fin.ext (by
      match a with
      | ⟨0, _⟩ => exact rows_rhs_free _ _
      | ⟨1, _⟩ => exact (dot_S10000x128_S128x128_S10000x128_1_1_0_0_n_n.rhsIdx_val_of_single rfl _ _).trans hk)
  rw [el, er]

/-! ## The sum over the 32 workers -/

/-- The reduction over axis 0 of a [32, 128] array, from the zero word, is at lane c the sum over the 32 rows. -/
theorem worker_sum (y : FVec Ideal S32x128 .f32) (h : S32x128.Reduces [0] S128) (hφ : FKind.Formats .f32)
    (hacc : (0x00000000#32 : BitVec 32) = FKind.add.neutral .f32 hφ) (c : Fin 128) :
    multiReduction (F := Ideal) .add [0] S128 y 0x00000000#32 h hφ hacc (ix1 c) = ∑ w : Fin 32, y (ix2 w c) := by
  refine (Ideal.multiReduction_add_single y 0x00000000#32 h hφ hacc (ix1 c)).trans ?_
  refine Finset.sum_congr rfl fun w _ => congrArg y (funext fun a => Fin.ext ?_)
  match a with
  | ⟨0, _⟩ => rfl
  | ⟨1, _⟩ => rfl

/-! ## The body's value at an index -/

/-- The stored value at (p, q): the node's own features against W1, plus the scaled histogram sums against W2, plus the bias. -/
theorem body_apply (x : FVec Ideal S10000x128 .f32) (v1 v2 : FVec Ideal S128x128 .f32) (v3 : FVec Ideal S32x10000 .f32)
    (v14 : FVec Ideal S1x128 .f32) (p : Fin 10000) (q : Fin 128) :
    k1_pay1 (F := Ideal) x v1 v2 v3 v14 (ix2 p q)
      = (∑ k : Fin 128, x (ix2 p k) * v1 (ix2 q k))
        + ((∑ c : Fin 128, ((∑ w : Fin 32, ∑ n : Fin 10000, v3 (ix2 w n) * x (ix2 n c)) * ((1 / 320000 : ℝ) : EReal))
              * v2 (ix2 q c))
            + v14 (ix2 (0 : Fin 1) q)) := by
  unfold k1_pay1
  rw [addf_apply, rows_times_weights, broadcastTo_1b_ab_apply, addf_apply,
    slice2_axis0_apply 0 _ _ (0 : Fin 1) q (0 : Fin 8) rfl, rows_times_weights8, shapeCast_self]
  simp only [broadcastTo_1b_ab_apply, shapeCast_self, mulf_apply, broadcast_apply, shapeCast_a_1a_apply, inv_count]
  refine congrArg (_ + ·) (congrArg (· + _) (Finset.sum_congr rfl fun c _ => ?_))
  refine congrArg (· * _) (congrArg (· * _) ?_)
  exact (worker_sum _ _ _ _ c).trans (Finset.sum_congr rfl fun w _ => hist_times_rows v3 x w c)

/-! ## The specification's sum over the 256 concatenated columns -/

/-- A sum over 256 columns is the sum over the first 128 plus the sum over the last 128. -/
theorem sum_split (f : Fin 256 → EReal) :
    ∑ k : Fin 256, f k
      = (∑ k : Fin 128, f (⟨k.val, by omega⟩ : Fin 256)) + ∑ c : Fin 128, f (⟨128 + c.val, by omega⟩ : Fin 256) :=
  Fin.sum_univ_add (a := 128) (b := 128) f

/-- THE BODY'S VALUE IS THE SPECIFICATION: with the loaded vectors the two halves of W, the 32 histograms and the bias,
    for real feature rows and source words that name nodes, the stored array is the layer's output. -/
theorem tc_value (x : FVec Ideal Cert.Spec.SX .f32) (ei : IVec Cert.Spec.SE 32) (W : FVec Ideal Cert.Spec.SW .f32)
    (b : FVec Ideal Cert.Spec.SB .f32)
    (v1 v2 : Vec Ideal Cert.KernelIdeal.S128x128 .f32) (v3 : Vec Ideal Cert.KernelIdeal.S32x10000 .f32)
    (v14 : Vec Ideal Cert.KernelIdeal.S1x128 .f32)
    (hv1 : ∀ (p q : Fin 128), v1 (ValueIdx.ix2 p q) = W (ValueIdx.ix2 p (⟨q.val, by omega⟩ : Fin 256)))
    (hv2 : ∀ (p q : Fin 128), v2 (ValueIdx.ix2 p q) = W (ValueIdx.ix2 p (⟨128 + q.val, by omega⟩ : Fin 256)))
    (hv3 : v3 = Cert.Spec.hist ei)
    (hv14 : ∀ q : Fin 128, v14 (ValueIdx.ix2 (0 : Fin 1) q) = b (ValueIdx.ix1 q))
    (hx : ∀ j, ∃ r : ℝ, x j = (r : EReal)) (hr : ∀ j, (ei j).toNat < 10000) :
    Cert.KernelIdeal.Gen.k1_pay1 (F := Ideal) x v1 v2 v3 v14 = Cert.Spec.G x ei W b := by
  funext j
  obtain ⟨p, q, rfl⟩ : ∃ (p : Fin 10000) (q : Fin 128), j = ix2 p q := ⟨j 0, j 1, eq_ix2 j⟩
  rw [body_apply, hv3, hv14 q]
  show _ = (∑ k : Fin 256, Cert.Spec.hcat x ei p k * W (ix2 q k)) + b (ix1 q)
  rw [sum_split, add_assoc]
  -- the first 128 columns: the node's own features against the first half of W
  have hown : ∀ k : Fin 128,
      Cert.Spec.hcat x ei p (⟨k.val, by omega⟩ : Fin 256) * W (ix2 q (⟨k.val, by omega⟩ : Fin 256))
        = x (ix2 p k) * v1 (ix2 q k) := by
    intro k
    unfold Cert.Spec.hcat
    rw [dif_pos (show ((⟨k.val, by omega⟩ : Fin 256)).val < 128 from k.isLt), hv1 q k]
  -- the last 128 columns: the mean feature against the second half of W
  have hmean : ∀ c : Fin 128,
      Cert.Spec.hcat x ei p (⟨128 + c.val, by omega⟩ : Fin 256) * W (ix2 q (⟨128 + c.val, by omega⟩ : Fin 256))
        = ((∑ w : Fin 32, ∑ n : Fin 10000, Cert.Spec.hist ei (ix2 w n) * x (ix2 n c)) * ((1 / 320000 : ℝ) : EReal))
            * v2 (ix2 q c) := by
    intro c
    unfold Cert.Spec.hcat
    rw [dif_neg (show ¬((⟨128 + c.val, by omega⟩ : Fin 256)).val < 128 from Nat.not_lt.2 (Nat.le_add_right 128 c.val)),
      hv2 q c, hist_law x ei hx hr c]
    have hc : (⟨(⟨128 + c.val, by omega⟩ : Fin 256).val - 128, by omega⟩ : Fin 128) = c :=
      Fin.ext (by show 128 + c.val - 128 = c.val; omega)
    rw [hc]
    rfl
  simp only [hown, hmean]

end Cert.TcSide

end
-- ==== Proof.HistValue.lean ====
/-
  One worker's counting loop, at the ideal instance, leaves the specification's histogram row.

  Worker w = 2 · (L 1) + (L 0) owns the blocks of 128 edges from t0 = 78 w + min w 4 on, 78 + [w < 4] of them. Its index
  scratch holds the window of the edge table that starts at block min t0 2421, and trip k of its loop reads, in eight
  groups of sixteen lanes, row 1 of the scratch at columns 128 · (t0 − min t0 2421 + k) + 16 r + l: the sources of the
  edges 128 · (t0 + k) + 16 r + l. Each group is one indexed add-store of sixteen ones: on the extended reals it adds
  to entry n the number of its lanes whose word is n, whatever the order of the lanes, because addition there is
  associative. Starting from zero, after k trips entry n is therefore the number of edges e with lo w ≤ e < lo w + 128 k
  and source n; after the last trip the bound is hi w, and the number is cnt w n.
-/
import proofs.«215102_g56573309223269_cont_9to1_m_676_32_alg».proof.Proof.Spec
import proofs.«215102_g56573309223269_cont_9to1_m_676_32_alg».proof.Proof.HistFold
import Idealize.ShloMosaic.PureOps.Ideal.Laws
import Idealize.ShloMosaic.Lib.Pipeline.Value
import Idealize.ShloMosaic.Lib.ValueIdx
import Idealize.ShloMosaic.Lib.ValueLayout

noncomputable section

namespace Cert.HistSide

open Idealize.ShloMosaic Idealize.ShloMosaic.ValueIdx Cert.KernelIdeal Cert.KernelIdeal.Gen Cert.KernelIdeal.HistFold

/-! ## The two float words -/

/-- The word of 1.0 denotes 1. -/
theorem word_one : Ideal.ofBits .f32 0x3F800000#32 = 1 := by
  simp [Ideal.ofBits, Ideal.ieee, -EReal.coe_mul]; norm_num

/-! ## Reading the scratch and the window at an index -/

/-- Lane l of the sixteen words loaded at (off 0, off 1) is the scratch word at (off 0, off 1 + l). -/
theorem lanes_apply {F : FTy → Type} [FloatOps F] [Named F] (s0 : Vec F S2x10112 .i32) (off : Fin 2 → Nat)
    (hoff : ∀ a, off a + S1x16.size a ≤ S2x10112.size a) (l : Fin 16) (y : S2x10112.Idx)
    (h0 : (y 0).val = off 0) (h1 : (y 1).val = off 1 + l.val) :
    lanes s0 off hoff (ix1 l) = s0 y := by
  unfold lanes
  rw [shapeCast_1a_a_apply]
  refine congrArg s0 (funext fun a => Fin.ext ?_)
  match a with
  | ⟨0, _⟩ => exact ((Nat.add_zero _).trans h0.symm)
  | ⟨1, _⟩ => exact ((congrArg (off 1 + ·) (Nat.one_mul _)).trans h1.symm)

/-- The window's word at (a, c) is the table's word at (a, first column of the window + c). -/
theorem win_apply {F : FTy → Type} [FloatOps F] [Named F] (L : grid0.Coords) (E : Vec F S2x320000 .i32)
    (j : S2x10112.Idx) (y : S2x320000.Idx)
    (h0 : (y 0).val = k0_off1 L 0 + (j 0).val) (h1 : (y 1).val = k0_off1 L 1 + (j 1).val) :
    win L E j = E y := by
  unfold win
  refine congrArg E (funext fun a => Fin.ext ?_)
  match a with
  | ⟨0, _⟩ => exact ((congrArg (k0_off1 L 0 + ·) (Nat.one_mul _)).trans h0.symm)
  | ⟨1, _⟩ => exact ((congrArg (k0_off1 L 1 + ·) (Nat.one_mul _)).trans h1.symm)

/-! ## One indexed add-store of sixteen ones -/

/-- A lane's index in the sixteen-lane shape. -/
theorem ofLane_eq (k : Fin 16) : Shape.ofLane (d := ![16]) k = ix1 k := by
  funext a
  match a with
  | ⟨0, _⟩ => rfl

set_option backward.isDefEq.respectTransparency.types false in
/-- The store adds to entry n the number of its sixteen lanes whose word is n: each lane, lowest first, adds a one
    onto the entry its word names, and the sum does not depend on the order. -/
theorem bump_apply (g : Vec Ideal S10000 .f32) (v : Vec Ideal S16 .i32)
    (h : ∀ a x, ((![v] : Fin 1 → IVec S16 32) a x).toNat < S10000.size a) (n : Fin 10000) :
    bump (F := Ideal) g v h (ix1 n)
      = g (ix1 n) + ((((∑ l : Fin 16, if (v (ix1 l)).toNat = n.val then 1 else 0 : ℕ) : ℕ) : ℝ) : EReal) := by
  rw [Fin.sum_univ_def]
  unfold bump storeIdx
  show (List.foldl _ g (List.finRange 16)) (ix1 n) = _
  generalize List.finRange 16 = ls
  induction ls generalizing g with
  | nil => simp
  | cons l ls ih =>
    rw [List.foldl_cons, ih, List.map_cons, List.sum_cons, Nat.cast_add, EReal.coe_add, ← add_assoc]
    congr 1
    simp only [ofLane_eq]
    rw [if_pos (show (1#1 : BitVec 1) = 1 from rfl)]
    by_cases hP : (v (ix1 l)).toNat = n.val
    · have hi : idxAt (s := S10000) ![v] h (ix1 l) = ix1 n := by
        funext a
        match a with
        | ⟨0, _⟩ => exact Fin.ext hP
      rw [if_pos hP, hi, if_pos (fun _ => rfl), if_pos trivial]
      show g (ix1 n) + Ideal.ofBits .f32 0x3F800000#32 = _
      rw [word_one]
      simp
    · rw [if_neg hP, if_neg]
      · simp
      · intro hall
        exact hP (hall 0).symm

/-! ## Counting the edges below a bound -/

open Cert.Spec

/-- The source of edge number m, for every natural m (zero past the end of the table). -/
def colN (E : IVec SE 32) (m : ℕ) : ℕ := if h : m < 320000 then col E ⟨m, h⟩ else 0

theorem colN_val (E : IVec SE 32) (e : Fin 320000) : colN E e.val = col E e := by
  unfold colN
  rw [dif_pos e.isLt]

/-- The number of edges e with a ≤ e < M whose source is n. -/
def pre (E : IVec SE 32) (n : Fin 10000) (a M : ℕ) : ℕ :=
  ∑ e : Fin 320000, if a ≤ e.val ∧ e.val < M ∧ colN E e.val = n.val then 1 else 0

/-- No edge lies in an empty range. -/
theorem pre_self (E : IVec SE 32) (n : Fin 10000) (a : ℕ) : pre E n a a = 0 := by
  unfold pre
  refine Finset.sum_eq_zero fun e _ => if_neg ?_
  rintro ⟨h1, h2, _⟩
  omega

/-- Raising the bound by one counts edge M if its source is n. -/
theorem pre_succ (E : IVec SE 32) (n : Fin 10000) (a M : ℕ) (ha : a ≤ M) (hM : M < 320000) :
    pre E n a (M + 1) = pre E n a M + (if colN E M = n.val then 1 else 0) := by
  unfold pre
  have hpt : ∀ e : Fin 320000, (if a ≤ e.val ∧ e.val < M + 1 ∧ colN E e.val = n.val then 1 else 0)
      = (if a ≤ e.val ∧ e.val < M ∧ colN E e.val = n.val then 1 else 0)
        + (if e = (⟨M, hM⟩ : Fin 320000) then (if colN E M = n.val then 1 else 0) else 0) := by
    intro e
    by_cases he : e = ⟨M, hM⟩
    · rw [if_pos he, he]
      show (if a ≤ M ∧ M < M + 1 ∧ colN E M = n.val then 1 else 0)
        = (if a ≤ M ∧ M < M ∧ colN E M = n.val then 1 else 0) + _
      by_cases hc : colN E M = n.val
      · rw [if_pos ⟨ha, Nat.lt_succ_self M, hc⟩, if_neg (fun h => Nat.lt_irrefl M h.2.1), if_pos hc]
      · rw [if_neg (fun h => hc h.2.2), if_neg (fun h => hc h.2.2), if_neg hc]
    · rw [if_neg he, Nat.add_zero]
      have hne : e.val ≠ M := fun h => he (Fin.ext h)
      refine if_congr ?_ rfl rfl
      constructor <;> rintro ⟨h1, h2, h3⟩ <;> exact ⟨h1, by omega, h3⟩
  rw [Finset.sum_congr rfl (fun e _ => hpt e), Finset.sum_add_distrib, Finset.sum_ite_eq' Finset.univ (⟨M, hM⟩ : Fin 320000),
    if_pos (Finset.mem_univ _)]

/-- Raising the bound by m counts the m edges M, …, M + m − 1 whose source is n. -/
theorem pre_add (E : IVec SE 32) (n : Fin 10000) (a M : ℕ) (ha : a ≤ M) :
    ∀ m : ℕ, M + m ≤ 320000 →
      pre E n a (M + m) = pre E n a M + ∑ l : Fin m, if colN E (M + l.val) = n.val then 1 else 0 := by
  intro m
  induction m with
  | zero => intro _; simp
  | succ m ih =>
    intro hm
    rw [← Nat.add_assoc, pre_succ E n a (M + m) (by omega) (by omega), ih (by omega), Fin.sum_univ_castSucc]
    simp only [Fin.val_castSucc, Fin.val_last, Nat.add_assoc]

/-- The sixteen edges from M on whose source is n. -/
def blk (E : IVec SE 32) (n : Fin 10000) (M : ℕ) : ℕ := ∑ l : Fin 16, if colN E (M + l.val) = n.val then 1 else 0

theorem pre_add16 (E : IVec SE 32) (n : Fin 10000) (a M : ℕ) (ha : a ≤ M) (hM : M + 16 ≤ 320000) :
    pre E n a (M + 16) = pre E n a M + blk E n M := pre_add E n a M ha 16 hM

/-- The specification's count is the number of edges of the share whose source is n. -/
theorem cnt_eq_pre (E : IVec SE 32) (w : Fin 32) (n : Fin 10000) : cnt E w n = pre E n (lo w.val) (hi w.val) := by
  unfold cnt pre
  rw [Finset.card_filter]
  simp only [colN_val]

/-- Raising the bound by a block of 128 counts its eight groups of sixteen. -/
theorem pre_add128 (E : IVec SE 32) (n : Fin 10000) (a B : ℕ) (ha : a ≤ B) (hB : B + 128 ≤ 320000) :
    pre E n a (B + 128) = pre E n a B + blk E n B + blk E n (B + 16) + blk E n (B + 32) + blk E n (B + 48) + blk E n (B + 64) + blk E n (B + 80) + blk E n (B + 96) + blk E n (B + 112) := by
  have e1 : pre E n a (B + 16) = pre E n a B + blk E n B :=
    pre_add16 E n a B (by omega) (by omega)
  have e2 : pre E n a (B + 32) = pre E n a (B + 16) + blk E n (B + 16) :=
    pre_add16 E n a (B + 16) (by omega) (by omega)
  have e3 : pre E n a (B + 48) = pre E n a (B + 32) + blk E n (B + 32) :=
    pre_add16 E n a (B + 32) (by omega) (by omega)
  have e4 : pre E n a (B + 64) = pre E n a (B + 48) + blk E n (B + 48) :=
    pre_add16 E n a (B + 48) (by omega) (by omega)
  have e5 : pre E n a (B + 80) = pre E n a (B + 64) + blk E n (B + 64) :=
    pre_add16 E n a (B + 64) (by omega) (by omega)
  have e6 : pre E n a (B + 96) = pre E n a (B + 80) + blk E n (B + 80) :=
    pre_add16 E n a (B + 80) (by omega) (by omega)
  have e7 : pre E n a (B + 112) = pre E n a (B + 96) + blk E n (B + 96) :=
    pre_add16 E n a (B + 96) (by omega) (by omega)
  have e8 : pre E n a (B + 128) = pre E n a (B + 112) + blk E n (B + 112) :=
    pre_add16 E n a (B + 112) (by omega) (by omega)
  rw [e8, e7, e6, e5, e4, e3, e2, e1]

/-! ## The worker's share, in closed form -/

/-- The worker's number. -/
def wk (L : grid0.Coords) : ℕ := 2 * (L 1).val + (L 0).val

theorem wk_lt (L : grid0.Coords) : wk L < 32 := by
  have h0 : (L 0).val < 2 := (L 0).isLt
  have h1 : (L 1).val < 16 := (L 1).isLt
  unfold wk
  omega

/-- The loop makes 78 trips, one more for each of the first four workers. -/
theorem trips_eq : ∀ L : grid0.Coords,
    (k0_t2_loop L).trips = 78 + (if 2 * (L 1).val + (L 0).val < 4 then 1 else 0) := by
  decide +kernel

/-- The offsets of group r of trip k: row 1, column 128 · (first block − the window's first block + k) + 16 r. -/
theorem off3_eq : ∀ (L : grid0.Coords) (k : Fin (k0_t2_loop L).trips) (r : Fin 8),
    k0_off3 L k (BitVec.ofNat 32 (16 * r.val))
      = ![1, 128 * ((78 * (2 * (L 1).val + (L 0).val) + min (2 * (L 1).val + (L 0).val) 4
              - min (78 * (2 * (L 1).val + (L 0).val) + min (2 * (L 1).val + (L 0).val) 4) 2421) + k.val)
            + 16 * r.val] := by
  decide +kernel

/-- Group r of trip k reads row 1, and the column it starts at, moved by the window's first column, is edge
    lo w + 128 k + 16 r of the table. -/
theorem group_cols (L : grid0.Coords) (k : Fin (k0_t2_loop L).trips) (r : Fin 8) :
    (k0_off3 L k (BitVec.ofNat 32 (16 * r.val))) 0 = 1
      ∧ k0_off1 L 0 = 0
      ∧ k0_off1 L 1 + (k0_off3 L k (BitVec.ofNat 32 (16 * r.val))) 1 = lo (wk L) + 128 * k.val + 16 * r.val := by
  have e0 : ∀ a b : ℕ, (![a, b] : Fin 2 → ℕ) 0 = a := fun _ _ => rfl
  have e1 : ∀ a b : ℕ, (![a, b] : Fin 2 → ℕ) 1 = b := fun _ _ => rfl
  rw [off3_eq L k r, k0_off1_eq L]
  refine ⟨e0 _ _, e0 _ _, ?_⟩
  rw [e1, e1]
  unfold lo wk
  omega

/-! ## One group, one trip, all trips -/

/-- One group: the add-store of the sixteen words loaded at (1, c), where column c of the window is edge M of the table,
    adds to entry n the number of the sixteen edges from M on whose source is n. -/
theorem bump_group (L : grid0.Coords) (E : IVec SE 32) (hE : ∀ j, (E j).toNat < 10000) (g : Vec Ideal S10000 .f32)
    (off : Fin 2 → Nat) (hoff : ∀ a, off a + S1x16.size a ≤ S2x10112.size a)
    (hin : ∀ a x, ((![lanes (win (F := Ideal) L E) off hoff] : Fin 1 → IVec S16 32) a x).toNat < S10000.size a)
    (n : Fin 10000) (M : ℕ) (h0 : off 0 = 1) (hw0 : k0_off1 L 0 = 0) (h1 : k0_off1 L 1 + off 1 = M)
    (hM : M + 16 ≤ 320000) :
    bump (F := Ideal) g (lanes (win (F := Ideal) L E) off hoff) hin (ix1 n)
      = g (ix1 n) + (((blk E n M : ℕ) : ℝ) : EReal) := by
  rw [bump_apply]
  unfold blk
  refine congrArg (fun c : ℕ => g (ix1 n) + ((c : ℝ) : EReal)) (Finset.sum_congr rfl fun l _ => ?_)
  have hword : (lanes (win (F := Ideal) L E) off hoff (ix1 l)).toNat = colN E (M + l.val) := by
    have hb1 : off 1 + 16 ≤ 10112 := hoff 1
    have hl := l.isLt
    rw [lanes_apply (win (F := Ideal) L E) off hoff l (ix2 (1 : Fin 2) (⟨off 1 + l.val, by omega⟩ : Fin 10112)) h0.symm rfl,
      win_apply L E _ (ix2 (1 : Fin 2) (⟨M + l.val, by omega⟩ : Fin 320000)) (by rw [hw0]; rfl)
        (by show M + l.val = k0_off1 L 1 + (off 1 + l.val); omega)]
    unfold colN
    rw [dif_pos (by omega)]
    rfl
  rw [hword]

/-- One trip: block k of the share, its eight groups in turn. -/
theorem trip_apply (L : grid0.Coords) (E : IVec SE 32) (hE : ∀ j, (E j).toNat < 10000)
    (k : Fin (k0_t2_loop L).trips) (g : Vec Ideal S10000 .f32) (n : Fin 10000) :
    trip (F := Ideal) (win L E) (win_inRange L E hE) L k g (ix1 n)
      = g (ix1 n) + (((blk E n (lo (wk L) + 128 * k.val) : ℕ) : ℝ) : EReal)
          + (((blk E n ((lo (wk L) + 128 * k.val) + 16) : ℕ) : ℝ) : EReal)
          + (((blk E n ((lo (wk L) + 128 * k.val) + 32) : ℕ) : ℝ) : EReal)
          + (((blk E n ((lo (wk L) + 128 * k.val) + 48) : ℕ) : ℝ) : EReal)
          + (((blk E n ((lo (wk L) + 128 * k.val) + 64) : ℕ) : ℝ) : EReal)
          + (((blk E n ((lo (wk L) + 128 * k.val) + 80) : ℕ) : ℝ) : EReal)
          + (((blk E n ((lo (wk L) + 128 * k.val) + 96) : ℕ) : ℝ) : EReal)
          + (((blk E n ((lo (wk L) + 128 * k.val) + 112) : ℕ) : ℝ) : EReal) := by
  have hk : k.val < 78 + (if wk L < 4 then 1 else 0) := lt_of_lt_of_eq k.isLt (trips_eq L)
  have hw := wk_lt L
  have hB : lo (wk L) + 128 * k.val + 128 ≤ 320000 := by
    unfold lo
    split_ifs at hk <;> omega
  have w0 : k0_off1 L 0 = 0 := (group_cols L k 0).2.1
  have a0 : (k0_off3 L k 0#32) 0 = 1 := (group_cols L k 0).1
  have c0 : k0_off1 L 1 + (k0_off3 L k 0#32) 1 = lo (wk L) + 128 * k.val + 0 := (group_cols L k 0).2.2
  have a1 : (k0_off3 L k 16#32) 0 = 1 := (group_cols L k 1).1
  have c1 : k0_off1 L 1 + (k0_off3 L k 16#32) 1 = lo (wk L) + 128 * k.val + 16 := (group_cols L k 1).2.2
  have a2 : (k0_off3 L k 32#32) 0 = 1 := (group_cols L k 2).1
  have c2 : k0_off1 L 1 + (k0_off3 L k 32#32) 1 = lo (wk L) + 128 * k.val + 32 := (group_cols L k 2).2.2
  have a3 : (k0_off3 L k 48#32) 0 = 1 := (group_cols L k 3).1
  have c3 : k0_off1 L 1 + (k0_off3 L k 48#32) 1 = lo (wk L) + 128 * k.val + 48 := (group_cols L k 3).2.2
  have a4 : (k0_off3 L k 64#32) 0 = 1 := (group_cols L k 4).1
  have c4 : k0_off1 L 1 + (k0_off3 L k 64#32) 1 = lo (wk L) + 128 * k.val + 64 := (group_cols L k 4).2.2
  have a5 : (k0_off3 L k 80#32) 0 = 1 := (group_cols L k 5).1
  have c5 : k0_off1 L 1 + (k0_off3 L k 80#32) 1 = lo (wk L) + 128 * k.val + 80 := (group_cols L k 5).2.2
  have a6 : (k0_off3 L k 96#32) 0 = 1 := (group_cols L k 6).1
  have c6 : k0_off1 L 1 + (k0_off3 L k 96#32) 1 = lo (wk L) + 128 * k.val + 96 := (group_cols L k 6).2.2
  have a7 : (k0_off3 L k 112#32) 0 = 1 := (group_cols L k 7).1
  have c7 : k0_off1 L 1 + (k0_off3 L k 112#32) 1 = lo (wk L) + 128 * k.val + 112 := (group_cols L k 7).2.2
  unfold trip
  rw [bump_group L E hE _ _ _ _ n (lo (wk L) + 128 * k.val + 112) a7 w0 c7 (by omega),
    bump_group L E hE _ _ _ _ n (lo (wk L) + 128 * k.val + 96) a6 w0 c6 (by omega),
    bump_group L E hE _ _ _ _ n (lo (wk L) + 128 * k.val + 80) a5 w0 c5 (by omega),
    bump_group L E hE _ _ _ _ n (lo (wk L) + 128 * k.val + 64) a4 w0 c4 (by omega),
    bump_group L E hE _ _ _ _ n (lo (wk L) + 128 * k.val + 48) a3 w0 c3 (by omega),
    bump_group L E hE _ _ _ _ n (lo (wk L) + 128 * k.val + 32) a2 w0 c2 (by omega),
    bump_group L E hE _ _ _ _ n (lo (wk L) + 128 * k.val + 16) a1 w0 c1 (by omega),
    bump_group L E hE _ _ _ _ n (lo (wk L) + 128 * k.val) a0 w0 c0 (by omega)]

/-- After k trips entry n counts the edges of the share's first k blocks whose source is n. -/
theorem histK_count (L : grid0.Coords) (E : IVec SE 32) (hE : ∀ j, (E j).toNat < 10000) (n : Fin 10000) :
    ∀ k : ℕ, k ≤ (k0_t2_loop L).trips →
      histK (F := Ideal) (win L E) (win_inRange L E hE) L (zeros (F := Ideal)) k (ix1 n)
        = (((pre E n (lo (wk L)) (lo (wk L) + 128 * k) : ℕ) : ℝ) : EReal) := by
  intro k
  induction k with
  | zero =>
    intro _
    rw [Nat.mul_zero, Nat.add_zero, pre_self]
    show Ideal.ofBits .f32 0x00000000#32 = _
    rw [Ideal.ofBits_zero_f32]
    simp
  | succ k ih =>
    intro hk
    have hk' : k < (k0_t2_loop L).trips := hk
    have hT : k < 78 + (if wk L < 4 then 1 else 0) := lt_of_lt_of_eq hk' (trips_eq L)
    have hw := wk_lt L
    have hB : lo (wk L) + 128 * k + 128 ≤ 320000 := by
      unfold lo
      split_ifs at hT <;> omega
    rw [show histK (F := Ideal) (win L E) (win_inRange L E hE) L (zeros (F := Ideal)) (k + 1)
        = trip (F := Ideal) (win L E) (win_inRange L E hE) L ⟨k, hk'⟩
            (histK (F := Ideal) (win L E) (win_inRange L E hE) L (zeros (F := Ideal)) k)
        from histK_succ _ _ L _ ⟨k, hk'⟩,
      trip_apply L E hE, ih (Nat.le_of_lt hk'),
      show lo (wk L) + 128 * (k + 1) = lo (wk L) + 128 * k + 128 by omega,
      pre_add128 E n _ _ (Nat.le_add_right _ _) hB]
    simp only [Nat.cast_add, EReal.coe_add]

/-- THE ROW: after the worker's last trip, entry n of its counting scratch is the number of its share's edges whose
    source is n, as an extended real. -/
theorem hist_row (L : Cert.KernelIdeal.grid0.Coords) (E : IVec Cert.Spec.SE 32) (hE : ∀ j, (E j).toNat < 10000)
    (n : Fin 10000) :
    Cert.KernelIdeal.HistFold.histK (F := Ideal) (Cert.KernelIdeal.HistFold.win L E)
        (Cert.KernelIdeal.HistFold.win_inRange L E hE) L (Cert.KernelIdeal.HistFold.zeros (F := Ideal))
        (Cert.KernelIdeal.k0_t2_loop L).trips (ValueIdx.ix1 n)
      = (((Cert.Spec.cnt E (⟨2 * (L 1).val + (L 0).val, by
            have h0 : (L 0).val < 2 := (L 0).isLt
            have h1 : (L 1).val < 16 := (L 1).isLt
            omega⟩ : Fin 32) n : ℕ) : ℝ) : EReal) := by
  rw [histK_count L E hE n _ (Nat.le_refl _), cnt_eq_pre]
  show (((pre E n (lo (wk L)) (lo (wk L) + 128 * (k0_t2_loop L).trips) : ℕ) : ℝ) : EReal)
    = (((pre E n (lo (wk L)) (hi (wk L)) : ℕ) : ℝ) : EReal)
  rw [trips_eq L]
  rfl

end Cert.HistSide

end
-- ==== Proof.lean ====
/-
  The five claims. The kernel counts, per worker, how many of its edges have each node as source (a [32, 10000]
  histogram, on the vector subcores), and the TensorCore then computes x·W₁ᵀ + (((Σ_w H x)·(1/320000))·W₂ᵀ + b);
  the reference gathers the source nodes' rows, averages them over all 320000 edges, concatenates the mean to
  every node's features and applies the layer. At the ideal instance both are the function `Spec.G`: the
  histogram turns the sum over edges into a sum over (worker, node) pairs, which for finite features is the
  same sum; the named constant is 1/320000 and the reference's division by 320000 is the product with it.
-/
import proofs.«215102_g56573309223269_cont_9to1_m_676_32_alg».proof.Defs
import proofs.«215102_g56573309223269_cont_9to1_m_676_32_alg».proof.Proof.Gen.Kernel
import proofs.«215102_g56573309223269_cont_9to1_m_676_32_alg».proof.Proof.Gen.KernelIdeal
import proofs.«215102_g56573309223269_cont_9to1_m_676_32_alg».proof.Proof.Gen.ReferenceIdeal
import proofs.«215102_g56573309223269_cont_9to1_m_676_32_alg».proof.Proof.Gen.Pre_input_domain
import proofs.«215102_g56573309223269_cont_9to1_m_676_32_alg».proof.Proof.Gen.ReferenceIdeal.Run
import proofs.«215102_g56573309223269_cont_9to1_m_676_32_alg».proof.Proof.Gen.ReferenceIdeal.Read
import proofs.«215102_g56573309223269_cont_9to1_m_676_32_alg».proof.Proof.Main
import proofs.«215102_g56573309223269_cont_9to1_m_676_32_alg».proof.Proof.Bits.Main
import proofs.«215102_g56573309223269_cont_9to1_m_676_32_alg».proof.Proof.PreFacts
import proofs.«215102_g56573309223269_cont_9to1_m_676_32_alg».proof.Proof.RefValue
import proofs.«215102_g56573309223269_cont_9to1_m_676_32_alg».proof.Proof.TcValue
import proofs.«215102_g56573309223269_cont_9to1_m_676_32_alg».proof.Proof.HistValue
import Idealize.ShloMosaic.PureOps.IdealRules
import Idealize.ShloMosaic.Adequacy
import Idealize.ShloMosaic.Init

noncomputable section

namespace Cert.Proof

open Idealize.ShloMosaic Idealize.SL.Sem Idealize.ShloMosaic.ValueIdx

attribute [local instance] Cert.Kernel.Gen.facts Cert.KernelIdeal.Gen.facts Cert.ReferenceIdeal.Gen.facts Cert.Pre_input_domain.Gen.facts

/-- Every worker number is that of one vector subcore: `w = 2·(w / 2) + w % 2`. -/
theorem wid_surj (w : Fin 32) : ∃ (c : Fin 2) (i : Fin 16), Cert.KernelIdeal.Tile.wid (Cert.KernelIdeal.Tile.coordsV c i) = w :=
  ⟨⟨w.val % 2, Nat.mod_lt _ (by decide)⟩, ⟨w.val / 2, by have := w.isLt; omega⟩, Fin.ext (by
    show 2 * (w.val / 2) + w.val % 2 = w.val
    omega)⟩

/-- An array whose rows are the workers' counting folds is the specification's histogram. -/
theorem hist_of_rows (E : IVec Cert.Spec.SE 32) (hE : ∀ j, (E j).toNat < 10000) (Hf : Vec Ideal Cert.KernelIdeal.S32x10000 .f32)
    (h : ∀ (c : Fin 2) (i : Fin 16) (n : Fin 10000), Hf (ix2 (Cert.KernelIdeal.Tile.wid (Cert.KernelIdeal.Tile.coordsV c i)) n)
      = Cert.KernelIdeal.Tile.rowVal (F := Ideal) (Cert.KernelIdeal.Tile.coordsV c i) E hE (ix1 n)) :
    Hf = Cert.Spec.hist E := by
  funext j
  obtain ⟨w, n, rfl⟩ : ∃ (w : Fin 32) (n : Fin 10000), j = ix2 w n := ⟨j 0, j 1, eq_ix2 j⟩
  obtain ⟨c, i, rfl⟩ := wid_surj w
  rw [h c i n]
  exact Cert.HistSide.hist_row (Cert.KernelIdeal.Tile.coordsV c i) E hE n

theorem frame_k : Cert.frame_Kernel := fun m ρ hpre =>
  (θ_run Cert.Kernel.defs _ _).mono (fun _ h c => ⟨(h c).2.1, (h c).2.2.1, (h c).2.2.2.1, (h c).2.2.2.2⟩)
    (Cert.Kernel.Main.run_main (F := Bits) m ρ (fun d => Cert.RefSide.idx_lt_of_pre _ _ _ _ (hpre d)))

theorem frame_ki : Cert.frame_KernelIdeal := fun m ρ hpre =>
  (θ_run Cert.KernelIdeal.defs _ _).mono (fun _ h c => ⟨(h c).2.1, (h c).2.2.1, (h c).2.2.2.1, (h c).2.2.2.2⟩)
    (Cert.KernelIdeal.Main.run_main (F := Ideal) m ρ (fun d => Cert.RefSide.idx_lt_of_pre _ _ _ _ (hpre d)))

theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the table gives the name the value 1/320000. -/
theorem preserves : Cert.preserves_Kernel_KernelIdeal :=
  IdealRules.named_const.statement Cert.KernelIdeal.κ "inv_320000" .f32 0x3651B717#32 ((1 / 320000 : ℝ) : EReal) rfl

theorem algebraic : Cert.algebraic_KernelIdeal_ReferenceIdeal := by
  intro m ρ m' ρ' hpre hagree
  have hE : Cert.KernelIdeal.Tile.PreOK (F := Ideal) m := fun d => Cert.RefSide.idx_lt_of_pre _ _ _ _ (hpre d)
  have hx : ∀ d, ∀ j, ∃ r : ℝ, (m (Cert.KernelIdeal.Setup.xLoc d) : Vec Ideal Cert.KernelIdeal.S10000x128 .f32) j = (r : EReal) :=
    fun d => Cert.RefSide.x_finite_of_pre _ _ _ _ (hpre d)
  refine ⟨fun c => Cert.Spec.G (m (Cert.KernelIdeal.Setup.xLoc c)) (m (Cert.KernelIdeal.Setup.eLoc c)) (m (Cert.KernelIdeal.Setup.wLoc c)) (m (Cert.KernelIdeal.Setup.bLoc c)), ?_, ?_⟩
  · refine (θ_run Cert.KernelIdeal.defs _ _).mono (fun r h c => ?_) (Cert.KernelIdeal.Main.run_main (F := Ideal) m ρ hE)
    obtain ⟨⟨Hf, hHf, ho⟩, hx', he', hw', hb'⟩ := h c
    refine ⟨ho.trans ?_, hx', he', hw', hb'⟩
    exact Cert.TcSide.tc_value _ _ _ _ _ _ _ _ (Cert.KernelIdeal.TcRegion.W1_apply _) (Cert.KernelIdeal.TcRegion.W2_apply _)
      (hist_of_rows _ (hE c) Hf hHf) (Cert.KernelIdeal.Main.B1_apply m c) (hx c) (hE c)
  · refine (θ_run Cert.ReferenceIdeal.defs _ _).mono (fun r h c => ⟨?_, (h c).2⟩) (Cert.ReferenceIdeal.Value.run (F := Ideal) m' ρ')
    rw [(h c).1, Cert.ReferenceIdeal.Read.val_main_v21_eq, (hagree c).1, (hagree c).2.1, (hagree c).2.2.1, (hagree c).2.2.2]
    exact Cert.RefSide.ref_eq_G _ _ _ _ (hE c)

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
